-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : FVec F S128x128 .f32) (main_arg2 : FVec F S128 .f32) (main_arg3 : FVec F S128 .f32) (main_arg4 : FVec F S128 .f32) (main_arg5 : IVec S800000 32) (main_arg6 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S2x1x128 : Shape := ⟨3, ![2, 1, 128]⟩
abbrev S5000x128 : Shape := ⟨2, ![5000, 128]⟩
abbrev S5000x1 : Shape := ⟨2, ![5000, 1]⟩
abbrev S1x1x128 : Shape := ⟨3, ![1, 1, 128]⟩
abbrev S2x128 : Shape := ⟨2, ![2, 128]⟩
abbrev S10000x128 : Shape := ⟨2, ![10000, 128]⟩

abbrev nBuf : Space → Nat
  | .hbm => 65
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S800000, .i32⟩
  | .hbm, ⟨6, _⟩ => ⟨S800000, .i32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S_, .f32⟩
  | .hbm, ⟨17, _⟩ => ⟨S50000x128, .f32⟩
  | .hbm, ⟨18, _⟩ => ⟨S800000x1, .i32⟩
  | .hbm, ⟨19, _⟩ => ⟨S50000x128, .f32⟩
  | .hbm, ⟨20, _⟩ => ⟨S_, .f32⟩
  | .hbm, ⟨21, _⟩ => ⟨S800000, .f32⟩
  | .hbm, ⟨22, _⟩ => ⟨S_, .f32⟩
  | .hbm, ⟨23, _⟩ => ⟨S50000, .f32⟩
  | .hbm, ⟨24, _⟩ => ⟨S800000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S128x128, .f32⟩
  | .hbm, ⟨38, _⟩ => ⟨S128x128, .bf16⟩
  | .hbm, ⟨39, _⟩ => ⟨S1x128, .f32⟩
  | .hbm, ⟨40, _⟩ => ⟨S50000x128, .f32⟩
  | .hbm, ⟨41, _⟩ => ⟨S2x1x128, .f32⟩
  | .hbm, ⟨42, _⟩ => ⟨S2x1x128, .f32⟩
  | .hbm, ⟨43, _⟩ => ⟨S2x128, .f32⟩
  | .hbm, ⟨44, _⟩ => ⟨S_, .f32⟩
  | .hbm, ⟨45, _⟩ => ⟨S128, .f32⟩
  | .hbm, ⟨46, _⟩ => ⟨S2x128, .f32⟩
  | .hbm, ⟨47, _⟩ => ⟨S_, .f32⟩
  | .hbm, ⟨48, _⟩ => ⟨S128, .f32⟩
  | .hbm, ⟨49, _⟩ => ⟨S_, .f32⟩
  | .hbm, ⟨50, _⟩ => ⟨S128, .f32⟩
  | .hbm, ⟨51, _⟩ => ⟨S128, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S128, .f32⟩
  | .hbm, ⟨56, _⟩ => ⟨S128, .f32⟩
  | .hbm, ⟨57, _⟩ => ⟨S_, .f32⟩
  | .hbm, ⟨58, _⟩ => ⟨S128, .f32⟩
  | .hbm, ⟨59, _⟩ => ⟨S128, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .bf16⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1x128, .f32⟩
  | .local _ .vmem, ⟨13, _⟩ => ⟨S1x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S10000x128, .f32⟩
  | .local _ .vmem, ⟨23, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_call0_v0 : Ref sig .tc := ⟨.hbm, 33, rfl⟩
abbrev main_call0_v1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23_0 : Ref sig .tc := ⟨.hbm, 40, rfl⟩
abbrev main_v23_1 : Ref sig .tc := ⟨.hbm, 41, rfl⟩
abbrev main_v23_2 : Ref sig .tc := ⟨.hbm, 42, rfl⟩
abbrev main_v24 : Ref sig .tc := ⟨.hbm, 43, rfl⟩
abbrev main_cst_6 : Ref sig .tc := ⟨.hbm, 44, rfl⟩
abbrev main_v25 : Ref sig .tc := ⟨.hbm, 45, rfl⟩
abbrev main_v26 : Ref sig .tc := ⟨.hbm, 46, rfl⟩
abbrev main_cst_7 : Ref sig .tc := ⟨.hbm, 47, rfl⟩
abbrev main_v27 : Ref sig .tc := ⟨.hbm, 48, rfl⟩
abbrev main_cst_8 : Ref sig .tc := ⟨.hbm, 49, rfl⟩
abbrev main_v28 : Ref sig .tc := ⟨.hbm, 50, rfl⟩
abbrev main_v29 : Ref sig .tc := ⟨.hbm, 51, rfl⟩
abbrev main_cst_9 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_10 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨2, ![2, 5], ![false, false]⟩

def k0_cond2 (i : grid0.Coords) : BitVec 1 :=
  let arg1 : BitVec 32 := BitVec.ofNat 32 (i 1).val
  let c4_i32 : BitVec 32 := 4#32
  let v33 : BitVec 1 := Scalar.cmpi .eq arg1 c4_i32
  let v34 : BitVec 32 := Scalar.extui v33
  let c0_i32_20 : BitVec 32 := 0#32
  let v35 : BitVec 1 := Scalar.cmpi .ne v34 c0_i32_20
  v35

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  transposes_S128x128_S128x128_1_0 : S128x128.Transposes [1, 0] S128x128
  bitsLt_bf16_f32 : FTy.bits .bf16 < FTy.bits .f32
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  reduces_S5000x128_S128 : S5000x128.Reduces [0] S128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  shapeCasts_S2x1x128_S2x128 : S2x1x128.ShapeCasts S2x128
  reducesTo_S2x128_S128_d0 : S2x128.ReducesTo [0] S128
  h_S_ : 0 < S_.numel
  bcast_S_S128 : S_.BroadcastsInDim S128 (![] : Fin 0 → Fin S128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S1x128_S10000x128 : S1x128.Broadcasts S10000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S2x1x128.size a
  hwx0_5 : ∀ i : grid0.Coords, EltTy.bits .f32 = 32 ∨ (Rect.block (s := S2x1x128) S1x1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S2x1x128.size a
  hwx0_6 : ∀ i : grid0.Coords, EltTy.bits .f32 = 32 ∨ (Rect.block (s := S2x1x128) S1x1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S50000x128.size a
  hwx1_1 : ∀ i : grid1.Coords, EltTy.bits .f32 = 32 ∨ (Rect.block (s := S50000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x128.size a ≤ S50000x128.size a
  hwx1_6 : ∀ i : grid1.Coords, EltTy.bits .f32 = 32 ∨ (Rect.block (s := S50000x128) S10000x128.size (cc1_transform_6 i) (hinb1_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v23_1) S1x1x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v23_2) S1x1x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v23_0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S10000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S800000, .i32⟩
  | .hbm, ⟨6, _⟩ => ⟨S800000, .i32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S_, .f32⟩
  | .hbm, ⟨17, _⟩ => ⟨S50000x128, .f32⟩
  | .hbm, ⟨18, _⟩ => ⟨S800000x1, .i32⟩
  | .hbm, ⟨19, _⟩ => ⟨S50000x128, .f32⟩
  | .hbm, ⟨20, _⟩ => ⟨S_, .f32⟩
  | .hbm, ⟨21, _⟩ => ⟨S800000, .f32⟩
  | .hbm, ⟨22, _⟩ => ⟨S_, .f32⟩
  | .hbm, ⟨23, _⟩ => ⟨S50000, .f32⟩
  | .hbm, ⟨24, _⟩ => ⟨S800000x1, .i32⟩
  | .hbm, ⟨25, _⟩ => ⟨S50000, .f32⟩
  | .hbm, ⟨26, _⟩ => ⟨S50000x1, .f32⟩
  | .hbm, ⟨27, _⟩ => ⟨S_, .f32⟩
  | .hbm, ⟨28, _⟩ => ⟨S50000x1, .f32⟩
  | .hbm, ⟨29, _⟩ => ⟨S50000x1, .i1⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S_, .f32⟩
  | .hbm, ⟨37, _⟩ => ⟨S_, .f32⟩
  | .hbm, ⟨38, _⟩ => ⟨S50000x128, .i1⟩
  | .hbm, ⟨39, _⟩ => ⟨S50000x128, .f32⟩
  | .hbm, ⟨40, _⟩ => ⟨S50000x128, .f32⟩
  | .hbm, ⟨41, _⟩ => ⟨S128x128, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S128, .f32⟩
  | .hbm, ⟨48, _⟩ => ⟨S_, .f32⟩
  | .hbm, ⟨49, _⟩ => ⟨S128, .f32⟩
  | .hbm, ⟨50, _⟩ => ⟨S128, .f32⟩
  | .hbm, ⟨51, _⟩ => ⟨S1x128, .f32⟩
  | .hbm, ⟨52, _⟩ => ⟨S50000x128, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S128, .f32⟩
  | .hbm, ⟨57, _⟩ => ⟨S_, .f32⟩
  | .hbm, ⟨58, _⟩ => ⟨S128, .f32⟩
  | .hbm, ⟨59, _⟩ => ⟨S128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S128, .f32⟩
  | .hbm, ⟨65, _⟩ => ⟨S128, .f32⟩
  | .hbm, ⟨66, _⟩ => ⟨S128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S50000x128, .f32⟩
  | .hbm, ⟨76, _⟩ => ⟨S_, .f32⟩
  | .hbm, ⟨77, _⟩ => ⟨S50000x128, .f32⟩
  | .hbm, ⟨78, _⟩ => ⟨S50000x128, .f32⟩
  | .hbm, ⟨79, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_cst_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_call1_cst : Ref sig .tc := ⟨.hbm, 76, rfl⟩
abbrev main_call1_v0 : Ref sig .tc := ⟨.hbm, 77, rfl⟩
abbrev main_v53 : Ref sig .tc := ⟨.hbm, 78, rfl⟩
abbrev main_v54 : Ref sig .tc := ⟨.hbm, 79, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Conds0K.lean ====
/-
  The first kernel's two branches, as conditions on the grid point, decided over the 2 × 5 grid in closed form:
  the scratch accumulators are reset where the inner coordinate is 0 and written out where it is 4.
  Where the write-out branch is not taken the two statistics windows are idle and not written back.
-/
import proofs.«118097_j46162308497632_2_alg».proof.Proof.Gen.Kernel.Launch
import proofs.«118097_j46162308497632_2_alg».proof.Proof.Gen.Kernel.Skeleton
import proofs.«118097_j46162308497632_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset branch is taken: the inner grid coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 5 = 0 :=
  (by decide +kernel : ∀ t : Fin grid0.N, cond0_0 (grid0.coords t) ↔ t.val % 5 = 0)

/-- The write-out branch is taken: the inner grid coordinate is 4. -/
abbrev cond0_1 (i : grid0.Coords) : Prop := k0_cond2 i = 1#1
theorem hcond0_1 : ∀ t : Fin cfg0.N, cond0_1 (grid0.coords t) ↔ t.val % 5 = 4 :=
  (by decide +kernel : ∀ t : Fin grid0.N, cond0_1 (grid0.coords t) ↔ t.val % 5 = 4)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem idleAt0_5 : ∀ t : Fin cfg0.N, ¬cond0_1 (grid0.coords t) → cfg0.idle 5 (grid0.coords t) = true := by decide +kernel
theorem idleAt0_6 : ∀ t : Fin cfg0.N, ¬cond0_1 (grid0.coords t) → cfg0.idle 6 (grid0.coords t) = true := by decide +kernel
theorem noFlush0_5 : ∀ t : Fin cfg0.N, ¬cond0_1 (grid0.coords t) → (cfg0.win 5).flush t = false := by decide +kernel
theorem noFlush0_6 : ∀ t : Fin cfg0.N, ¬cond0_1 (grid0.coords t) → (cfg0.win 6).flush t = false := by decide +kernel
theorem liveAt0_5 : ∀ t : Fin cfg0.N, cond0_1 (grid0.coords t) → cfg0.idle 5 (grid0.coords t) = false := by decide +kernel
theorem liveAt0_6 : ∀ t : Fin cfg0.N, cond0_1 (grid0.coords t) → cfg0.idle 6 (grid0.coords t) = false := by decide +kernel

/-- The staging memrefs the pipeline passes at point `t`, and the two scratch operands. -/
abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S5000x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x128 .f32 := win0_6.stage (cfg0.slots t 6)
abbrev hs0_6 (t : Fin cfg0.N) : (ms0_6 t).IsWhole := hstage0_6 ((cfg0.slots t 6).cast nbuf0_6)
abbrev scM0_0 : Memref sig .tc .vmem S1x128 .f32 := Memref.whole cc0_scratch0
abbrev scM0_1 : Memref sig .tc .vmem S1x128 .f32 := Memref.whole cc0_scratch1
/-- Views through which the contents of the two scratch buffers and of the three output windows are stated. -/
abbrev VS0_0 : View sig .tc .vmem S1x128 .f32 := scM0_0.view
abbrev VS0_1 : View sig .tc .vmem S1x128 .f32 := scM0_1.view
abbrev VO0_4 : View sig .tc .vmem S5000x128 .f32 := (Memref.whole cc0_stg4_0 : Memref sig .tc .vmem S5000x128 .f32).view
abbrev VO0_5 : View sig .tc .vmem S1x1x128 .f32 := (Memref.whole cc0_stg5_0 : Memref sig .tc .vmem S1x1x128 .f32).view
abbrev VO0_6 : View sig .tc .vmem S1x1x128 .f32 := (Memref.whole cc0_stg6_0 : Memref sig .tc .vmem S1x1x128 .f32).view

/-- The scoped buffers that are neither a staging buffer of the first call nor one of its two scratch accumulators. -/
abbrev rest0 (c : Dev nD) : sProp 𝕄 :=
  Pipeline.scopedRestBut (Ix := Unit) (Name := ℕ) (U := UR sig nD τ) (Lvl := ℕ) (Val := Elt F) spec0 c [cc0_scratch0, cc0_scratch1]

/-- The class invariant with the two scratch operands as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ rest0 c) ∗ (∃ r, prngReg c r)) := by
  unfold Pipeline.ΦA
  rw [Pipeline.scopedRest_split_of_list spec0 c [cc0_scratch0, cc0_scratch1] (by decide) (by decide)]
  simp only [scM0_0, scM0_1, owns_whole]
  rfl

end Cert.Kernel.Hand

end
-- ==== Proof.Run0AK.lean ====
/-
  The first kernel's body in case A of its two branches (reset taken, write-out not taken: the first step of each core's row range),
  run once on whole staging buffers: the four input buffers are handed back as they were; the linear layer's output
  buffer and the two scratch accumulators end with the pieces the body stored; the two statistics windows are handed back untouched.
-/
import proofs.«118097_j46162308497632_2_alg».proof.Proof.Conds0K
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun0_A (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 : Vec F S5000x128 .f32) (x1 : Vec F S5000x1 .f32) (x2 : Vec F S128x128 .bf16) (x3 : Vec F S1x128 .f32) :
    Σ' (L4 : List (View.Piece (Elt F) S5000x128 .f32)) (LS0 : List (View.Piece (Elt F) S1x128 .f32)), { LS1 : List (View.Piece (Elt F) S1x128 .f32) //
      ∀ (xi5 xi6 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__linear_stats_kernel i arg2 harg2 arg3 harg3 arg4 harg4 arg5 harg5 arg6 harg6 arg7 harg7 arg8 harg8 arg9 harg9 arg10 harg10) K } := by
  refine ⟨?_, ?_, ?_, fun xi5 xi6 E K => ?run⟩
  case run =>
    simp only [cc0__linear_stats_kernel_eq_skeleton]; unfold cc0__linear_stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d6, %f6, -, H6⟩, ⟨%f7, %hf7, H7⟩, ⟨%f8, %hf8, H8⟩, ⟨%d9, %f9, -, H9⟩, ⟨%d10, %f10, -, H10⟩, Hk⟩
    obtain rfl := harg2.eq_unread hf0; obtain rfl := harg3.eq_unread hf1; obtain rfl := harg4.eq_unread hf2; obtain rfl := harg5.eq_unread hf3
    obtain rfl := harg7.eq_unread hf7; obtain rfl := harg8.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    iexists _; iexact H10

end Cert.Kernel.Hand

end
-- ==== Proof.Run0BK.lean ====
/-
  The first kernel's body in case B of its two branches (neither taken: the middle steps),
  run once on whole staging buffers: the four input buffers are handed back as they were; the linear layer's output
  buffer and the two scratch accumulators end with the pieces the body stored; the two statistics windows are handed back untouched.
-/
import proofs.«118097_j46162308497632_2_alg».proof.Proof.Run0AK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun0_B (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 : Vec F S5000x128 .f32) (x1 : Vec F S5000x1 .f32) (x2 : Vec F S128x128 .bf16) (x3 : Vec F S1x128 .f32) (xs0 xs1 : Vec F S1x128 .f32) :
    Σ' (L4 : List (View.Piece (Elt F) S5000x128 .f32)) (LS0 : List (View.Piece (Elt F) S1x128 .f32)), { LS1 : List (View.Piece (Elt F) S1x128 .f32) //
      ∀ (xi5 xi6 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__linear_stats_kernel i arg2 harg2 arg3 harg3 arg4 harg4 arg5 harg5 arg6 harg6 arg7 harg7 arg8 harg8 arg9 harg9 arg10 harg10) K } := by
  refine ⟨?_, ?_, ?_, fun xi5 xi6 E K => ?run⟩
  case run =>
    simp only [cc0__linear_stats_kernel_eq_skeleton]; unfold cc0__linear_stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d6, %f6, -, H6⟩, ⟨%f7, %hf7, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3
    obtain rfl := harg7.eq_unread hf7; obtain rfl := harg8.eq_unread hf8
    obtain rfl := harg9.eq_unread hf9; obtain rfl := harg10.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    iexists _; iexact H10

end Cert.Kernel.Hand

end
-- ==== Proof.Run0CK.lean ====
/-
  The first kernel's body in case C of its two branches (reset not taken, write-out taken: the last step of each core's row range),
  run once on whole staging buffers: the four input buffers are handed back as they were; the linear layer's output
  buffer and the two scratch accumulators end with the pieces the body stored, and so do the two statistics windows.
-/
import proofs.«118097_j46162308497632_2_alg».proof.Proof.Run0BK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun0_C (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S5000x1 .f32) (x2 : Vec F S128x128 .bf16) (x3 : Vec F S1x128 .f32) (xs0 xs1 : Vec F S1x128 .f32) :
    Σ' (L4 : List (View.Piece (Elt F) S5000x128 .f32)) (L5 : List (View.Piece (Elt F) S1x1x128 .f32)) (L6 : List (View.Piece (Elt F) S1x1x128 .f32)) (LS0 : List (View.Piece (Elt F) S1x128 .f32)), { LS1 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__linear_stats_kernel i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__linear_stats_kernel_eq_skeleton]; unfold cc0__linear_stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%d8, %f8, -, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3
    obtain rfl := harg9.eq_unread hf9; obtain rfl := harg10.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; iexact H6
    isplitl [H7]
    · iexists _; iexact H7
    isplitl [H8]
    · iexists _; iexact H8
    isplitl [H9]
    · iexists _; iexact H9
    iexists _; iexact H10

end Cert.Kernel.Hand

end
-- ==== Proof.R0K.lean ====
/-
  The first call's pipeline: what its windows and its two scratch accumulators hold point by point. The four input
  windows' staging buffers hold their arrays' blocks at every point. What the body leaves depends on the step within a
  core's row range: at the first step the accumulators are reset and then take the block's column sums, at the middle
  steps they add the block's column sums to what the step before left, and at the last step they are also written to
  the two statistics windows (idle, and not written back, at every other step). The accumulators' contents are carried
  from one point to the next in the region's invariant.
-/
import proofs.«118097_j46162308497632_2_alg».proof.Proof.Run0CK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves: its pieces read back -/
theorem cover0_A_4 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 : Vec F S5000x128 .f32) (x1 : Vec F S5000x1 .f32) (x2 : Vec F S128x128 .bf16) (x3 : Vec F S1x128 .f32) (y : S5000x128.Idx) :
    ∃ pc ∈ (kernelRun0_A c i arg2 harg2 arg3 harg3 arg4 harg4 arg5 harg5 arg6 harg6 arg7 harg7 arg8 harg8 arg9 harg9 arg10 harg10 hc0 hc1 x0 x1 x2 x3).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3).1 S5000x128.size (by sl_kernel_rfl) y
def out0_A_4 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 : Vec F S5000x128 .f32) (x1 : Vec F S5000x1 .f32) (x2 : Vec F S128x128 .bf16) (x3 : Vec F S1x128 .f32) : Vec F S5000x128 .f32 :=
  VO0_4.read (Elt F) (VO0_4.writes (Elt F) VO0_4.junk (kernelRun0_A c i arg2 harg2 arg3 harg3 arg4 harg4 arg5 harg5 arg6 harg6 arg7 harg7 arg8 harg8 arg9 harg9 arg10 harg10 hc0 hc1 x0 x1 x2 x3).1)
theorem scover0_A_0 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 : Vec F S5000x128 .f32) (x1 : Vec F S5000x1 .f32) (x2 : Vec F S128x128 .bf16) (x3 : Vec F S1x128 .f32) (y : S1x128.Idx) :
    ∃ pc ∈ (kernelRun0_A c i arg2 harg2 arg3 harg3 arg4 harg4 arg5 harg5 arg6 harg6 arg7 harg7 arg8 harg8 arg9 harg9 arg10 harg10 hc0 hc1 x0 x1 x2 x3).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3).2.1 S1x128.size (by sl_kernel_rfl) y
def sout0_A_0 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 : Vec F S5000x128 .f32) (x1 : Vec F S5000x1 .f32) (x2 : Vec F S128x128 .bf16) (x3 : Vec F S1x128 .f32) : Vec F S1x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3).2.1)
theorem scover0_A_1 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 : Vec F S5000x128 .f32) (x1 : Vec F S5000x1 .f32) (x2 : Vec F S128x128 .bf16) (x3 : Vec F S1x128 .f32) (y : S1x128.Idx) :
    ∃ pc ∈ (kernelRun0_A c i arg2 harg2 arg3 harg3 arg4 harg4 arg5 harg5 arg6 harg6 arg7 harg7 arg8 harg8 arg9 harg9 arg10 harg10 hc0 hc1 x0 x1 x2 x3).2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3).2.2.1 S1x128.size (by sl_kernel_rfl) y
def sout0_A_1 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 : Vec F S5000x128 .f32) (x1 : Vec F S5000x1 .f32) (x2 : Vec F S128x128 .bf16) (x3 : Vec F S1x128 .f32) : Vec F S1x128 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 x0 x1 x2 x3).2.2.1)
theorem cover0_B_4 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 : Vec F S5000x128 .f32) (x1 : Vec F S5000x1 .f32) (x2 : Vec F S128x128 .bf16) (x3 : Vec F S1x128 .f32) (xs0 xs1 : Vec F S1x128 .f32) (y : S5000x128.Idx) :
    ∃ pc ∈ (kernelRun0_B c i arg2 harg2 arg3 harg3 arg4 harg4 arg5 harg5 arg6 harg6 arg7 harg7 arg8 harg8 arg9 harg9 arg10 harg10 hc0 hc1 x0 x1 x2 x3 xs0 xs1).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xs0 xs1).1 S5000x128.size (by sl_kernel_rfl) y
def out0_B_4 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 : Vec F S5000x128 .f32) (x1 : Vec F S5000x1 .f32) (x2 : Vec F S128x128 .bf16) (x3 : Vec F S1x128 .f32) (xs0 xs1 : Vec F S1x128 .f32) : Vec F S5000x128 .f32 :=
  VO0_4.read (Elt F) (VO0_4.writes (Elt F) VO0_4.junk (kernelRun0_B c i arg2 harg2 arg3 harg3 arg4 harg4 arg5 harg5 arg6 harg6 arg7 harg7 arg8 harg8 arg9 harg9 arg10 harg10 hc0 hc1 x0 x1 x2 x3 xs0 xs1).1)
theorem scover0_B_0 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 : Vec F S5000x128 .f32) (x1 : Vec F S5000x1 .f32) (x2 : Vec F S128x128 .bf16) (x3 : Vec F S1x128 .f32) (xs0 xs1 : Vec F S1x128 .f32) (y : S1x128.Idx) :
    ∃ pc ∈ (kernelRun0_B c i arg2 harg2 arg3 harg3 arg4 harg4 arg5 harg5 arg6 harg6 arg7 harg7 arg8 harg8 arg9 harg9 arg10 harg10 hc0 hc1 x0 x1 x2 x3 xs0 xs1).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xs0 xs1).2.1 S1x128.size (by sl_kernel_rfl) y
def sout0_B_0 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 : Vec F S5000x128 .f32) (x1 : Vec F S5000x1 .f32) (x2 : Vec F S128x128 .bf16) (x3 : Vec F S1x128 .f32) (xs0 xs1 : Vec F S1x128 .f32) : Vec F S1x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 xs0 xs1).2.1)
theorem scover0_B_1 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 : Vec F S5000x128 .f32) (x1 : Vec F S5000x1 .f32) (x2 : Vec F S128x128 .bf16) (x3 : Vec F S1x128 .f32) (xs0 xs1 : Vec F S1x128 .f32) (y : S1x128.Idx) :
    ∃ pc ∈ (kernelRun0_B c i arg2 harg2 arg3 harg3 arg4 harg4 arg5 harg5 arg6 harg6 arg7 harg7 arg8 harg8 arg9 harg9 arg10 harg10 hc0 hc1 x0 x1 x2 x3 xs0 xs1).2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xs0 xs1).2.2.1 S1x128.size (by sl_kernel_rfl) y
def sout0_B_1 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 : Vec F S5000x128 .f32) (x1 : Vec F S5000x1 .f32) (x2 : Vec F S128x128 .bf16) (x3 : Vec F S1x128 .f32) (xs0 xs1 : Vec F S1x128 .f32) : Vec F S1x128 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 hc0 hc1 x0 x1 x2 x3 xs0 xs1).2.2.1)
theorem cover0_C_4 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S5000x1 .f32) (x2 : Vec F S128x128 .bf16) (x3 : Vec F S1x128 .f32) (xs0 xs1 : Vec F S1x128 .f32) (y : S5000x128.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1).1 S5000x128.size (by sl_kernel_rfl) y
def out0_C_4 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S5000x1 .f32) (x2 : Vec F S128x128 .bf16) (x3 : Vec F S1x128 .f32) (xs0 xs1 : Vec F S1x128 .f32) : Vec F S5000x128 .f32 :=
  VO0_4.read (Elt F) (VO0_4.writes (Elt F) VO0_4.junk (kernelRun0_C c i arg2 harg2 arg3 harg3 arg4 harg4 arg5 harg5 arg6 harg6 arg7 harg7 arg8 harg8 arg9 harg9 arg10 harg10 hc0 hc1 x0 x1 x2 x3 xs0 xs1).1)
theorem cover0_C_5 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S5000x1 .f32) (x2 : Vec F S128x128 .bf16) (x3 : Vec F S1x128 .f32) (xs0 xs1 : Vec F S1x128 .f32) (y : S1x1x128.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1).2.1 S1x1x128.size (by sl_kernel_rfl) y
def out0_C_5 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S5000x1 .f32) (x2 : Vec F S128x128 .bf16) (x3 : Vec F S1x128 .f32) (xs0 xs1 : Vec F S1x128 .f32) : Vec F S1x1x128 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 hc0 hc1 x0 x1 x2 x3 xs0 xs1).2.1)
theorem cover0_C_6 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S5000x1 .f32) (x2 : Vec F S128x128 .bf16) (x3 : Vec F S1x128 .f32) (xs0 xs1 : Vec F S1x128 .f32) (y : S1x1x128.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1).2.2.1 S1x1x128.size (by sl_kernel_rfl) y
def out0_C_6 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S5000x1 .f32) (x2 : Vec F S128x128 .bf16) (x3 : Vec F S1x128 .f32) (xs0 xs1 : Vec F S1x128 .f32) : Vec F S1x1x128 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 x3 xs0 xs1).2.2.1)
theorem scover0_C_0 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S5000x1 .f32) (x2 : Vec F S128x128 .bf16) (x3 : Vec F S1x128 .f32) (xs0 xs1 : Vec F S1x128 .f32) (y : S1x128.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1).2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1).2.2.2.1 S1x128.size (by sl_kernel_rfl) y
def sout0_C_0 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S5000x1 .f32) (x2 : Vec F S128x128 .bf16) (x3 : Vec F S1x128 .f32) (xs0 xs1 : Vec F S1x128 .f32) : Vec F S1x128 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 xs0 xs1).2.2.2.1)
theorem scover0_C_1 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S5000x1 .f32) (x2 : Vec F S128x128 .bf16) (x3 : Vec F S1x128 .f32) (xs0 xs1 : Vec F S1x128 .f32) (y : S1x128.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1).2.2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1).2.2.2.2.1 S1x128.size (by sl_kernel_rfl) y
def sout0_C_1 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S5000x1 .f32) (x2 : Vec F S128x128 .bf16) (x3 : Vec F S1x128 .f32) (xs0 xs1 : Vec F S1x128 .f32) : Vec F S1x128 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 hc0 hc1 x0 x1 x2 x3 xs0 xs1).2.2.2.2.1)

/-! ## Point by point -/

/-- What the three output windows' buffers and the two accumulators hold after the body at point `t`, given what the
    accumulators held before it. -/
def step0 (c : Dev nD) (t : Fin cfg0.N) (p : Vec F S1x128 .f32 × Vec F S1x128 .f32) : Vec F S5000x128 .f32 × Vec F S1x1x128 .f32 × Vec F S1x1x128 .f32 × Vec F S1x128 .f32 × Vec F S1x128 .f32 :=
  if h0 : t.val % 5 = 0 then
    (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => absurd ((hcond0_1 t).mp h) (by omega)) (iblk0 V c 0 t) (iblk0 V c 1 t) (iblk0 V c 2 t) (iblk0 V c 3 t), VO0_5.read (Elt F) VO0_5.junk, VO0_6.read (Elt F) VO0_6.junk, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => absurd ((hcond0_1 t).mp h) (by omega)) (iblk0 V c 0 t) (iblk0 V c 1 t) (iblk0 V c 2 t) (iblk0 V c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => absurd ((hcond0_1 t).mp h) (by omega)) (iblk0 V c 0 t) (iblk0 V c 1 t) (iblk0 V c 2 t) (iblk0 V c 3 t))
  else if h1 : t.val % 5 = 4 then
    (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) p.1 p.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) p.1 p.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) p.1 p.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) p.1 p.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) p.1 p.2)
  else
    (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) p.1 p.2, VO0_5.read (Elt F) VO0_5.junk, VO0_6.read (Elt F) VO0_6.junk, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) p.1 p.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) p.1 p.2)

theorem step0_A (c : Dev nD) (t : Fin cfg0.N) (p : Vec F S1x128 .f32 × Vec F S1x128 .f32) (h0 : t.val % 5 = 0) :
    step0 V c t p = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => absurd ((hcond0_1 t).mp h) (by omega)) (iblk0 V c 0 t) (iblk0 V c 1 t) (iblk0 V c 2 t) (iblk0 V c 3 t), VO0_5.read (Elt F) VO0_5.junk, VO0_6.read (Elt F) VO0_6.junk, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => absurd ((hcond0_1 t).mp h) (by omega)) (iblk0 V c 0 t) (iblk0 V c 1 t) (iblk0 V c 2 t) (iblk0 V c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => absurd ((hcond0_1 t).mp h) (by omega)) (iblk0 V c 0 t) (iblk0 V c 1 t) (iblk0 V c 2 t) (iblk0 V c 3 t)) := dif_pos h0
theorem step0_B (c : Dev nD) (t : Fin cfg0.N) (p : Vec F S1x128 .f32 × Vec F S1x128 .f32) (h0 : ¬t.val % 5 = 0) (h1 : ¬t.val % 5 = 4) :
    step0 V c t p = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) p.1 p.2, VO0_5.read (Elt F) VO0_5.junk, VO0_6.read (Elt F) VO0_6.junk, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) p.1 p.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) p.1 p.2) := (dif_neg h0).trans (dif_neg h1)
theorem step0_C (c : Dev nD) (t : Fin cfg0.N) (p : Vec F S1x128 .f32 × Vec F S1x128 .f32) (h0 : ¬t.val % 5 = 0) (h1 : t.val % 5 = 4) :
    step0 V c t p = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) p.1 p.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) p.1 p.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) p.1 p.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) p.1 p.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) p.1 p.2) := (dif_neg h0).trans (dif_pos h1)

/-- The accumulation over the grid's points, in order. -/
def outsAt0 (c : Dev nD) : (n : ℕ) → n < cfg0.N → Vec F S5000x128 .f32 × Vec F S1x1x128 .f32 × Vec F S1x1x128 .f32 × Vec F S1x128 .f32 × Vec F S1x128 .f32
  | 0, hn => step0 V c ⟨0, hn⟩ (VS0_0.read (Elt F) VS0_0.junk, VS0_1.read (Elt F) VS0_1.junk)
  | n + 1, hn => step0 V c ⟨n + 1, hn⟩ (outsAt0 c n (Nat.lt_of_succ_lt hn)).2.2.2

/-- What the accumulators hold before point `n`. -/
def prev0 (c : Dev nD) : (n : ℕ) → n < cfg0.N → Vec F S1x128 .f32 × Vec F S1x128 .f32
  | 0, _ => (VS0_0.read (Elt F) VS0_0.junk, VS0_1.read (Elt F) VS0_1.junk)
  | n + 1, hn => (outsAt0 V c n (Nat.lt_of_succ_lt hn)).2.2.2

theorem outsAt0_eq (c : Dev nD) (t : Fin cfg0.N) : outsAt0 V c t.val t.isLt = step0 V c t (prev0 V c t.val t.isLt) := by
  obtain ⟨n, hn⟩ := t
  cases n with
  | zero => rfl
  | succ n => rfl

theorem prev0_pos (c : Dev nD) (t : Fin cfg0.N) (hz : t.val ≠ 0) :
    prev0 V c t.val t.isLt = (outsAt0 V c (t.val - 1) (Nat.lt_of_le_of_lt (Nat.sub_le _ _) t.isLt)).2.2.2 := by
  obtain ⟨n, hn⟩ := t
  cases n with
  | zero => exact absurd rfl hz
  | succ n => rfl

/-- The region's invariant before position `n`: before the first point the class's; afterwards the two accumulators at
    what the point before left in them, the other scoped buffers at anything, the generator register at some state. -/
def PhiS (c : Dev nD) : (n : ℕ) → n ≤ cfg0.N → sProp 𝕄
  | 0, _ => Pipeline.ΦA spec0 c
  | n + 1, hn => iprop(iprop(iprop(owns (c : Thread nD τ) scM0_0 fullShare (outsAt0 V c n hn).2.2.2.1 ∗ owns (c : Thread nD τ) scM0_1 fullShare (outsAt0 V c n hn).2.2.2.2) ∗ rest0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(iprop(owns (c : Thread nD τ) scM0_0 fullShare (outsAt0 V c n hn).2.2.2.1 ∗ owns (c : Thread nD τ) scM0_1 fullShare (outsAt0 V c n hn).2.2.2.2) ∗ rest0 c) ∗ (∃ r, prngReg c r)) := rfl
theorem PhiS_pos (c : Dev nD) (n : ℕ) (h : n ≤ cfg0.N) (hz : n ≠ 0) :
    PhiS V c n h = iprop(iprop(iprop(owns (c : Thread nD τ) scM0_0 fullShare (outsAt0 V c (n - 1) (by omega)).2.2.2.1 ∗ owns (c : Thread nD τ) scM0_1 fullShare (outsAt0 V c (n - 1) (by omega)).2.2.2.2) ∗ rest0 c) ∗ (∃ r, prngReg c r)) := by
  cases n with
  | zero => exact absurd rfl hz
  | succ n => rfl

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨6, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem after0_6 (c : Dev nD) (t : Fin cfg0.N) : (dat0 V c).after 6 t = (outsAt0 V c t.val t.isLt).2.2.1 := by dsimp only [dat0]
theorem before0_0 (c : Dev nD) (t : Fin cfg0.N) (d) : (dat0 V c).before 0 t d = iblk0 V c 0 t := before0_0_of V (dat0 V c) (A_eq0 V c 0) (after0_0 V c) t d
theorem before0_1 (c : Dev nD) (t : Fin cfg0.N) (d) : (dat0 V c).before 1 t d = iblk0 V c 1 t := before0_1_of V (dat0 V c) (A_eq0 V c 1) (after0_1 V c) t d
theorem before0_2 (c : Dev nD) (t : Fin cfg0.N) (d) : (dat0 V c).before 2 t d = iblk0 V c 2 t := before0_2_of V (dat0 V c) (A_eq0 V c 2) (after0_2 V c) t d
theorem before0_3 (c : Dev nD) (t : Fin cfg0.N) (d) : (dat0 V c).before 3 t d = iblk0 V c 3 t := before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 16000000 in
/-- The body at any point: the inputs' buffers hold their blocks; the closed forms say which case the point is in; the
    invariant hands the body the accumulators at what the point before left (at anything at the very first point) and
    takes them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  have hN : t.val < 10 := lt_of_lt_of_eq t.isLt (show cfg0.N = 10 from N_0)
  by_cases h0 : t.val % 5 = 0
  · have h1 : ¬t.val % 5 = 4 := by omega
    rw [Dat.leavesExact_idle (dat0 V c) 5 t (idleAt0_5 t (fun h => h1 ((hcond0_1 t).mp h))) (noFlush0_5 t (fun h => h1 ((hcond0_1 t).mp h)))]
    rw [Dat.leavesExact_idle (dat0 V c) 6 t (idleAt0_6 t (fun h => h1 ((hcond0_1 t).mp h))) (noFlush0_6 t (fun h => h1 ((hcond0_1 t).mp h)))]
    rw [outsAt0_eq V c t, step0_A V c t _ h0]
    unfold out0_A_4 sout0_A_0 sout0_A_1; (try dsimp only)
    by_cases hz : t.val = 0
    · rw [PhiS_castSucc V c t, PhiS_zero V c _ _ hz, PhiA0_eq]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => absurd ((hcond0_1 t).mp h) (by omega)) (iblk0 V c 0 t) (iblk0 V c 1 t) (iblk0 V c 2 t) (iblk0 V c 3 t)).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ )
            · unfold owns; iexists _; isplitr
              swap; · iexact HS1
              ipureintro; exact View.read_writes_of_cover _ _ _ _ _ (scover0_A_1 c _ _ _ _ _ _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _ _ _ _ _ _ )
      isplitl [H5]; · iexists _; iexact H5
      iexists _; iexact H6
    · rw [PhiS_castSucc V c t, PhiS_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => absurd ((hcond0_1 t).mp h) (by omega)) (iblk0 V c 0 t) (iblk0 V c 1 t) (iblk0 V c 2 t) (iblk0 V c 3 t)).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexists _; iexact HS0
      isplitl [HS1]; · iexists _; iexact HS1
      iintro ⟨H0, H1, H2, H3, ⟨%e4, H4⟩, H5, H6, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ )
            · unfold owns; iexists _; isplitr
              swap; · iexact HS1
              ipureintro; exact View.read_writes_of_cover _ _ _ _ _ (scover0_A_1 c _ _ _ _ _ _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _ _ _ _ _ _ )
      isplitl [H5]; · iexists _; iexact H5
      iexists _; iexact H6
  · have hz : t.val ≠ 0 := fun e => h0 (by rw [e])
    by_cases h1 : t.val % 5 = 4
    · rw [show (dat0 V c).leavesExact 5 t = owns (c : Thread nD τ) (ms0_5 t) fullShare ((dat0 V c).after 5 t) from by
        unfold Dat.leavesExact; rw [liveAt0_5 t ((hcond0_1 t).mpr h1)], after0_5]
      rw [show (dat0 V c).leavesExact 6 t = owns (c : Thread nD τ) (ms0_6 t) fullShare ((dat0 V c).after 6 t) from by
        unfold Dat.leavesExact; rw [liveAt0_6 t ((hcond0_1 t).mpr h1)], after0_6]
      rw [outsAt0_eq V c t, prev0_pos V c t hz, step0_C V c t _ h0 h1]
      unfold out0_C_4 out0_C_5 out0_C_6 sout0_C_0 sout0_C_1; (try dsimp only)
      rw [PhiS_castSucc V c t, PhiS_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ )
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_C_4 c _ _ _ _ _ _ _ _ _ _ _ _ _ _ _ _ _ _ _ _ _ _ _ _ _ _ _ )
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _ _ _ )
      unfold owns; iexists _; isplitr
      swap; · iexact H6
      ipureintro; exact View.read_writes_of_cover _ _ _ _ _ (cover0_C_6 c _ _ _ _ _ _ _ _ _ _ _ _ _ _ _ _ _ _ _ _ _ _ _ _ _ _ _ )
    · rw [Dat.leavesExact_idle (dat0 V c) 5 t (idleAt0_5 t (fun h => h1 ((hcond0_1 t).mp h))) (noFlush0_5 t (fun h => h1 ((hcond0_1 t).mp h)))]
      rw [Dat.leavesExact_idle (dat0 V c) 6 t (idleAt0_6 t (fun h => h1 ((hcond0_1 t).mp h))) (noFlush0_6 t (fun h => h1 ((hcond0_1 t).mp h)))]
      rw [outsAt0_eq V c t, prev0_pos V c t hz, step0_B V c t _ h0 h1]
      unfold out0_B_4 sout0_B_0 sout0_B_1; (try dsimp only)
      rw [PhiS_castSucc V c t, PhiS_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ )
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _ _ _ _ _ )
      isplitl [H5]; · iexists _; iexact H5
      iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the class's back: the accumulators' named contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 10 := N_0; omega), PhiA0_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end Regions

end Cert.Kernel.Hand

end
-- ==== Proof.Run1K.lean ====
/-
  The second kernel's body — normalise, scale and shift, clamp at zero, add the residual — run once on whole staging
  buffers: the six input buffers are read and handed back as they were, the output buffer ends with the pieces the body
  stored into it (one store of the whole block).
-/
import proofs.«118097_j46162308497632_2_alg».proof.Proof.Gen.Kernel.Launch
import proofs.«118097_j46162308497632_2_alg».proof.Proof.Gen.Kernel.Skeleton
import proofs.«118097_j46162308497632_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's one store leaves in the output's staging buffer, as a list of pieces, with the proof that from the
    six input buffers at their contents and the output buffer at anything the body runs to its end, the inputs
    unchanged and the output holding those pieces. -/
noncomputable def kernelRun1 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S10000x128 .f32) (harg7 : arg7.IsWhole)
    (x0 x1 : Vec F S10000x128 .f32) (x2 x3 x4 x5 : Vec F S1x128 .f32) :
    { L6 : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6)) -∗ K ⟨⟩))
          ⊢ wp frame (wpE (defs₀ (F := F)) Variants.none c none) E (cc1__norm_relu_residual_kernel i arg1 harg1 arg2 harg2 arg3 harg3 arg4 harg4 arg5 harg5 arg6 harg6 arg7 harg7) K } := by
  refine ⟨?_, fun E K => ?run⟩
  case run =>
    simp only [cc1__norm_relu_residual_kernel_eq_skeleton]; unfold cc1__norm_relu_residual_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact H6

end Cert.Kernel.Hand

end
-- ==== Proof.R1K.lean ====
/-
  The second call's pipeline: what its windows hold point by point. Each of the six input windows' staging buffers
  holds its array's block at every point (fetched there, or fetched at the first point and never moved); the output
  window's buffer holds, after the body, the pieces the body stored, read back. The body obligation follows from the
  body's run at the point's buffers.
-/
import proofs.«118097_j46162308497632_2_alg».proof.Proof.Run1K
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev ms1_0 (t : Fin cfg1.N) : Memref sig .tc .vmem S10000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S10000x128 .f32 := win1_6.stage (cfg1.slots t 6)
abbrev hs1_6 (t : Fin cfg1.N) : (ms1_6 t).IsWhole := hstage1_6 ((cfg1.slots t 6).cast nbuf1_6)
/-- A view through which the output window's contents are stated. -/
abbrev VO1_6 : View sig .tc .vmem S10000x128 .f32 := (Memref.whole cc1_stg6_0 : Memref sig .tc .vmem S10000x128 .f32).view

section Regions
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The body's pieces for the output window tile its block, so they cover it. -/
theorem cover1_6 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S10000x128 .f32) (harg7 : arg7.IsWhole)
    (x0 x1 : Vec F S10000x128 .f32) (x2 x3 x4 x5 : Vec F S1x128 .f32) (y : S10000x128.Idx) :
    ∃ pc ∈ (kernelRun1 c i arg1 harg1 arg2 harg2 arg3 harg3 arg4 harg4 arg5 harg5 arg6 harg6 arg7 harg7 x0 x1 x2 x3 x4 x5).1, y ∈ pc.1.set :=
  View.cover_of_tiledL (kernelRun1 c i arg1 harg1 arg2 harg2 arg3 harg3 arg4 harg4 arg5 harg5 arg6 harg6 arg7 harg7 x0 x1 x2 x3 x4 x5).1 S10000x128.size (by sl_kernel_rfl) y

/-- What the body leaves in the output window's staging buffer: its pieces read back. -/
def out1_6 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S10000x128 .f32) (harg7 : arg7.IsWhole)
    (x0 x1 : Vec F S10000x128 .f32) (x2 x3 x4 x5 : Vec F S1x128 .f32) : Vec F S10000x128 .f32 :=
  VO1_6.read (Elt F) (VO1_6.writes (Elt F) VO1_6.junk (kernelRun1 c i arg1 harg1 arg2 harg2 arg3 harg3 arg4 harg4 arg5 harg5 arg6 harg6 arg7 harg7 x0 x1 x2 x3 x4 x5).1)

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) (iblk1 V c 4 t) (iblk1 V c 5 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 4000000 in
/-- The body at any point: the inputs' buffers hold their blocks, so the run applies; the invariant and the core's
    dues pass through unread; the output's pieces cover its block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  unfold out1_6
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) (iblk1 V c 4 t) (iblk1 V c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover1_6 c _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.MainK.lean ====
/-
  The whole run: @main as six segments — three stretches of host operations, the first call, a stretch of host
  operations, the second call — each entered from the buffer contents the one before it left. Every weakly fair
  execution terminates, faults nowhere, and ends with every unscoped buffer at the last boundary's contents; read at the
  argument arrays this is the frame (no host operation writes an argument and no call may change one), read at the
  result array it is what the second call's pipeline leaves there.
-/
import proofs.«118097_j46162308497632_2_alg».proof.Proof.R0K
import proofs.«118097_j46162308497632_2_alg».proof.Proof.R1K
import proofs.«118097_j46162308497632_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b
/-- At the first call's exit: its arrays at what the pipeline leaves, every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

abbrev W5 : Dev nD → Valuation τ sig (Elt F) := fun c => StableHlo.after hostOps1 (W4 m c)
abbrev V5 : (c : Dev nD) → (b : Ref sig .tc) → Buf (Elt F) ((c : Thread nD τ).loc b) := fun c b => W5 m c b
/-- At the second call's exit. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-! ### The arguments end as launched -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := (W6_arr m c 1).trans (((dat1 (V5 m) c).arrAt_in 1 rfl _).trans (A_eq1 (V5 m) c 1))
    _ = W4 m c (Proc.devRef .tc main_arg0) := StableHlo.after_of_writes_sub hostOps1 _ hostOps1_writes (by decide)
    _ = W3 m c (Proc.devRef .tc main_arg0) := W4_of_ne m c main_arg0 (by decide)
    _ = W2 m c (Proc.devRef .tc main_arg0) := StableHlo.after_of_writes_sub hostOps0_2 _ hostOps0_2_writes (by decide)
    _ = W1 m c (Proc.devRef .tc main_arg0) := StableHlo.after_of_writes_sub hostOps0_1 _ hostOps0_1_writes (by decide)
    _ = W0 m c (Proc.devRef .tc main_arg0) := StableHlo.after_of_writes_sub hostOps0 _ hostOps0_writes (by decide)
    _ = m ((c : Thread nD τ).loc main_arg0) := rfl
theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := StableHlo.after_of_writes_sub hostOps1 _ hostOps1_writes (by decide)
    _ = W3 m c (Proc.devRef .tc main_arg1) := W4_of_ne m c main_arg1 (by decide)
    _ = W2 m c (Proc.devRef .tc main_arg1) := StableHlo.after_of_writes_sub hostOps0_2 _ hostOps0_2_writes (by decide)
    _ = W1 m c (Proc.devRef .tc main_arg1) := StableHlo.after_of_writes_sub hostOps0_1 _ hostOps0_1_writes (by decide)
    _ = W0 m c (Proc.devRef .tc main_arg1) := StableHlo.after_of_writes_sub hostOps0 _ hostOps0_writes (by decide)
    _ = m ((c : Thread nD τ).loc main_arg1) := rfl
theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := StableHlo.after_of_writes_sub hostOps1 _ hostOps1_writes (by decide)
    _ = W3 m c (Proc.devRef .tc main_arg2) := W4_of_ne m c main_arg2 (by decide)
    _ = W2 m c (Proc.devRef .tc main_arg2) := StableHlo.after_of_writes_sub hostOps0_2 _ hostOps0_2_writes (by decide)
    _ = W1 m c (Proc.devRef .tc main_arg2) := StableHlo.after_of_writes_sub hostOps0_1 _ hostOps0_1_writes (by decide)
    _ = W0 m c (Proc.devRef .tc main_arg2) := StableHlo.after_of_writes_sub hostOps0 _ hostOps0_writes (by decide)
    _ = m ((c : Thread nD τ).loc main_arg2) := rfl
theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W4 m c (Proc.devRef .tc main_arg3) := StableHlo.after_of_writes_sub hostOps1 _ hostOps1_writes (by decide)
    _ = W3 m c (Proc.devRef .tc main_arg3) := W4_of_ne m c main_arg3 (by decide)
    _ = W2 m c (Proc.devRef .tc main_arg3) := StableHlo.after_of_writes_sub hostOps0_2 _ hostOps0_2_writes (by decide)
    _ = W1 m c (Proc.devRef .tc main_arg3) := StableHlo.after_of_writes_sub hostOps0_1 _ hostOps0_1_writes (by decide)
    _ = W0 m c (Proc.devRef .tc main_arg3) := StableHlo.after_of_writes_sub hostOps0 _ hostOps0_writes (by decide)
    _ = m ((c : Thread nD τ).loc main_arg3) := rfl
theorem W6_main_arg4 (c : Dev nD) : W6 m c (Proc.devRef .tc main_arg4) = m ((c : Thread nD τ).loc main_arg4) :=
  calc W6 m c (Proc.devRef .tc main_arg4)
    _ = W5 m c (Proc.devRef .tc main_arg4) := W6_of_ne m c main_arg4 (by decide)
    _ = W4 m c (Proc.devRef .tc main_arg4) := StableHlo.after_of_writes_sub hostOps1 _ hostOps1_writes (by decide)
    _ = W3 m c (Proc.devRef .tc main_arg4) := W4_of_ne m c main_arg4 (by decide)
    _ = W2 m c (Proc.devRef .tc main_arg4) := StableHlo.after_of_writes_sub hostOps0_2 _ hostOps0_2_writes (by decide)
    _ = W1 m c (Proc.devRef .tc main_arg4) := StableHlo.after_of_writes_sub hostOps0_1 _ hostOps0_1_writes (by decide)
    _ = W0 m c (Proc.devRef .tc main_arg4) := StableHlo.after_of_writes_sub hostOps0 _ hostOps0_writes (by decide)
    _ = m ((c : Thread nD τ).loc main_arg4) := rfl
theorem W6_main_arg5 (c : Dev nD) : W6 m c (Proc.devRef .tc main_arg5) = m ((c : Thread nD τ).loc main_arg5) :=
  calc W6 m c (Proc.devRef .tc main_arg5)
    _ = W5 m c (Proc.devRef .tc main_arg5) := W6_of_ne m c main_arg5 (by decide)
    _ = W4 m c (Proc.devRef .tc main_arg5) := StableHlo.after_of_writes_sub hostOps1 _ hostOps1_writes (by decide)
    _ = W3 m c (Proc.devRef .tc main_arg5) := W4_of_ne m c main_arg5 (by decide)
    _ = W2 m c (Proc.devRef .tc main_arg5) := StableHlo.after_of_writes_sub hostOps0_2 _ hostOps0_2_writes (by decide)
    _ = W1 m c (Proc.devRef .tc main_arg5) := StableHlo.after_of_writes_sub hostOps0_1 _ hostOps0_1_writes (by decide)
    _ = W0 m c (Proc.devRef .tc main_arg5) := StableHlo.after_of_writes_sub hostOps0 _ hostOps0_writes (by decide)
    _ = m ((c : Thread nD τ).loc main_arg5) := rfl
theorem W6_main_arg6 (c : Dev nD) : W6 m c (Proc.devRef .tc main_arg6) = m ((c : Thread nD τ).loc main_arg6) :=
  calc W6 m c (Proc.devRef .tc main_arg6)
    _ = W5 m c (Proc.devRef .tc main_arg6) := W6_of_ne m c main_arg6 (by decide)
    _ = W4 m c (Proc.devRef .tc main_arg6) := StableHlo.after_of_writes_sub hostOps1 _ hostOps1_writes (by decide)
    _ = W3 m c (Proc.devRef .tc main_arg6) := W4_of_ne m c main_arg6 (by decide)
    _ = W2 m c (Proc.devRef .tc main_arg6) := StableHlo.after_of_writes_sub hostOps0_2 _ hostOps0_2_writes (by decide)
    _ = W1 m c (Proc.devRef .tc main_arg6) := StableHlo.after_of_writes_sub hostOps0_1 _ hostOps0_1_writes (by decide)
    _ = W0 m c (Proc.devRef .tc main_arg6) := StableHlo.after_of_writes_sub hostOps0 _ hostOps0_writes (by decide)
    _ = m ((c : Thread nD τ).loc main_arg6) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The calls as segments -/

set_option backward.isDefEq.respectTransparency.types false in
/-- Call 0 over the thread state: entered from every unscoped buffer at the contents before it, left at the contents
    after it: its arrays split out of the unscoped buffers and put back at what the pipeline leaves in them; the generator
    register into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest (Ix := Unit) (Name := ℕ) (U := UR sig nD τ) (Lvl := ℕ) (Val := Elt F) spec0 c ∗ ∃ r, prngReg c r) : sProp 𝕄) ⊢ (dat0 (V3 m) c).Φ 0 := by
      have h' := hin0 (V3 m) c; unfold Pipeline.ΦA at h'; exact h'
    rw [show (pdats m 0 c).Φ 0 = (dat0 (V3 m) c).Φ 0 from rfl]
    iintro ⟨Hp, -, Hr⟩
    iapply h
    isplitl [Hr]; · iexact Hr
    iexact Hp
  hout c := by
    rw [Pipeline.ownSems0_none]
    have h : (dat0 (V3 m) c).Φ (Fin.last cfg0.N) ⊢ (iprop(Pipeline.scopedRest (Ix := Unit) (Name := ℕ) (U := UR sig nD τ) (Lvl := ℕ) (Val := Elt F) spec0 c ∗ ∃ r, prngReg c r) : sProp 𝕄) := by
      have h' := hout0 (V3 m) c; unfold Pipeline.ΦA at h'; exact h'
    rw [show (pdats m 0 c).Φ (Fin.last _) = (dat0 (V3 m) c).Φ (Fin.last cfg0.N) from rfl]
    iintro HPhi
    ihave H := h $$ HPhi
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at the contents before it, left at the contents
    after it: its arrays split out of the unscoped buffers and put back at what the pipeline leaves in them; the generator
    register into the invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m) ]
theorem main_run (c : Dev nD) : main (F := F) c = Pipeline.Seg.run (segs m) := by
  rw [main_chain c, Pipeline.Seg.run_eq_chain]; rfl

set_option backward.isDefEq.respectTransparency.types false in
/-- Every weakly fair execution of @main terminates, nothing faulting, with every unscoped buffer of every core at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W6_main_arg0 m c),
    (h c _ (mem_uc main_arg1 (by decide))).trans (W6_main_arg1 m c),
    (h c _ (mem_uc main_arg2 (by decide))).trans (W6_main_arg2 m c),
    (h c _ (mem_uc main_arg3 (by decide))).trans (W6_main_arg3 m c),
    (h c _ (mem_uc main_arg4 (by decide))).trans (W6_main_arg4 m c),
    (h c _ (mem_uc main_arg5 (by decide))).trans (W6_main_arg5 m c),
    (h c _ (mem_uc main_arg6 (by decide))).trans (W6_main_arg6 m c)⟩) (run_all m ρ)

/-- The run with the result array named: what the second call's pipeline leaves in it. -/
theorem run_value : θ_run defs (onTc (τ := τ) (main (F := F))) ⟨m, fun _ => 0, ρ⟩ (fun r => ∀ c : Dev nD,
      r.2.mem ((c.tc : Thread nD τ).loc main_v40) = (dat1 (V5 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_v40 (by decide))).trans (W6_arr m c 6),
    (h c _ (mem_uc main_arg0 (by decide))).trans (W6_main_arg0 m c),
    (h c _ (mem_uc main_arg1 (by decide))).trans (W6_main_arg1 m c),
    (h c _ (mem_uc main_arg2 (by decide))).trans (W6_main_arg2 m c),
    (h c _ (mem_uc main_arg3 (by decide))).trans (W6_main_arg3 m c),
    (h c _ (mem_uc main_arg4 (by decide))).trans (W6_main_arg4 m c),
    (h c _ (mem_uc main_arg5 (by decide))).trans (W6_main_arg5 m c),
    (h c _ (mem_uc main_arg6 (by decide))).trans (W6_main_arg6 m c)⟩) (run_all m ρ)

end Cert.Kernel.Hand

end
-- ==== Proof.Conds0I.lean ====
/-
  The first kernel's two branches, as conditions on the grid point, decided over the 2 × 5 grid in closed form:
  the scratch accumulators are reset where the inner coordinate is 0 and written out where it is 4.
  Where the write-out branch is not taken the two statistics windows are idle and not written back.
-/
import proofs.«118097_j46162308497632_2_alg».proof.Proof.Gen.KernelIdeal.Launch
import proofs.«118097_j46162308497632_2_alg».proof.Proof.Gen.KernelIdeal.Skeleton
import proofs.«118097_j46162308497632_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset branch is taken: the inner grid coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 5 = 0 :=
  (by decide +kernel : ∀ t : Fin grid0.N, cond0_0 (grid0.coords t) ↔ t.val % 5 = 0)

/-- The write-out branch is taken: the inner grid coordinate is 4. -/
abbrev cond0_1 (i : grid0.Coords) : Prop := k0_cond2 i = 1#1
theorem hcond0_1 : ∀ t : Fin cfg0.N, cond0_1 (grid0.coords t) ↔ t.val % 5 = 4 :=
  (by decide +kernel : ∀ t : Fin grid0.N, cond0_1 (grid0.coords t) ↔ t.val % 5 = 4)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem idleAt0_5 : ∀ t : Fin cfg0.N, ¬cond0_1 (grid0.coords t) → cfg0.idle 5 (grid0.coords t) = true := by decide +kernel
theorem idleAt0_6 : ∀ t : Fin cfg0.N, ¬cond0_1 (grid0.coords t) → cfg0.idle 6 (grid0.coords t) = true := by decide +kernel
theorem noFlush0_5 : ∀ t : Fin cfg0.N, ¬cond0_1 (grid0.coords t) → (cfg0.win 5).flush t = false := by decide +kernel
theorem noFlush0_6 : ∀ t : Fin cfg0.N, ¬cond0_1 (grid0.coords t) → (cfg0.win 6).flush t = false := by decide +kernel
theorem liveAt0_5 : ∀ t : Fin cfg0.N, cond0_1 (grid0.coords t) → cfg0.idle 5 (grid0.coords t) = false := by decide +kernel
theorem liveAt0_6 : ∀ t : Fin cfg0.N, cond0_1 (grid0.coords t) → cfg0.idle 6 (grid0.coords t) = false := by decide +kernel

/-- The staging memrefs the pipeline passes at point `t`, and the two scratch operands. -/
abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S5000x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x128 .f32 := win0_6.stage (cfg0.slots t 6)
abbrev hs0_6 (t : Fin cfg0.N) : (ms0_6 t).IsWhole := hstage0_6 ((cfg0.slots t 6).cast nbuf0_6)
abbrev scM0_0 : Memref sig .tc .vmem S1x128 .f32 := Memref.whole cc0_scratch0
abbrev scM0_1 : Memref sig .tc .vmem S1x128 .f32 := Memref.whole cc0_scratch1
/-- Views through which the contents of the two scratch buffers and of the three output windows are stated. -/
abbrev VS0_0 : View sig .tc .vmem S1x128 .f32 := scM0_0.view
abbrev VS0_1 : View sig .tc .vmem S1x128 .f32 := scM0_1.view
abbrev VO0_4 : View sig .tc .vmem S5000x128 .f32 := (Memref.whole cc0_stg4_0 : Memref sig .tc .vmem S5000x128 .f32).view
abbrev VO0_5 : View sig .tc .vmem S1x1x128 .f32 := (Memref.whole cc0_stg5_0 : Memref sig .tc .vmem S1x1x128 .f32).view
abbrev VO0_6 : View sig .tc .vmem S1x1x128 .f32 := (Memref.whole cc0_stg6_0 : Memref sig .tc .vmem S1x1x128 .f32).view

/-- The scoped buffers that are neither a staging buffer of the first call nor one of its two scratch accumulators. -/
abbrev rest0 (c : Dev nD) : sProp 𝕄 :=
  Pipeline.scopedRestBut (Ix := Unit) (Name := ℕ) (U := UR sig nD τ) (Lvl := ℕ) (Val := Elt F) spec0 c [cc0_scratch0, cc0_scratch1]

/-- The class invariant with the two scratch operands as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ rest0 c) ∗ (∃ r, prngReg c r)) := by
  unfold Pipeline.ΦA
  rw [Pipeline.scopedRest_split_of_list spec0 c [cc0_scratch0, cc0_scratch1] (by decide) (by decide)]
  simp only [scM0_0, scM0_1, owns_whole]
  rfl

end Cert.KernelIdeal.Hand

end
-- ==== Proof.Run0AI.lean ====
/-
  The first kernel's body in case A of its two branches (reset taken, write-out not taken: the first step of each core's row range),
  run once on whole staging buffers: the four input buffers are handed back as they were; the linear layer's output
  buffer and the two scratch accumulators end with the pieces the body stored; the two statistics windows are handed back untouched.
-/
import proofs.«118097_j46162308497632_2_alg».proof.Proof.Conds0I
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun0_A (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 : Vec F S5000x128 .f32) (x1 : Vec F S5000x1 .f32) (x2 : Vec F S128x128 .bf16) (x3 : Vec F S1x128 .f32) :
    Σ' (L4 : List (View.Piece (Elt F) S5000x128 .f32)) (LS0 : List (View.Piece (Elt F) S1x128 .f32)), { LS1 : List (View.Piece (Elt F) S1x128 .f32) //
      ∀ (xi5 xi6 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__linear_stats_kernel i arg2 harg2 arg3 harg3 arg4 harg4 arg5 harg5 arg6 harg6 arg7 harg7 arg8 harg8 arg9 harg9 arg10 harg10) K } := by
  refine ⟨?_, ?_, ?_, fun xi5 xi6 E K => ?run⟩
  case run =>
    simp only [cc0__linear_stats_kernel_eq_skeleton]; unfold cc0__linear_stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d6, %f6, -, H6⟩, ⟨%f7, %hf7, H7⟩, ⟨%f8, %hf8, H8⟩, ⟨%d9, %f9, -, H9⟩, ⟨%d10, %f10, -, H10⟩, Hk⟩
    obtain rfl := harg2.eq_unread hf0; obtain rfl := harg3.eq_unread hf1; obtain rfl := harg4.eq_unread hf2; obtain rfl := harg5.eq_unread hf3
    obtain rfl := harg7.eq_unread hf7; obtain rfl := harg8.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    iexists _; iexact H10

end Cert.KernelIdeal.Hand

end
-- ==== Proof.Run0BI.lean ====
/-
  The first kernel's body in case B of its two branches (neither taken: the middle steps),
  run once on whole staging buffers: the four input buffers are handed back as they were; the linear layer's output
  buffer and the two scratch accumulators end with the pieces the body stored; the two statistics windows are handed back untouched.
-/
import proofs.«118097_j46162308497632_2_alg».proof.Proof.Run0AI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun0_B (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 : Vec F S5000x128 .f32) (x1 : Vec F S5000x1 .f32) (x2 : Vec F S128x128 .bf16) (x3 : Vec F S1x128 .f32) (xs0 xs1 : Vec F S1x128 .f32) :
    Σ' (L4 : List (View.Piece (Elt F) S5000x128 .f32)) (LS0 : List (View.Piece (Elt F) S1x128 .f32)), { LS1 : List (View.Piece (Elt F) S1x128 .f32) //
      ∀ (xi5 xi6 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__linear_stats_kernel i arg2 harg2 arg3 harg3 arg4 harg4 arg5 harg5 arg6 harg6 arg7 harg7 arg8 harg8 arg9 harg9 arg10 harg10) K } := by
  refine ⟨?_, ?_, ?_, fun xi5 xi6 E K => ?run⟩
  case run =>
    simp only [cc0__linear_stats_kernel_eq_skeleton]; unfold cc0__linear_stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d6, %f6, -, H6⟩, ⟨%f7, %hf7, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3
    obtain rfl := harg7.eq_unread hf7; obtain rfl := harg8.eq_unread hf8
    obtain rfl := harg9.eq_unread hf9; obtain rfl := harg10.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    iexists _; iexact H10

end Cert.KernelIdeal.Hand

end
-- ==== Proof.Run0CI.lean ====
/-
  The first kernel's body in case C of its two branches (reset not taken, write-out taken: the last step of each core's row range),
  run once on whole staging buffers: the four input buffers are handed back as they were; the linear layer's output
  buffer and the two scratch accumulators end with the pieces the body stored, and so do the two statistics windows.
-/
import proofs.«118097_j46162308497632_2_alg».proof.Proof.Run0BI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun0_C (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S5000x1 .f32) (x2 : Vec F S128x128 .bf16) (x3 : Vec F S1x128 .f32) (xs0 xs1 : Vec F S1x128 .f32) :
    Σ' (L4 : List (View.Piece (Elt F) S5000x128 .f32)) (L5 : List (View.Piece (Elt F) S1x1x128 .f32)) (L6 : List (View.Piece (Elt F) S1x1x128 .f32)) (LS0 : List (View.Piece (Elt F) S1x128 .f32)), { LS1 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__linear_stats_kernel i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__linear_stats_kernel_eq_skeleton]; unfold cc0__linear_stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%d8, %f8, -, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3
    obtain rfl := harg9.eq_unread hf9; obtain rfl := harg10.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; iexact H6
    isplitl [H7]
    · iexists _; iexact H7
    isplitl [H8]
    · iexists _; iexact H8
    isplitl [H9]
    · iexists _; iexact H9
    iexists _; iexact H10

end Cert.KernelIdeal.Hand

end
-- ==== Proof.R0I.lean ====
/-
  The first call's pipeline: what its windows and its two scratch accumulators hold point by point. The four input
  windows' staging buffers hold their arrays' blocks at every point. What the body leaves depends on the step within a
  core's row range: at the first step the accumulators are reset and then take the block's column sums, at the middle
  steps they add the block's column sums to what the step before left, and at the last step they are also written to
  the two statistics windows (idle, and not written back, at every other step). The accumulators' contents are carried
  from one point to the next in the region's invariant.
-/
import proofs.«118097_j46162308497632_2_alg».proof.Proof.Run0CI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves: its pieces read back -/
theorem cover0_A_4 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 : Vec F S5000x128 .f32) (x1 : Vec F S5000x1 .f32) (x2 : Vec F S128x128 .bf16) (x3 : Vec F S1x128 .f32) (y : S5000x128.Idx) :
    ∃ pc ∈ (kernelRun0_A c i arg2 harg2 arg3 harg3 arg4 harg4 arg5 harg5 arg6 harg6 arg7 harg7 arg8 harg8 arg9 harg9 arg10 harg10 hc0 hc1 x0 x1 x2 x3).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3).1 S5000x128.size (by sl_kernel_rfl) y
def out0_A_4 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 : Vec F S5000x128 .f32) (x1 : Vec F S5000x1 .f32) (x2 : Vec F S128x128 .bf16) (x3 : Vec F S1x128 .f32) : Vec F S5000x128 .f32 :=
  VO0_4.read (Elt F) (VO0_4.writes (Elt F) VO0_4.junk (kernelRun0_A c i arg2 harg2 arg3 harg3 arg4 harg4 arg5 harg5 arg6 harg6 arg7 harg7 arg8 harg8 arg9 harg9 arg10 harg10 hc0 hc1 x0 x1 x2 x3).1)
theorem scover0_A_0 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 : Vec F S5000x128 .f32) (x1 : Vec F S5000x1 .f32) (x2 : Vec F S128x128 .bf16) (x3 : Vec F S1x128 .f32) (y : S1x128.Idx) :
    ∃ pc ∈ (kernelRun0_A c i arg2 harg2 arg3 harg3 arg4 harg4 arg5 harg5 arg6 harg6 arg7 harg7 arg8 harg8 arg9 harg9 arg10 harg10 hc0 hc1 x0 x1 x2 x3).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3).2.1 S1x128.size (by sl_kernel_rfl) y
def sout0_A_0 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 : Vec F S5000x128 .f32) (x1 : Vec F S5000x1 .f32) (x2 : Vec F S128x128 .bf16) (x3 : Vec F S1x128 .f32) : Vec F S1x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3).2.1)
theorem scover0_A_1 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 : Vec F S5000x128 .f32) (x1 : Vec F S5000x1 .f32) (x2 : Vec F S128x128 .bf16) (x3 : Vec F S1x128 .f32) (y : S1x128.Idx) :
    ∃ pc ∈ (kernelRun0_A c i arg2 harg2 arg3 harg3 arg4 harg4 arg5 harg5 arg6 harg6 arg7 harg7 arg8 harg8 arg9 harg9 arg10 harg10 hc0 hc1 x0 x1 x2 x3).2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3).2.2.1 S1x128.size (by sl_kernel_rfl) y
def sout0_A_1 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 : Vec F S5000x128 .f32) (x1 : Vec F S5000x1 .f32) (x2 : Vec F S128x128 .bf16) (x3 : Vec F S1x128 .f32) : Vec F S1x128 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 x0 x1 x2 x3).2.2.1)
theorem cover0_B_4 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 : Vec F S5000x128 .f32) (x1 : Vec F S5000x1 .f32) (x2 : Vec F S128x128 .bf16) (x3 : Vec F S1x128 .f32) (xs0 xs1 : Vec F S1x128 .f32) (y : S5000x128.Idx) :
    ∃ pc ∈ (kernelRun0_B c i arg2 harg2 arg3 harg3 arg4 harg4 arg5 harg5 arg6 harg6 arg7 harg7 arg8 harg8 arg9 harg9 arg10 harg10 hc0 hc1 x0 x1 x2 x3 xs0 xs1).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xs0 xs1).1 S5000x128.size (by sl_kernel_rfl) y
def out0_B_4 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 : Vec F S5000x128 .f32) (x1 : Vec F S5000x1 .f32) (x2 : Vec F S128x128 .bf16) (x3 : Vec F S1x128 .f32) (xs0 xs1 : Vec F S1x128 .f32) : Vec F S5000x128 .f32 :=
  VO0_4.read (Elt F) (VO0_4.writes (Elt F) VO0_4.junk (kernelRun0_B c i arg2 harg2 arg3 harg3 arg4 harg4 arg5 harg5 arg6 harg6 arg7 harg7 arg8 harg8 arg9 harg9 arg10 harg10 hc0 hc1 x0 x1 x2 x3 xs0 xs1).1)
theorem scover0_B_0 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 : Vec F S5000x128 .f32) (x1 : Vec F S5000x1 .f32) (x2 : Vec F S128x128 .bf16) (x3 : Vec F S1x128 .f32) (xs0 xs1 : Vec F S1x128 .f32) (y : S1x128.Idx) :
    ∃ pc ∈ (kernelRun0_B c i arg2 harg2 arg3 harg3 arg4 harg4 arg5 harg5 arg6 harg6 arg7 harg7 arg8 harg8 arg9 harg9 arg10 harg10 hc0 hc1 x0 x1 x2 x3 xs0 xs1).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xs0 xs1).2.1 S1x128.size (by sl_kernel_rfl) y
def sout0_B_0 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 : Vec F S5000x128 .f32) (x1 : Vec F S5000x1 .f32) (x2 : Vec F S128x128 .bf16) (x3 : Vec F S1x128 .f32) (xs0 xs1 : Vec F S1x128 .f32) : Vec F S1x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 xs0 xs1).2.1)
theorem scover0_B_1 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 : Vec F S5000x128 .f32) (x1 : Vec F S5000x1 .f32) (x2 : Vec F S128x128 .bf16) (x3 : Vec F S1x128 .f32) (xs0 xs1 : Vec F S1x128 .f32) (y : S1x128.Idx) :
    ∃ pc ∈ (kernelRun0_B c i arg2 harg2 arg3 harg3 arg4 harg4 arg5 harg5 arg6 harg6 arg7 harg7 arg8 harg8 arg9 harg9 arg10 harg10 hc0 hc1 x0 x1 x2 x3 xs0 xs1).2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xs0 xs1).2.2.1 S1x128.size (by sl_kernel_rfl) y
def sout0_B_1 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 : Vec F S5000x128 .f32) (x1 : Vec F S5000x1 .f32) (x2 : Vec F S128x128 .bf16) (x3 : Vec F S1x128 .f32) (xs0 xs1 : Vec F S1x128 .f32) : Vec F S1x128 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 hc0 hc1 x0 x1 x2 x3 xs0 xs1).2.2.1)
theorem cover0_C_4 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S5000x1 .f32) (x2 : Vec F S128x128 .bf16) (x3 : Vec F S1x128 .f32) (xs0 xs1 : Vec F S1x128 .f32) (y : S5000x128.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1).1 S5000x128.size (by sl_kernel_rfl) y
def out0_C_4 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S5000x1 .f32) (x2 : Vec F S128x128 .bf16) (x3 : Vec F S1x128 .f32) (xs0 xs1 : Vec F S1x128 .f32) : Vec F S5000x128 .f32 :=
  VO0_4.read (Elt F) (VO0_4.writes (Elt F) VO0_4.junk (kernelRun0_C c i arg2 harg2 arg3 harg3 arg4 harg4 arg5 harg5 arg6 harg6 arg7 harg7 arg8 harg8 arg9 harg9 arg10 harg10 hc0 hc1 x0 x1 x2 x3 xs0 xs1).1)
theorem cover0_C_5 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S5000x1 .f32) (x2 : Vec F S128x128 .bf16) (x3 : Vec F S1x128 .f32) (xs0 xs1 : Vec F S1x128 .f32) (y : S1x1x128.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1).2.1 S1x1x128.size (by sl_kernel_rfl) y
def out0_C_5 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S5000x1 .f32) (x2 : Vec F S128x128 .bf16) (x3 : Vec F S1x128 .f32) (xs0 xs1 : Vec F S1x128 .f32) : Vec F S1x1x128 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 hc0 hc1 x0 x1 x2 x3 xs0 xs1).2.1)
theorem cover0_C_6 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S5000x1 .f32) (x2 : Vec F S128x128 .bf16) (x3 : Vec F S1x128 .f32) (xs0 xs1 : Vec F S1x128 .f32) (y : S1x1x128.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1).2.2.1 S1x1x128.size (by sl_kernel_rfl) y
def out0_C_6 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S5000x1 .f32) (x2 : Vec F S128x128 .bf16) (x3 : Vec F S1x128 .f32) (xs0 xs1 : Vec F S1x128 .f32) : Vec F S1x1x128 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 x3 xs0 xs1).2.2.1)
theorem scover0_C_0 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S5000x1 .f32) (x2 : Vec F S128x128 .bf16) (x3 : Vec F S1x128 .f32) (xs0 xs1 : Vec F S1x128 .f32) (y : S1x128.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1).2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1).2.2.2.1 S1x128.size (by sl_kernel_rfl) y
def sout0_C_0 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S5000x1 .f32) (x2 : Vec F S128x128 .bf16) (x3 : Vec F S1x128 .f32) (xs0 xs1 : Vec F S1x128 .f32) : Vec F S1x128 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 xs0 xs1).2.2.2.1)
theorem scover0_C_1 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S5000x1 .f32) (x2 : Vec F S128x128 .bf16) (x3 : Vec F S1x128 .f32) (xs0 xs1 : Vec F S1x128 .f32) (y : S1x128.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1).2.2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1).2.2.2.2.1 S1x128.size (by sl_kernel_rfl) y
def sout0_C_1 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S5000x1 .f32) (x2 : Vec F S128x128 .bf16) (x3 : Vec F S1x128 .f32) (xs0 xs1 : Vec F S1x128 .f32) : Vec F S1x128 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 hc0 hc1 x0 x1 x2 x3 xs0 xs1).2.2.2.2.1)

/-! ## Point by point -/

/-- What the three output windows' buffers and the two accumulators hold after the body at point `t`, given what the
    accumulators held before it. -/
def step0 (c : Dev nD) (t : Fin cfg0.N) (p : Vec F S1x128 .f32 × Vec F S1x128 .f32) : Vec F S5000x128 .f32 × Vec F S1x1x128 .f32 × Vec F S1x1x128 .f32 × Vec F S1x128 .f32 × Vec F S1x128 .f32 :=
  if h0 : t.val % 5 = 0 then
    (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => absurd ((hcond0_1 t).mp h) (by omega)) (iblk0 V c 0 t) (iblk0 V c 1 t) (iblk0 V c 2 t) (iblk0 V c 3 t), VO0_5.read (Elt F) VO0_5.junk, VO0_6.read (Elt F) VO0_6.junk, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => absurd ((hcond0_1 t).mp h) (by omega)) (iblk0 V c 0 t) (iblk0 V c 1 t) (iblk0 V c 2 t) (iblk0 V c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => absurd ((hcond0_1 t).mp h) (by omega)) (iblk0 V c 0 t) (iblk0 V c 1 t) (iblk0 V c 2 t) (iblk0 V c 3 t))
  else if h1 : t.val % 5 = 4 then
    (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) p.1 p.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) p.1 p.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) p.1 p.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) p.1 p.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) p.1 p.2)
  else
    (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) p.1 p.2, VO0_5.read (Elt F) VO0_5.junk, VO0_6.read (Elt F) VO0_6.junk, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) p.1 p.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) p.1 p.2)

theorem step0_A (c : Dev nD) (t : Fin cfg0.N) (p : Vec F S1x128 .f32 × Vec F S1x128 .f32) (h0 : t.val % 5 = 0) :
    step0 V c t p = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => absurd ((hcond0_1 t).mp h) (by omega)) (iblk0 V c 0 t) (iblk0 V c 1 t) (iblk0 V c 2 t) (iblk0 V c 3 t), VO0_5.read (Elt F) VO0_5.junk, VO0_6.read (Elt F) VO0_6.junk, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => absurd ((hcond0_1 t).mp h) (by omega)) (iblk0 V c 0 t) (iblk0 V c 1 t) (iblk0 V c 2 t) (iblk0 V c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => absurd ((hcond0_1 t).mp h) (by omega)) (iblk0 V c 0 t) (iblk0 V c 1 t) (iblk0 V c 2 t) (iblk0 V c 3 t)) := dif_pos h0
theorem step0_B (c : Dev nD) (t : Fin cfg0.N) (p : Vec F S1x128 .f32 × Vec F S1x128 .f32) (h0 : ¬t.val % 5 = 0) (h1 : ¬t.val % 5 = 4) :
    step0 V c t p = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) p.1 p.2, VO0_5.read (Elt F) VO0_5.junk, VO0_6.read (Elt F) VO0_6.junk, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) p.1 p.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) p.1 p.2) := (dif_neg h0).trans (dif_neg h1)
theorem step0_C (c : Dev nD) (t : Fin cfg0.N) (p : Vec F S1x128 .f32 × Vec F S1x128 .f32) (h0 : ¬t.val % 5 = 0) (h1 : t.val % 5 = 4) :
    step0 V c t p = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) p.1 p.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) p.1 p.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) p.1 p.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) p.1 p.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) p.1 p.2) := (dif_neg h0).trans (dif_pos h1)

/-- The accumulation over the grid's points, in order. -/
def outsAt0 (c : Dev nD) : (n : ℕ) → n < cfg0.N → Vec F S5000x128 .f32 × Vec F S1x1x128 .f32 × Vec F S1x1x128 .f32 × Vec F S1x128 .f32 × Vec F S1x128 .f32
  | 0, hn => step0 V c ⟨0, hn⟩ (VS0_0.read (Elt F) VS0_0.junk, VS0_1.read (Elt F) VS0_1.junk)
  | n + 1, hn => step0 V c ⟨n + 1, hn⟩ (outsAt0 c n (Nat.lt_of_succ_lt hn)).2.2.2

/-- What the accumulators hold before point `n`. -/
def prev0 (c : Dev nD) : (n : ℕ) → n < cfg0.N → Vec F S1x128 .f32 × Vec F S1x128 .f32
  | 0, _ => (VS0_0.read (Elt F) VS0_0.junk, VS0_1.read (Elt F) VS0_1.junk)
  | n + 1, hn => (outsAt0 V c n (Nat.lt_of_succ_lt hn)).2.2.2

theorem outsAt0_eq (c : Dev nD) (t : Fin cfg0.N) : outsAt0 V c t.val t.isLt = step0 V c t (prev0 V c t.val t.isLt) := by
  obtain ⟨n, hn⟩ := t
  cases n with
  | zero => rfl
  | succ n => rfl

theorem prev0_pos (c : Dev nD) (t : Fin cfg0.N) (hz : t.val ≠ 0) :
    prev0 V c t.val t.isLt = (outsAt0 V c (t.val - 1) (Nat.lt_of_le_of_lt (Nat.sub_le _ _) t.isLt)).2.2.2 := by
  obtain ⟨n, hn⟩ := t
  cases n with
  | zero => exact absurd rfl hz
  | succ n => rfl

/-- The region's invariant before position `n`: before the first point the class's; afterwards the two accumulators at
    what the point before left in them, the other scoped buffers at anything, the generator register at some state. -/
def PhiS (c : Dev nD) : (n : ℕ) → n ≤ cfg0.N → sProp 𝕄
  | 0, _ => Pipeline.ΦA spec0 c
  | n + 1, hn => iprop(iprop(iprop(owns (c : Thread nD τ) scM0_0 fullShare (outsAt0 V c n hn).2.2.2.1 ∗ owns (c : Thread nD τ) scM0_1 fullShare (outsAt0 V c n hn).2.2.2.2) ∗ rest0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(iprop(owns (c : Thread nD τ) scM0_0 fullShare (outsAt0 V c n hn).2.2.2.1 ∗ owns (c : Thread nD τ) scM0_1 fullShare (outsAt0 V c n hn).2.2.2.2) ∗ rest0 c) ∗ (∃ r, prngReg c r)) := rfl
theorem PhiS_pos (c : Dev nD) (n : ℕ) (h : n ≤ cfg0.N) (hz : n ≠ 0) :
    PhiS V c n h = iprop(iprop(iprop(owns (c : Thread nD τ) scM0_0 fullShare (outsAt0 V c (n - 1) (by omega)).2.2.2.1 ∗ owns (c : Thread nD τ) scM0_1 fullShare (outsAt0 V c (n - 1) (by omega)).2.2.2.2) ∗ rest0 c) ∗ (∃ r, prngReg c r)) := by
  cases n with
  | zero => exact absurd rfl hz
  | succ n => rfl

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨6, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem after0_6 (c : Dev nD) (t : Fin cfg0.N) : (dat0 V c).after 6 t = (outsAt0 V c t.val t.isLt).2.2.1 := by dsimp only [dat0]
theorem before0_0 (c : Dev nD) (t : Fin cfg0.N) (d) : (dat0 V c).before 0 t d = iblk0 V c 0 t := before0_0_of V (dat0 V c) (A_eq0 V c 0) (after0_0 V c) t d
theorem before0_1 (c : Dev nD) (t : Fin cfg0.N) (d) : (dat0 V c).before 1 t d = iblk0 V c 1 t := before0_1_of V (dat0 V c) (A_eq0 V c 1) (after0_1 V c) t d
theorem before0_2 (c : Dev nD) (t : Fin cfg0.N) (d) : (dat0 V c).before 2 t d = iblk0 V c 2 t := before0_2_of V (dat0 V c) (A_eq0 V c 2) (after0_2 V c) t d
theorem before0_3 (c : Dev nD) (t : Fin cfg0.N) (d) : (dat0 V c).before 3 t d = iblk0 V c 3 t := before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 16000000 in
/-- The body at any point: the inputs' buffers hold their blocks; the closed forms say which case the point is in; the
    invariant hands the body the accumulators at what the point before left (at anything at the very first point) and
    takes them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  have hN : t.val < 10 := lt_of_lt_of_eq t.isLt (show cfg0.N = 10 from N_0)
  by_cases h0 : t.val % 5 = 0
  · have h1 : ¬t.val % 5 = 4 := by omega
    rw [Dat.leavesExact_idle (dat0 V c) 5 t (idleAt0_5 t (fun h => h1 ((hcond0_1 t).mp h))) (noFlush0_5 t (fun h => h1 ((hcond0_1 t).mp h)))]
    rw [Dat.leavesExact_idle (dat0 V c) 6 t (idleAt0_6 t (fun h => h1 ((hcond0_1 t).mp h))) (noFlush0_6 t (fun h => h1 ((hcond0_1 t).mp h)))]
    rw [outsAt0_eq V c t, step0_A V c t _ h0]
    unfold out0_A_4 sout0_A_0 sout0_A_1; (try dsimp only)
    by_cases hz : t.val = 0
    · rw [PhiS_castSucc V c t, PhiS_zero V c _ _ hz, PhiA0_eq]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => absurd ((hcond0_1 t).mp h) (by omega)) (iblk0 V c 0 t) (iblk0 V c 1 t) (iblk0 V c 2 t) (iblk0 V c 3 t)).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ )
            · unfold owns; iexists _; isplitr
              swap; · iexact HS1
              ipureintro; exact View.read_writes_of_cover _ _ _ _ _ (scover0_A_1 c _ _ _ _ _ _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _ _ _ _ _ _ )
      isplitl [H5]; · iexists _; iexact H5
      iexists _; iexact H6
    · rw [PhiS_castSucc V c t, PhiS_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => absurd ((hcond0_1 t).mp h) (by omega)) (iblk0 V c 0 t) (iblk0 V c 1 t) (iblk0 V c 2 t) (iblk0 V c 3 t)).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexists _; iexact HS0
      isplitl [HS1]; · iexists _; iexact HS1
      iintro ⟨H0, H1, H2, H3, ⟨%e4, H4⟩, H5, H6, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ )
            · unfold owns; iexists _; isplitr
              swap; · iexact HS1
              ipureintro; exact View.read_writes_of_cover _ _ _ _ _ (scover0_A_1 c _ _ _ _ _ _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _ _ _ _ _ _ )
      isplitl [H5]; · iexists _; iexact H5
      iexists _; iexact H6
  · have hz : t.val ≠ 0 := fun e => h0 (by rw [e])
    by_cases h1 : t.val % 5 = 4
    · rw [show (dat0 V c).leavesExact 5 t = owns (c : Thread nD τ) (ms0_5 t) fullShare ((dat0 V c).after 5 t) from by
        unfold Dat.leavesExact; rw [liveAt0_5 t ((hcond0_1 t).mpr h1)], after0_5]
      rw [show (dat0 V c).leavesExact 6 t = owns (c : Thread nD τ) (ms0_6 t) fullShare ((dat0 V c).after 6 t) from by
        unfold Dat.leavesExact; rw [liveAt0_6 t ((hcond0_1 t).mpr h1)], after0_6]
      rw [outsAt0_eq V c t, prev0_pos V c t hz, step0_C V c t _ h0 h1]
      unfold out0_C_4 out0_C_5 out0_C_6 sout0_C_0 sout0_C_1; (try dsimp only)
      rw [PhiS_castSucc V c t, PhiS_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ )
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_C_4 c _ _ _ _ _ _ _ _ _ _ _ _ _ _ _ _ _ _ _ _ _ _ _ _ _ _ _ )
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _ _ _ )
      unfold owns; iexists _; isplitr
      swap; · iexact H6
      ipureintro; exact View.read_writes_of_cover _ _ _ _ _ (cover0_C_6 c _ _ _ _ _ _ _ _ _ _ _ _ _ _ _ _ _ _ _ _ _ _ _ _ _ _ _ )
    · rw [Dat.leavesExact_idle (dat0 V c) 5 t (idleAt0_5 t (fun h => h1 ((hcond0_1 t).mp h))) (noFlush0_5 t (fun h => h1 ((hcond0_1 t).mp h)))]
      rw [Dat.leavesExact_idle (dat0 V c) 6 t (idleAt0_6 t (fun h => h1 ((hcond0_1 t).mp h))) (noFlush0_6 t (fun h => h1 ((hcond0_1 t).mp h)))]
      rw [outsAt0_eq V c t, prev0_pos V c t hz, step0_B V c t _ h0 h1]
      unfold out0_B_4 sout0_B_0 sout0_B_1; (try dsimp only)
      rw [PhiS_castSucc V c t, PhiS_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ )
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _ _ _ _ _ )
      isplitl [H5]; · iexists _; iexact H5
      iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the class's back: the accumulators' named contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 10 := N_0; omega), PhiA0_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end Regions

end Cert.KernelIdeal.Hand

end
-- ==== Proof.Run1I.lean ====
/-
  The second kernel's body — normalise, scale and shift, clamp at zero, add the residual — run once on whole staging
  buffers: the six input buffers are read and handed back as they were, the output buffer ends with the pieces the body
  stored into it (one store of the whole block).
-/
import proofs.«118097_j46162308497632_2_alg».proof.Proof.Gen.KernelIdeal.Launch
import proofs.«118097_j46162308497632_2_alg».proof.Proof.Gen.KernelIdeal.Skeleton
import proofs.«118097_j46162308497632_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's one store leaves in the output's staging buffer, as a list of pieces, with the proof that from the
    six input buffers at their contents and the output buffer at anything the body runs to its end, the inputs
    unchanged and the output holding those pieces. -/
noncomputable def kernelRun1 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S10000x128 .f32) (harg7 : arg7.IsWhole)
    (x0 x1 : Vec F S10000x128 .f32) (x2 x3 x4 x5 : Vec F S1x128 .f32) :
    { L6 : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6)) -∗ K ⟨⟩))
          ⊢ wp frame (wpE (defs₀ (F := F)) Variants.none c none) E (cc1__norm_relu_residual_kernel i arg1 harg1 arg2 harg2 arg3 harg3 arg4 harg4 arg5 harg5 arg6 harg6 arg7 harg7) K } := by
  refine ⟨?_, fun E K => ?run⟩
  case run =>
    simp only [cc1__norm_relu_residual_kernel_eq_skeleton]; unfold cc1__norm_relu_residual_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact H6

end Cert.KernelIdeal.Hand

end
-- ==== Proof.R1I.lean ====
/-
  The second call's pipeline: what its windows hold point by point. Each of the six input windows' staging buffers
  holds its array's block at every point (fetched there, or fetched at the first point and never moved); the output
  window's buffer holds, after the body, the pieces the body stored, read back. The body obligation follows from the
  body's run at the point's buffers.
-/
import proofs.«118097_j46162308497632_2_alg».proof.Proof.Run1I
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev ms1_0 (t : Fin cfg1.N) : Memref sig .tc .vmem S10000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S10000x128 .f32 := win1_6.stage (cfg1.slots t 6)
abbrev hs1_6 (t : Fin cfg1.N) : (ms1_6 t).IsWhole := hstage1_6 ((cfg1.slots t 6).cast nbuf1_6)
/-- A view through which the output window's contents are stated. -/
abbrev VO1_6 : View sig .tc .vmem S10000x128 .f32 := (Memref.whole cc1_stg6_0 : Memref sig .tc .vmem S10000x128 .f32).view

section Regions
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The body's pieces for the output window tile its block, so they cover it. -/
theorem cover1_6 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S10000x128 .f32) (harg7 : arg7.IsWhole)
    (x0 x1 : Vec F S10000x128 .f32) (x2 x3 x4 x5 : Vec F S1x128 .f32) (y : S10000x128.Idx) :
    ∃ pc ∈ (kernelRun1 c i arg1 harg1 arg2 harg2 arg3 harg3 arg4 harg4 arg5 harg5 arg6 harg6 arg7 harg7 x0 x1 x2 x3 x4 x5).1, y ∈ pc.1.set :=
  View.cover_of_tiledL (kernelRun1 c i arg1 harg1 arg2 harg2 arg3 harg3 arg4 harg4 arg5 harg5 arg6 harg6 arg7 harg7 x0 x1 x2 x3 x4 x5).1 S10000x128.size (by sl_kernel_rfl) y

/-- What the body leaves in the output window's staging buffer: its pieces read back. -/
def out1_6 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S10000x128 .f32) (harg7 : arg7.IsWhole)
    (x0 x1 : Vec F S10000x128 .f32) (x2 x3 x4 x5 : Vec F S1x128 .f32) : Vec F S10000x128 .f32 :=
  VO1_6.read (Elt F) (VO1_6.writes (Elt F) VO1_6.junk (kernelRun1 c i arg1 harg1 arg2 harg2 arg3 harg3 arg4 harg4 arg5 harg5 arg6 harg6 arg7 harg7 x0 x1 x2 x3 x4 x5).1)

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) (iblk1 V c 4 t) (iblk1 V c 5 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 4000000 in
/-- The body at any point: the inputs' buffers hold their blocks, so the run applies; the invariant and the core's
    dues pass through unread; the output's pieces cover its block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  unfold out1_6
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) (iblk1 V c 4 t) (iblk1 V c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover1_6 c _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.MainI.lean ====
/-
  The whole run: @main as six segments — three stretches of host operations, the first call, a stretch of host
  operations, the second call — each entered from the buffer contents the one before it left. Every weakly fair
  execution terminates, faults nowhere, and ends with every unscoped buffer at the last boundary's contents; read at the
  argument arrays this is the frame (no host operation writes an argument and no call may change one), read at the
  result array it is what the second call's pipeline leaves there.
-/
import proofs.«118097_j46162308497632_2_alg».proof.Proof.R0I
import proofs.«118097_j46162308497632_2_alg».proof.Proof.R1I
import proofs.«118097_j46162308497632_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b
/-- At the first call's exit: its arrays at what the pipeline leaves, every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

abbrev W5 : Dev nD → Valuation τ sig (Elt F) := fun c => StableHlo.after hostOps1 (W4 m c)
abbrev V5 : (c : Dev nD) → (b : Ref sig .tc) → Buf (Elt F) ((c : Thread nD τ).loc b) := fun c b => W5 m c b
/-- At the second call's exit. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-! ### The arguments end as launched -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := (W6_arr m c 1).trans (((dat1 (V5 m) c).arrAt_in 1 rfl _).trans (A_eq1 (V5 m) c 1))
    _ = W4 m c (Proc.devRef .tc main_arg0) := StableHlo.after_of_writes_sub hostOps1 _ hostOps1_writes (by decide)
    _ = W3 m c (Proc.devRef .tc main_arg0) := W4_of_ne m c main_arg0 (by decide)
    _ = W2 m c (Proc.devRef .tc main_arg0) := StableHlo.after_of_writes_sub hostOps0_2 _ hostOps0_2_writes (by decide)
    _ = W1 m c (Proc.devRef .tc main_arg0) := StableHlo.after_of_writes_sub hostOps0_1 _ hostOps0_1_writes (by decide)
    _ = W0 m c (Proc.devRef .tc main_arg0) := StableHlo.after_of_writes_sub hostOps0 _ hostOps0_writes (by decide)
    _ = m ((c : Thread nD τ).loc main_arg0) := rfl
theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := StableHlo.after_of_writes_sub hostOps1 _ hostOps1_writes (by decide)
    _ = W3 m c (Proc.devRef .tc main_arg1) := W4_of_ne m c main_arg1 (by decide)
    _ = W2 m c (Proc.devRef .tc main_arg1) := StableHlo.after_of_writes_sub hostOps0_2 _ hostOps0_2_writes (by decide)
    _ = W1 m c (Proc.devRef .tc main_arg1) := StableHlo.after_of_writes_sub hostOps0_1 _ hostOps0_1_writes (by decide)
    _ = W0 m c (Proc.devRef .tc main_arg1) := StableHlo.after_of_writes_sub hostOps0 _ hostOps0_writes (by decide)
    _ = m ((c : Thread nD τ).loc main_arg1) := rfl
theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := StableHlo.after_of_writes_sub hostOps1 _ hostOps1_writes (by decide)
    _ = W3 m c (Proc.devRef .tc main_arg2) := W4_of_ne m c main_arg2 (by decide)
    _ = W2 m c (Proc.devRef .tc main_arg2) := StableHlo.after_of_writes_sub hostOps0_2 _ hostOps0_2_writes (by decide)
    _ = W1 m c (Proc.devRef .tc main_arg2) := StableHlo.after_of_writes_sub hostOps0_1 _ hostOps0_1_writes (by decide)
    _ = W0 m c (Proc.devRef .tc main_arg2) := StableHlo.after_of_writes_sub hostOps0 _ hostOps0_writes (by decide)
    _ = m ((c : Thread nD τ).loc main_arg2) := rfl
theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W4 m c (Proc.devRef .tc main_arg3) := StableHlo.after_of_writes_sub hostOps1 _ hostOps1_writes (by decide)
    _ = W3 m c (Proc.devRef .tc main_arg3) := W4_of_ne m c main_arg3 (by decide)
    _ = W2 m c (Proc.devRef .tc main_arg3) := StableHlo.after_of_writes_sub hostOps0_2 _ hostOps0_2_writes (by decide)
    _ = W1 m c (Proc.devRef .tc main_arg3) := StableHlo.after_of_writes_sub hostOps0_1 _ hostOps0_1_writes (by decide)
    _ = W0 m c (Proc.devRef .tc main_arg3) := StableHlo.after_of_writes_sub hostOps0 _ hostOps0_writes (by decide)
    _ = m ((c : Thread nD τ).loc main_arg3) := rfl
theorem W6_main_arg4 (c : Dev nD) : W6 m c (Proc.devRef .tc main_arg4) = m ((c : Thread nD τ).loc main_arg4) :=
  calc W6 m c (Proc.devRef .tc main_arg4)
    _ = W5 m c (Proc.devRef .tc main_arg4) := W6_of_ne m c main_arg4 (by decide)
    _ = W4 m c (Proc.devRef .tc main_arg4) := StableHlo.after_of_writes_sub hostOps1 _ hostOps1_writes (by decide)
    _ = W3 m c (Proc.devRef .tc main_arg4) := W4_of_ne m c main_arg4 (by decide)
    _ = W2 m c (Proc.devRef .tc main_arg4) := StableHlo.after_of_writes_sub hostOps0_2 _ hostOps0_2_writes (by decide)
    _ = W1 m c (Proc.devRef .tc main_arg4) := StableHlo.after_of_writes_sub hostOps0_1 _ hostOps0_1_writes (by decide)
    _ = W0 m c (Proc.devRef .tc main_arg4) := StableHlo.after_of_writes_sub hostOps0 _ hostOps0_writes (by decide)
    _ = m ((c : Thread nD τ).loc main_arg4) := rfl
theorem W6_main_arg5 (c : Dev nD) : W6 m c (Proc.devRef .tc main_arg5) = m ((c : Thread nD τ).loc main_arg5) :=
  calc W6 m c (Proc.devRef .tc main_arg5)
    _ = W5 m c (Proc.devRef .tc main_arg5) := W6_of_ne m c main_arg5 (by decide)
    _ = W4 m c (Proc.devRef .tc main_arg5) := StableHlo.after_of_writes_sub hostOps1 _ hostOps1_writes (by decide)
    _ = W3 m c (Proc.devRef .tc main_arg5) := W4_of_ne m c main_arg5 (by decide)
    _ = W2 m c (Proc.devRef .tc main_arg5) := StableHlo.after_of_writes_sub hostOps0_2 _ hostOps0_2_writes (by decide)
    _ = W1 m c (Proc.devRef .tc main_arg5) := StableHlo.after_of_writes_sub hostOps0_1 _ hostOps0_1_writes (by decide)
    _ = W0 m c (Proc.devRef .tc main_arg5) := StableHlo.after_of_writes_sub hostOps0 _ hostOps0_writes (by decide)
    _ = m ((c : Thread nD τ).loc main_arg5) := rfl
theorem W6_main_arg6 (c : Dev nD) : W6 m c (Proc.devRef .tc main_arg6) = m ((c : Thread nD τ).loc main_arg6) :=
  calc W6 m c (Proc.devRef .tc main_arg6)
    _ = W5 m c (Proc.devRef .tc main_arg6) := W6_of_ne m c main_arg6 (by decide)
    _ = W4 m c (Proc.devRef .tc main_arg6) := StableHlo.after_of_writes_sub hostOps1 _ hostOps1_writes (by decide)
    _ = W3 m c (Proc.devRef .tc main_arg6) := W4_of_ne m c main_arg6 (by decide)
    _ = W2 m c (Proc.devRef .tc main_arg6) := StableHlo.after_of_writes_sub hostOps0_2 _ hostOps0_2_writes (by decide)
    _ = W1 m c (Proc.devRef .tc main_arg6) := StableHlo.after_of_writes_sub hostOps0_1 _ hostOps0_1_writes (by decide)
    _ = W0 m c (Proc.devRef .tc main_arg6) := StableHlo.after_of_writes_sub hostOps0 _ hostOps0_writes (by decide)
    _ = m ((c : Thread nD τ).loc main_arg6) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The calls as segments -/

set_option backward.isDefEq.respectTransparency.types false in
/-- Call 0 over the thread state: entered from every unscoped buffer at the contents before it, left at the contents
    after it: its arrays split out of the unscoped buffers and put back at what the pipeline leaves in them; the generator
    register into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest (Ix := Unit) (Name := ℕ) (U := UR sig nD τ) (Lvl := ℕ) (Val := Elt F) spec0 c ∗ ∃ r, prngReg c r) : sProp 𝕄) ⊢ (dat0 (V3 m) c).Φ 0 := by
      have h' := hin0 (V3 m) c; unfold Pipeline.ΦA at h'; exact h'
    rw [show (pdats m 0 c).Φ 0 = (dat0 (V3 m) c).Φ 0 from rfl]
    iintro ⟨Hp, -, Hr⟩
    iapply h
    isplitl [Hr]; · iexact Hr
    iexact Hp
  hout c := by
    rw [Pipeline.ownSems0_none]
    have h : (dat0 (V3 m) c).Φ (Fin.last cfg0.N) ⊢ (iprop(Pipeline.scopedRest (Ix := Unit) (Name := ℕ) (U := UR sig nD τ) (Lvl := ℕ) (Val := Elt F) spec0 c ∗ ∃ r, prngReg c r) : sProp 𝕄) := by
      have h' := hout0 (V3 m) c; unfold Pipeline.ΦA at h'; exact h'
    rw [show (pdats m 0 c).Φ (Fin.last _) = (dat0 (V3 m) c).Φ (Fin.last cfg0.N) from rfl]
    iintro HPhi
    ihave H := h $$ HPhi
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at the contents before it, left at the contents
    after it: its arrays split out of the unscoped buffers and put back at what the pipeline leaves in them; the generator
    register into the invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m) ]
theorem main_run (c : Dev nD) : main (F := F) c = Pipeline.Seg.run (segs m) := by
  rw [main_chain c, Pipeline.Seg.run_eq_chain]; rfl

set_option backward.isDefEq.respectTransparency.types false in
/-- Every weakly fair execution of @main terminates, nothing faulting, with every unscoped buffer of every core at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W6_main_arg0 m c),
    (h c _ (mem_uc main_arg1 (by decide))).trans (W6_main_arg1 m c),
    (h c _ (mem_uc main_arg2 (by decide))).trans (W6_main_arg2 m c),
    (h c _ (mem_uc main_arg3 (by decide))).trans (W6_main_arg3 m c),
    (h c _ (mem_uc main_arg4 (by decide))).trans (W6_main_arg4 m c),
    (h c _ (mem_uc main_arg5 (by decide))).trans (W6_main_arg5 m c),
    (h c _ (mem_uc main_arg6 (by decide))).trans (W6_main_arg6 m c)⟩) (run_all m ρ)

/-- The run with the result array named: what the second call's pipeline leaves in it. -/
theorem run_value : θ_run defs (onTc (τ := τ) (main (F := F))) ⟨m, fun _ => 0, ρ⟩ (fun r => ∀ c : Dev nD,
      r.2.mem ((c.tc : Thread nD τ).loc main_v40) = (dat1 (V5 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_v40 (by decide))).trans (W6_arr m c 6),
    (h c _ (mem_uc main_arg0 (by decide))).trans (W6_main_arg0 m c),
    (h c _ (mem_uc main_arg1 (by decide))).trans (W6_main_arg1 m c),
    (h c _ (mem_uc main_arg2 (by decide))).trans (W6_main_arg2 m c),
    (h c _ (mem_uc main_arg3 (by decide))).trans (W6_main_arg3 m c),
    (h c _ (mem_uc main_arg4 (by decide))).trans (W6_main_arg4 m c),
    (h c _ (mem_uc main_arg5 (by decide))).trans (W6_main_arg5 m c),
    (h c _ (mem_uc main_arg6 (by decide))).trans (W6_main_arg6 m c)⟩) (run_all m ρ)

end Cert.KernelIdeal.Hand

end
-- ==== Proof.RefRun.lean ====
/-
  The reference program's @main read as a straight line of its 73 host operations, and its run: from any memory with
  zero counters every weakly fair execution terminates with the result buffer at the operations' composed pure term
  of the arguments' launch contents, the seven arguments unchanged. Generic in the float values.

  The composed term is cut into named parts: `agg` (the summed neighbour features: the scatter-add of the gathered
  rows), `deg` (the in-degrees: the scatter-add of ones), and `refOut` (everything after them — the guarded mean,
  the linear layer, the column statistics, the normalisation, the clamp at zero and the residual — as a function of
  the five float arguments and of the two aggregates as variables).
-/
import proofs.«118097_j46162308497632_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 73 host operations, in order (a called function's operations stand in its call's place). -/
abbrev ops : List (HloOp τ sig (Elt F)) :=
  [ nullary main_c (constantI S_ 32 0#32),
    unary main_c main_v0 (broadcastInDim S800000 ![] bcast_S_S800000 : (⟨S_, .i32⟩ : BufTy).Contents (Elt F) → (⟨S800000, .i32⟩ : BufTy).Contents (Elt F)),
    binary main_arg5 main_v0 main_v1 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v2 (broadcastInDim S800000 ![] bcast_S_S800000 : (⟨S_, .i32⟩ : BufTy).Contents (Elt F) → (⟨S800000, .i32⟩ : BufTy).Contents (Elt F)),
    binary main_arg5 main_v2 main_v3 (addi : (⟨S800000, .i32⟩ : BufTy).Contents (Elt F) → (⟨S800000, .i32⟩ : BufTy).Contents (Elt F) → (⟨S800000, .i32⟩ : BufTy).Contents (Elt F)),
    ternary main_v1 main_v3 main_arg5 main_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v4 main_v5 (broadcastInDim S800000x1 ![0] bcast_S800000_S800000x1_0 : (⟨S800000, .i32⟩ : BufTy).Contents (Elt F) → (⟨S800000x1, .i32⟩ : BufTy).Contents (Elt F)),
    binary main_arg0 main_v5 main_v6 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v7 (broadcastInDim S50000x128 ![] bcast_S_S50000x128 : (⟨S_, .f32⟩ : BufTy).Contents (Elt F) → (⟨S50000x128, .f32⟩ : BufTy).Contents (Elt F)),
    unary main_arg6 main_v8 (broadcastInDim S800000x1 ![0] bcast_S800000_S800000x1_0 : (⟨S800000, .i32⟩ : BufTy).Contents (Elt F) → (⟨S800000x1, .i32⟩ : BufTy).Contents (Elt F)),
    ternary main_v7 main_v8 main_v6 main_v9 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    unary main_cst_1 main_v10 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v11 (broadcastInDim S50000 ![] bcast_S_S50000 : (⟨S_, .f32⟩ : BufTy).Contents (Elt F) → (⟨S50000, .f32⟩ : BufTy).Contents (Elt F)),
    unary main_arg6 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    unary main_v13 main_v14 (broadcastInDim S50000x1 ![0] bcast_S50000_S50000x1_0 : (⟨S50000, .f32⟩ : BufTy).Contents (Elt F) → (⟨S50000x1, .f32⟩ : BufTy).Contents (Elt F)),
    nullary main_cst_3 (constant S_ .f32 0x00000000#32),
    unary main_cst_3 main_v15 (broadcastInDim S50000x1 ![] bcast_S_S50000x1 : (⟨S_, .f32⟩ : BufTy).Contents (Elt F) → (⟨S50000x1, .f32⟩ : BufTy).Contents (Elt F)),
    binary main_v14 main_v15 main_v16 (cmpf .ogt : (⟨S50000x1, .f32⟩ : BufTy).Contents (Elt F) → (⟨S50000x1, .f32⟩ : BufTy).Contents (Elt F) → (⟨S50000x1, .i1⟩ : BufTy).Contents (Elt F)),
    nullary main_cst_4 (constant S_ .f32 0x3F800000#32),
    unary main_cst_4 main_v17 (broadcastInDim S50000 ![] bcast_S_S50000 : (⟨S_, .f32⟩ : BufTy).Contents (Elt F) → (⟨S50000, .f32⟩ : BufTy).Contents (Elt F)),
    binary main_v13 main_v17 main_v18 (maximumf : (⟨S50000, .f32⟩ : BufTy).Contents (Elt F) → (⟨S50000, .f32⟩ : BufTy).Contents (Elt F) → (⟨S50000, .f32⟩ : BufTy).Contents (Elt F)),
    unary main_v18 main_v19 (broadcastInDim S50000x1 ![0] bcast_S50000_S50000x1_0 : (⟨S50000, .f32⟩ : BufTy).Contents (Elt F) → (⟨S50000x1, .f32⟩ : BufTy).Contents (Elt F)),
    unary main_v19 main_v20 (broadcastInDim S50000x128 ![0, 1] bcast_S50000x1_S50000x128_0_1 : (⟨S50000x1, .f32⟩ : BufTy).Contents (Elt F) → (⟨S50000x128, .f32⟩ : BufTy).Contents (Elt F)),
    binary main_v9 main_v20 main_v21 (Host.divf : (⟨S50000x128, .f32⟩ : BufTy).Contents (Elt F) → (⟨S50000x128, .f32⟩ : BufTy).Contents (Elt F) → (⟨S50000x128, .f32⟩ : BufTy).Contents (Elt F)),
    nullary main_cst_5 (constant S_ .f32 0x00000000#32),
    TRef.unary (TRef.of (T := ⟨S_, .f32⟩) main_cst_5) (TRef.of (T := ⟨S_, .f32⟩) main_call0_v0) id,
    TRef.unary (TRef.of (T := ⟨S50000x1, .i1⟩) main_v16) (TRef.of (T := ⟨S50000x128, .i1⟩) main_call0_v1) (broadcastInDim S50000x128 ![0, 1] bcast_S50000x1_S50000x128_0_1),
    TRef.unary (TRef.of (T := ⟨S_, .f32⟩) main_call0_v0) (TRef.of (T := ⟨S50000x128, .f32⟩) main_call0_v2) (broadcastInDim S50000x128 ![] bcast_S_S50000x128),
    TRef.ternary (TRef.of (T := ⟨S50000x128, .i1⟩) main_call0_v1) (TRef.of (T := ⟨S50000x128, .f32⟩) main_v21) (TRef.of (T := ⟨S50000x128, .f32⟩) main_call0_v2) (TRef.of (T := ⟨S50000x128, .f32⟩) main_v22) select,
    unary main_arg1 main_v23 ((transpose S128x128 [1, 0] · transposes_S128x128_S128x128_1_0) : (⟨S128x128, .f32⟩ : BufTy).Contents (Elt F) → (⟨S128x128, .f32⟩ : BufTy).Contents (Elt F)),
    binary main_v22 main_v23 main_v24 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg2 main_v25 (broadcastInDim S1x128 ![1] bcast_S128_S1x128_1 : (⟨S128, .f32⟩ : BufTy).Contents (Elt F) → (⟨S1x128, .f32⟩ : BufTy).Contents (Elt F)),
    unary main_v25 main_v26 (broadcastInDim S50000x128 ![0, 1] bcast_S1x128_S50000x128_0_1 : (⟨S1x128, .f32⟩ : BufTy).Contents (Elt F) → (⟨S50000x128, .f32⟩ : BufTy).Contents (Elt F)),
    binary main_v24 main_v26 main_v27 (addf : (⟨S50000x128, .f32⟩ : BufTy).Contents (Elt F) → (⟨S50000x128, .f32⟩ : BufTy).Contents (Elt F) → (⟨S50000x128, .f32⟩ : BufTy).Contents (Elt F)),
    nullary main_cst_6 (constant S_ .f32 0x00000000#32),
    binary main_v27 main_cst_6 main_v28 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_7 (constant S_ .f32 0x47435000#32),
    unary main_cst_7 main_v29 (broadcastInDim S128 ![] bcast_S_S128 : (⟨S_, .f32⟩ : BufTy).Contents (Elt F) → (⟨S128, .f32⟩ : BufTy).Contents (Elt F)),
    binary main_v28 main_v29 main_v30 (Host.divf : (⟨S128, .f32⟩ : BufTy).Contents (Elt F) → (⟨S128, .f32⟩ : BufTy).Contents (Elt F) → (⟨S128, .f32⟩ : BufTy).Contents (Elt F)),
    unary main_v30 main_v31 (broadcastInDim S1x128 ![1] bcast_S128_S1x128_1 : (⟨S128, .f32⟩ : BufTy).Contents (Elt F) → (⟨S1x128, .f32⟩ : BufTy).Contents (Elt F)),
    unary main_v31 main_v32 (broadcastInDim S50000x128 ![0, 1] bcast_S1x128_S50000x128_0_1 : (⟨S1x128, .f32⟩ : BufTy).Contents (Elt F) → (⟨S50000x128, .f32⟩ : BufTy).Contents (Elt F)),
    binary main_v27 main_v32 main_v33 (subf : (⟨S50000x128, .f32⟩ : BufTy).Contents (Elt F) → (⟨S50000x128, .f32⟩ : BufTy).Contents (Elt F) → (⟨S50000x128, .f32⟩ : BufTy).Contents (Elt F)),
    binary main_v33 main_v33 main_v34 (mulf : (⟨S50000x128, .f32⟩ : BufTy).Contents (Elt F) → (⟨S50000x128, .f32⟩ : BufTy).Contents (Elt F) → (⟨S50000x128, .f32⟩ : BufTy).Contents (Elt F)),
    nullary main_cst_8 (constant S_ .f32 0x00000000#32),
    binary main_v34 main_cst_8 main_v35 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_9 (constant S_ .f32 0x47435000#32),
    unary main_cst_9 main_v36 (broadcastInDim S128 ![] bcast_S_S128 : (⟨S_, .f32⟩ : BufTy).Contents (Elt F) → (⟨S128, .f32⟩ : BufTy).Contents (Elt F)),
    binary main_v35 main_v36 main_v37 (Host.divf : (⟨S128, .f32⟩ : BufTy).Contents (Elt F) → (⟨S128, .f32⟩ : BufTy).Contents (Elt F) → (⟨S128, .f32⟩ : BufTy).Contents (Elt F)),
    unary main_v30 main_v38 (broadcastInDim S1x128 ![1] bcast_S128_S1x128_1 : (⟨S128, .f32⟩ : BufTy).Contents (Elt F) → (⟨S1x128, .f32⟩ : BufTy).Contents (Elt F)),
    unary main_v38 main_v39 (broadcastInDim S50000x128 ![0, 1] bcast_S1x128_S50000x128_0_1 : (⟨S1x128, .f32⟩ : BufTy).Contents (Elt F) → (⟨S50000x128, .f32⟩ : BufTy).Contents (Elt F)),
    binary main_v27 main_v39 main_v40 (subf : (⟨S50000x128, .f32⟩ : BufTy).Contents (Elt F) → (⟨S50000x128, .f32⟩ : BufTy).Contents (Elt F) → (⟨S50000x128, .f32⟩ : BufTy).Contents (Elt F)),
    nullary main_cst_10 (constant S_ .f32 0x3727C5AC#32),
    unary main_cst_10 main_v41 (broadcastInDim S128 ![] bcast_S_S128 : (⟨S_, .f32⟩ : BufTy).Contents (Elt F) → (⟨S128, .f32⟩ : BufTy).Contents (Elt F)),
    binary main_v37 main_v41 main_v42 (addf : (⟨S128, .f32⟩ : BufTy).Contents (Elt F) → (⟨S128, .f32⟩ : BufTy).Contents (Elt F) → (⟨S128, .f32⟩ : BufTy).Contents (Elt F)),
    unary main_v42 main_v43 (Host.sqrt : (⟨S128, .f32⟩ : BufTy).Contents (Elt F) → (⟨S128, .f32⟩ : BufTy).Contents (Elt F)),
    unary main_v43 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v40 main_v45 main_v46 (Host.divf : (⟨S50000x128, .f32⟩ : BufTy).Contents (Elt F) → (⟨S50000x128, .f32⟩ : BufTy).Contents (Elt F) → (⟨S50000x128, .f32⟩ : BufTy).Contents (Elt F)),
    unary main_arg3 main_v47 (broadcastInDim S1x128 ![1] bcast_S128_S1x128_1 : (⟨S128, .f32⟩ : BufTy).Contents (Elt F) → (⟨S1x128, .f32⟩ : BufTy).Contents (Elt F)),
    unary main_v47 main_v48 (broadcastInDim S50000x128 ![0, 1] bcast_S1x128_S50000x128_0_1 : (⟨S1x128, .f32⟩ : BufTy).Contents (Elt F) → (⟨S50000x128, .f32⟩ : BufTy).Contents (Elt F)),
    binary main_v46 main_v48 main_v49 (mulf : (⟨S50000x128, .f32⟩ : BufTy).Contents (Elt F) → (⟨S50000x128, .f32⟩ : BufTy).Contents (Elt F) → (⟨S50000x128, .f32⟩ : BufTy).Contents (Elt F)),
    unary main_arg4 main_v50 (broadcastInDim S1x128 ![1] bcast_S128_S1x128_1 : (⟨S128, .f32⟩ : BufTy).Contents (Elt F) → (⟨S1x128, .f32⟩ : BufTy).Contents (Elt F)),
    unary main_v50 main_v51 (broadcastInDim S50000x128 ![0, 1] bcast_S1x128_S50000x128_0_1 : (⟨S1x128, .f32⟩ : BufTy).Contents (Elt F) → (⟨S50000x128, .f32⟩ : BufTy).Contents (Elt F)),
    binary main_v49 main_v51 main_v52 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v52) (TRef.of (T := ⟨S50000x128, .f32⟩) main_call1_v0) (TRef.of (T := ⟨S50000x128, .f32⟩) main_v53) maximumf,
    binary main_arg0 main_v53 main_v54 (addf : (⟨S50000x128, .f32⟩ : BufTy).Contents (Elt F) → (⟨S50000x128, .f32⟩ : BufTy).Contents (Elt F) → (⟨S50000x128, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., unary_bufs_sub .., unary_bufs_sub .., binary_bufs_sub .., nullary_bufs_sub .., unary_bufs_sub .., unary_bufs_sub .., unary_bufs_sub .., ternary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub ..⟩

/-- The summed neighbour features: row `dst e` of the result gathers row `src e` of `x`, over all edges `e`
    (a negative source index is first wrapped by the row count). -/
def agg (x : FVec F S50000x128 .f32) (src dst : IVec S800000 32) : FVec F S50000x128 .f32 :=
  Host.scatterAdd scatter_S50000x128_S800000x1_S800000x128_1_0_0_1 (broadcastInDim S50000x128 ![] bcast_S_S50000x128 (constant S_ .f32 0x00000000#32)) (broadcastInDim S800000x1 ![0] bcast_S800000_S800000x1_0 dst) (Host.gather gather_S50000x128_S800000x1_S800000x128_1_0_n_n_0_1_1128 x (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)))

/-- The in-degrees: entry `dst e` counts one per edge `e`. -/
def deg (dst : IVec S800000 32) : FVec F S50000 .f32 :=
  Host.scatterAdd scatter_S50000_S800000x1_S800000_n_0_0_1 (broadcastInDim S50000 ![] bcast_S_S50000 (constant S_ .f32 0x00000000#32)) (broadcastInDim S800000x1 ![0] bcast_S800000_S800000x1_0 dst) (broadcastInDim S800000 ![] bcast_S_S800000 (constant S_ .f32 0x3F800000#32))

/-- The mean-aggregated features: `A / max D 1` where `0 < D`, zero elsewhere. -/
def hmean (A : FVec F S50000x128 .f32) (D : FVec F S50000 .f32) : FVec F S50000x128 .f32 :=
  select (broadcastInDim S50000x128 ![0, 1] bcast_S50000x1_S50000x128_0_1 (cmpf (F := F) .ogt (broadcastInDim S50000x1 ![0] bcast_S50000_S50000x1_0 D) (broadcastInDim S50000x1 ![] bcast_S_S50000x1 (constant S_ .f32 0x00000000#32)))) (Host.divf A (broadcastInDim S50000x128 ![0, 1] bcast_S50000x1_S50000x128_0_1 (broadcastInDim S50000x1 ![0] bcast_S50000_S50000x1_0 (maximumf D (broadcastInDim S50000 ![] bcast_S_S50000 (constant S_ .f32 0x3F800000#32)))))) (broadcastInDim S50000x128 ![] bcast_S_S50000x128 (id (constant S_ .f32 0x00000000#32)))

/-- The linear layer: the mean-aggregated features against the transposed weights, plus the bias. -/
def linR (W : FVec F S128x128 .f32) (b : FVec F S128 .f32) (A : FVec F S50000x128 .f32) (D : FVec F S50000 .f32) : FVec F S50000x128 .f32 :=
  addf (Host.dotGeneral dot_S50000x128_S128x128_S50000x128_1_0_0_1_n_n none (hmean A D) (transpose S128x128 [1, 0] W transposes_S128x128_S128x128_1_0)) (broadcastInDim S50000x128 ![0, 1] bcast_S1x128_S50000x128_0_1 (broadcastInDim S1x128 ![1] bcast_S128_S1x128_1 b))

/-- The column means of the linear layer. -/
def muR (W : FVec F S128x128 .f32) (b : FVec F S128 .f32) (A : FVec F S50000x128 .f32) (D : FVec F S50000 .f32) : FVec F S128 .f32 :=
  Host.divf (Host.reduceAdd (linR W b A D) (constant S_ .f32 0x00000000#32) reducesTo_S50000x128_S128_d0 h_S_) (broadcastInDim S128 ![] bcast_S_S128 (constant S_ .f32 0x47435000#32))

/-- The centred linear layer. -/
def cenR (W : FVec F S128x128 .f32) (b : FVec F S128 .f32) (A : FVec F S50000x128 .f32) (D : FVec F S50000 .f32) : FVec F S50000x128 .f32 :=
  subf (linR W b A D) (broadcastInDim S50000x128 ![0, 1] bcast_S1x128_S50000x128_0_1 (broadcastInDim S1x128 ![1] bcast_S128_S1x128_1 (muR W b A D)))

/-- The column means of the squared centred layer: the biased variance. -/
def varR (W : FVec F S128x128 .f32) (b : FVec F S128 .f32) (A : FVec F S50000x128 .f32) (D : FVec F S50000 .f32) : FVec F S128 .f32 :=
  Host.divf (Host.reduceAdd (mulf (cenR W b A D) (cenR W b A D)) (constant S_ .f32 0x00000000#32) reducesTo_S50000x128_S128_d0 h_S_) (broadcastInDim S128 ![] bcast_S_S128 (constant S_ .f32 0x47435000#32))

/-- The layer's result from the summed neighbour features `A` and the in-degrees `D`: normalise, scale, shift,
    clamp at zero, add the input. -/
def refOut (x : FVec F S50000x128 .f32) (W : FVec F S128x128 .f32) (b g be : FVec F S128 .f32) (A : FVec F S50000x128 .f32) (D : FVec F S50000 .f32) : FVec F S50000x128 .f32 :=
  addf x (maximumf (addf (mulf (Host.divf (cenR W b A D) (broadcastInDim S50000x128 ![0, 1] bcast_S1x128_S50000x128_0_1 (broadcastInDim S1x128 ![1] bcast_S128_S1x128_1 (Host.sqrt (addf (varR W b A D) (broadcastInDim S128 ![] bcast_S_S128 (constant S_ .f32 0x3727C5AC#32))))))) (broadcastInDim S50000x128 ![0, 1] bcast_S1x128_S50000x128_0_1 (broadcastInDim S1x128 ![1] bcast_S128_S1x128_1 g))) (broadcastInDim S50000x128 ![0, 1] bcast_S1x128_S50000x128_0_1 (broadcastInDim S1x128 ![1] bcast_S128_S1x128_1 be))) (broadcastInDim S50000x128 ![] bcast_S_S50000x128 (constant S_ .f32 0x00000000#32)))

/-- @main's result as a term of the arguments' launch contents. -/
def res (m : (ℓ : Loc nD τ sig) → Buf (Elt F) ℓ) (c : Dev nD) : Buf (Elt F) ((c.tc : Thread nD τ).loc main_v54) :=
  refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    (agg (m ((c.tc : Thread nD τ).loc main_arg0)) (m ((c.tc : Thread nD τ).loc main_arg5)) (m ((c.tc : Thread nD τ).loc main_arg6))) (deg (m ((c.tc : Thread nD τ).loc main_arg6)))

set_option maxRecDepth 8192 in
set_option maxHeartbeats 29200000 in
/-- On every device, for any float values, from any memory with zero counters: every weakly fair execution of
    @main terminates with the result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v54) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v54).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

end Cert.ReferenceIdeal.RefRun

end
-- ==== Proof.Spec.lean ====
/-
  One graph-convolution layer with batch normalisation, as ONE function of its arrays, on the extended reals.

  From the node features x : [50000,128], the weights W : [128,128], the bias b, the scale g and the shift be
  (each [128]), the summed neighbour features A : [50000,128] and the in-degrees D : [50000]:

    inv p      = 1 / D p  where 0 < D p, and 0 elsewhere                 (the guarded reciprocal)
    lin p q    = (Σ k, (A[p,k] · inv p) · W[q,k]) + b q                  (mean aggregation, then the linear map)
    s1 q       = Σ p, lin p q            s2 q = Σ p, lin p q · lin p q   (column sums over all 50000 rows)
    mu q       = s1 q / 50000
    var q      = max (s2 q / 50000 − mu q · mu q) 0                      (the one-pass variance, clamped)
    out p q    = x[p,q] + max (((lin p q − mu q) · rsqrt (var q + ε)) · g q + be q) 0

  The division is the extended reals' `Ideal.div`, ε and 50000 are the binary values of the float words the
  programs print.
-/
import Idealize.ShloMosaic.PureOps.Ideal
import Idealize.ShloMosaic.Lib.ValueIdx

noncomputable section

open scoped BigOperators

namespace Cert.Gcn

open Idealize.ShloMosaic Idealize.ShloMosaic.ValueIdx

abbrev Mat : Type := (⟨2, ![50000, 128]⟩ : Shape).Idx → EReal
abbrev Wt : Type := (⟨2, ![128, 128]⟩ : Shape).Idx → EReal
abbrev Row : Type := (⟨1, ![128]⟩ : Shape).Idx → EReal
abbrev Col : Type := (⟨1, ![50000]⟩ : Shape).Idx → EReal

/-- The float word of 50000. -/
def nC : EReal := Ideal.ofBits .f32 0x47435000#32
/-- The float word of the variance's ε. -/
def eps : EReal := Ideal.ofBits .f32 0x3727C5AC#32

/-- The guarded reciprocal of the in-degree. -/
def inv (D : Col) (p : Fin 50000) : EReal := if 0 < D (ix1 p) then Ideal.div 1 (D (ix1 p)) else 0

/-- The linear layer on the mean-aggregated features. -/
def lin (A : Mat) (D : Col) (W : Wt) (b : Row) (p : Fin 50000) (q : Fin 128) : EReal :=
  (∑ k : Fin 128, (A (ix2 p k) * inv D p) * W (ix2 q k)) + b (ix1 q)

def s1 (A : Mat) (D : Col) (W : Wt) (b : Row) (q : Fin 128) : EReal := ∑ p : Fin 50000, lin A D W b p q
def s2 (A : Mat) (D : Col) (W : Wt) (b : Row) (q : Fin 128) : EReal := ∑ p : Fin 50000, lin A D W b p q * lin A D W b p q
def mu (A : Mat) (D : Col) (W : Wt) (b : Row) (q : Fin 128) : EReal := Ideal.div (s1 A D W b q) nC
def var (A : Mat) (D : Col) (W : Wt) (b : Row) (q : Fin 128) : EReal :=
  max (Ideal.div (s2 A D W b q) nC - mu A D W b q * mu A D W b q) 0

/-- The layer's result. -/
def out (x : Mat) (W : Wt) (b g be : Row) (A : Mat) (D : Col) : Mat := fun i =>
  x i + max (((lin A D W b (i 0) (i 1) - mu A D W b (i 1)) * Ideal.rsqrt (var A D W b (i 1) + eps)) * g (ix1 (i 1)) + be (ix1 (i 1))) 0

end Cert.Gcn

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.LibBatchNormStats.lean ====
/-
  General facts about column statistics of a real matrix read on the extended reals.

  * the inclusion of the reals into the extended reals commutes with a finite sum;
  * dividing (the extended-real division with its corners at zero) a real by a nonzero real is the real quotient;
  * the two textbook forms of the variance of a finite family f over N = card terms agree,
        (Σ f²)/N - ((Σ f)/N)²  =  (Σ (f - (Σ f)/N)²)/N,
    first on the reals and then for real entries read on the extended reals, and the second form is not negative;
  * the reciprocal square root of a positive real is the real (√·)⁻¹;
  * the maximum of two reals.
-/
import Idealize.ShloMosaic.PureOps.Ideal
import Mathlib.Algebra.BigOperators.Fin
import Mathlib.Algebra.Order.BigOperators.Ring.Finset
import Mathlib.Tactic.Ring
import Mathlib.Tactic.FieldSimp
import Mathlib.Tactic.Positivity

noncomputable section

namespace Cert.BatchNormStats

open Idealize.ShloMosaic

/-- The inclusion ℝ → EReal commutes with a finite sum. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of real entries divided by a nonzero real is the real sum times the reciprocal. -/
theorem div_sum_coe {ι : Type*} (s : Finset ι) (f : ι → ℝ) {N : ℝ} (hN : N ≠ 0) :
    Ideal.div (∑ i ∈ s, (f i : EReal)) (N : EReal) = (((∑ i ∈ s, f i) * (1 / N) : ℝ) : EReal) := by
  rw [Ideal.div_coe hN, ← coe_finset_sum, ← EReal.coe_mul]

/-- The real identity E[f²] - (E f)² = E[(f - E f)²] over N = card terms, with E written as "sum times 1/N". -/
theorem real_var_forms {ι : Type*} (s : Finset ι) (f : ι → ℝ) {N : ℝ} (hN : N = (s.card : ℝ)) (hN0 : N ≠ 0) :
    (∑ i ∈ s, f i * f i) * (1 / N) - ((∑ i ∈ s, f i) * (1 / N)) * ((∑ i ∈ s, f i) * (1 / N))
      = (∑ i ∈ s, (f i - (∑ i ∈ s, f i) * (1 / N)) * (f i - (∑ i ∈ s, f i) * (1 / N))) * (1 / N) := by
  set m : ℝ := (∑ i ∈ s, f i) * (1 / N) with hm
  have hS : ∑ i ∈ s, f i = N * m := by rw [hm]; field_simp
  have hexp : ∑ i ∈ s, (f i - m) * (f i - m)
      = (∑ i ∈ s, f i * f i) - 2 * m * (∑ i ∈ s, f i) + (s.card : ℝ) * (m * m) := by
    have : ∀ i ∈ s, (f i - m) * (f i - m) = f i * f i - 2 * m * f i + m * m := fun i _ => by ring
    rw [Finset.sum_congr rfl this, Finset.sum_add_distrib, Finset.sum_sub_distrib, ← Finset.mul_sum,
      Finset.sum_const, nsmul_eq_mul]
  rw [hexp, ← hN, hS]
  field_simp
  ring

/-- The mean squared deviation is not negative. -/
theorem real_var_nonneg {ι : Type*} (s : Finset ι) (f : ι → ℝ) (m : ℝ) {N : ℝ} (hN : 0 < N) :
    0 ≤ (∑ i ∈ s, (f i - m) * (f i - m)) * (1 / N) := by
  apply mul_nonneg
  · exact Finset.sum_nonneg (fun i _ => mul_self_nonneg _)
  · positivity

/-- The two forms of the variance agree for real entries read on the extended reals. -/
theorem var_forms_coe {ι : Type*} (s : Finset ι) (f : ι → ℝ) {N : ℝ} (hN : N = (s.card : ℝ)) (hN0 : N ≠ 0) :
    Ideal.div (∑ i ∈ s, (f i : EReal) * (f i : EReal)) (N : EReal)
        - Ideal.div (∑ i ∈ s, (f i : EReal)) (N : EReal) * Ideal.div (∑ i ∈ s, (f i : EReal)) (N : EReal)
      = Ideal.div (∑ i ∈ s, ((f i : EReal) - Ideal.div (∑ i ∈ s, (f i : EReal)) (N : EReal))
          * ((f i : EReal) - Ideal.div (∑ i ∈ s, (f i : EReal)) (N : EReal))) (N : EReal) := by
  rw [div_sum_coe s f hN0]
  simp only [← EReal.coe_mul, ← EReal.coe_sub]
  rw [div_sum_coe s (fun i => f i * f i) hN0, div_sum_coe s _ hN0, ← EReal.coe_sub,
    real_var_forms s f hN hN0]

/-- The reciprocal square root of a positive real. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The maximum of two reals, read on the extended reals. -/
theorem max_coe (a b : ℝ) : max (a : EReal) (b : EReal) = ((max a b : ℝ) : EReal) :=
  (EReal.coe_strictMono.monotone.map_max).symm

end Cert.BatchNormStats

end
-- ==== Proof.RefValueLin.lean ====
/-
  The reference's linear layer read at an index, on the extended reals.

  With the in-degree `D p` a natural number `n`:
    the guarded reciprocal is the real  0 (n = 0)  or  1/n (n ≥ 1);
    the guarded mean  where(D > 0, A / max(D, 1), 0)  at (p, k) is  A[p,k] · inv p : for n = 0 the comparison fails and
      both sides are 0; for n ≥ 1 the maximum is n and the division by the nonzero real n is the product with 1/n;
    the contraction against the transposed weights at (p, q) is  Σ k, h[p,k] · W[q,k]  (the one contracted axis
      re-indexed by its coordinate, the transpose read at the swapped index);
    the bias broadcast along the rows reads  b[q].
  So the linear layer at (p, q) is the specification's `lin`, and for real A, W, b it is a real number.
-/
import proofs.«118097_j46162308497632_2_alg».proof.Proof.RefRun
import proofs.«118097_j46162308497632_2_alg».proof.Proof.Spec
import proofs.«118097_j46162308497632_2_alg».proof.Proof.LibMatmulNN
import proofs.«118097_j46162308497632_2_alg».proof.Proof.LibBatchNormStats
import Idealize.ShloMosaic.PureOps.Ideal.Laws
import Idealize.ShloMosaic.Lib.ValueIdx
import Idealize.ShloMosaic.Lib.Pipeline.Value

noncomputable section

open scoped BigOperators

namespace Cert.ReferenceIdeal.RefValue

open Cert.ReferenceIdeal Cert.ReferenceIdeal.Gen Cert.ReferenceIdeal.RefRun Idealize.ShloMosaic Idealize.ShloMosaic.ValueIdx

/-! ## The float words -/

/-- The word of `1.0` denotes `1`. -/
theorem ofBits_one : Ideal.ofBits .f32 0x3F800000#32 = 1 := by
  simp [Ideal.ofBits, Ideal.ieee, -EReal.coe_mul]; norm_num

/-- The word of `50000.0` denotes the real `50000`. -/
theorem nC_eq : Cert.Gcn.nC = ((50000 : ℝ) : EReal) := by
  unfold Cert.Gcn.nC
  simp [Ideal.ofBits, Ideal.ieee, -EReal.coe_mul]
  norm_num

/-! ## Broadcasts read at an index -/

section Broadcasts
variable {α : Type}

/-- A scalar broadcast to any shape reads its one element everywhere. -/
theorem bcast0_apply (t : Shape) (h : S_.BroadcastsInDim t (![] : Fin 0 → Fin t.rank)) (x : S_.Idx → α) (j : t.Idx) :
    broadcastInDim t ![] h x j = x ix0 :=
  broadcastInDim_apply _ h x j ix0 (fun a => a.elim0)

/-- A column `[50000, 1]` broadcast along the lanes reads, at `(p, k)`, the column at `p`. -/
theorem col_apply (v : S50000x1.Idx → α) (p : Fin 50000) (k : Fin 128) :
    broadcastInDim S50000x128 ![0, 1] bcast_S50000x1_S50000x128_0_1 v (ix2 p k) = v (ix2 p (0 : Fin 1)) :=
  broadcastInDim_apply _ _ v (ix2 p k) (ix2 p (0 : Fin 1)) (fun a => by match a with | ⟨0, _⟩ => rfl | ⟨1, _⟩ => rfl)

/-- A vector `[50000]` as a column `[50000, 1]` reads, at `(p, 0)`, the vector at `p`. -/
theorem colIn_apply (v : S50000.Idx → α) (p : Fin 50000) :
    broadcastInDim S50000x1 ![0] bcast_S50000_S50000x1_0 v (ix2 p (0 : Fin 1)) = v (ix1 p) :=
  broadcastInDim_apply _ _ v (ix2 p (0 : Fin 1)) (ix1 p) (fun a => by match a with | ⟨0, _⟩ => rfl)

/-- A vector `[128]` broadcast along the rows reads, at `(p, q)`, the vector at `q`. -/
theorem row_apply (v : S128.Idx → α) (p : Fin 50000) (q : Fin 128) :
    broadcastInDim S50000x128 ![0, 1] bcast_S1x128_S50000x128_0_1 (broadcastInDim S1x128 ![1] bcast_S128_S1x128_1 v) (ix2 p q)
      = v (ix1 q) := by
  rw [broadcastInDim_apply _ _ _ (ix2 p q) (ix2 (0 : Fin 1) q) (fun a => by match a with | ⟨0, _⟩ => rfl | ⟨1, _⟩ => rfl)]
  rw [broadcastInDim_apply _ _ _ (ix2 (0 : Fin 1) q) (ix1 q) (fun a => by match a with | ⟨0, _⟩ => rfl)]

/-- The transposed weights read, at `(k, q)`, the weights at `(q, k)`. -/
theorem transposeW_apply (W : S128x128.Idx → α) (k q : Fin 128) :
    transpose S128x128 [1, 0] W transposes_S128x128_S128x128_1_0 (ix2 k q) = W (ix2 q k) :=
  transpose_apply _ W _ (ix2 k q) (ix2 q k) (fun b => by match b with | ⟨0, _⟩ => rfl | ⟨1, _⟩ => rfl)

end Broadcasts

/-- The host's quotient at an index is the extended reals' division of the elements. -/
theorem hostDivf_apply {s : Shape} {φ : FTy} (a b : FVec Ideal s φ) (i : s.Idx) : Host.divf a b i = Ideal.div (a i) (b i) := rfl

/-! ## The guarded reciprocal and the guarded mean -/

/-- The guarded reciprocal of a natural in-degree `n` is the real `0` for `n = 0` and `1/n` otherwise. -/
theorem inv_eq (D : Cert.Gcn.Col) (p : Fin 50000) (n : ℕ) (hD : D (ix1 p) = ((n : ℝ) : EReal)) :
    Cert.Gcn.inv D p = (((if n = 0 then 0 else 1 / (n : ℝ)) : ℝ) : EReal) := by
  unfold Cert.Gcn.inv
  rw [hD]
  by_cases hn : n = 0
  · subst hn
    rw [if_pos rfl, if_neg (by simp)]
    simp
  · have hpos : (0 : ℝ) < (n : ℝ) := Nat.cast_pos.mpr (Nat.pos_of_ne_zero hn)
    rw [if_neg hn, if_pos (by exact_mod_cast hpos), Ideal.div_coe hpos.ne', one_mul]

/-- The guarded mean at `(p, k)` is the summed features there times the guarded reciprocal of the in-degree. -/
theorem hmean_apply (A : FVec Ideal S50000x128 .f32) (D : FVec Ideal S50000 .f32) (p : Fin 50000) (k : Fin 128)
    (n : ℕ) (hD : D (ix1 p) = ((n : ℝ) : EReal)) :
    hmean (F := Ideal) A D (ix2 p k) = A (ix2 p k) * Cert.Gcn.inv D p := by
  rw [inv_eq D p n hD]
  unfold hmean
  rw [select_apply, hostDivf_apply, col_apply, col_apply, cmpf_apply, colIn_apply, colIn_apply, maximumf_apply,
    bcast0_apply, bcast0_apply, bcast0_apply]
  simp only [id_eq, constant_apply, Ideal.cmpf_def, Ideal.ofBits_zero_f32, ofBits_one, hD]
  by_cases hn : n = 0
  · subst hn
    have hc : Ideal.cmp .ogt (((0 : ℕ) : ℝ) : EReal) 0 = 0#1 := by simp [Ideal.cmp]
    rw [hc, select_zero, if_pos rfl, EReal.coe_zero, mul_zero]
  · have hpos : (0 : ℝ) < (n : ℝ) := Nat.cast_pos.mpr (Nat.pos_of_ne_zero hn)
    have hc : Ideal.cmp .ogt ((n : ℝ) : EReal) 0 = 1#1 := by
      have : (0 : EReal) < ((n : ℝ) : EReal) := by exact_mod_cast hpos
      simp [Ideal.cmp, this, Nat.pos_of_ne_zero hn]
    have h1 : (1 : EReal) ≤ ((n : ℝ) : EReal) := by
      have : (1 : ℝ) ≤ (n : ℝ) := by exact_mod_cast Nat.one_le_iff_ne_zero.mpr hn
      exact_mod_cast this
    rw [hc, select_one, max_eq_left h1, Ideal.div_coe hpos.ne', if_neg hn]

/-! ## The contraction and the linear layer -/

/-- The reference's dimension numbers are the plain `[50000,128] × [128,128]` ones. -/
theorem dot_eq : dot_S50000x128_S128x128_S50000x128_1_0_0_1_n_n = DotDims.plain 50000 128 128 := rfl

/-- The linear layer at `(p, q)` is the specification's. -/
theorem linR_apply (W : FVec Ideal S128x128 .f32) (b : FVec Ideal S128 .f32) (A : FVec Ideal S50000x128 .f32)
    (D : FVec Ideal S50000 .f32) (hD : ∀ i, ∃ n : ℕ, D i = ((n : ℝ) : EReal)) (p : Fin 50000) (q : Fin 128) :
    linR (F := Ideal) W b A D (ix2 p q) = Cert.Gcn.lin A D W b p q := by
  obtain ⟨n, hn⟩ := hD (ix1 p)
  unfold linR Cert.Gcn.lin
  rw [addf_apply, row_apply]
  refine congrArg (· + b (ix1 q)) ?_
  simp only [Host.dotGeneral]
  rw [Ideal.dotGeneral_apply, dot_eq, ← Equiv.sum_comp (contrEquiv1 (DotDims.plain 50000 128 128) 128 rfl rfl).symm]
  refine Finset.sum_congr rfl fun k _ => ?_
  rw [LibMatmulNN.lhsIdx_eq, LibMatmulNN.rhsIdx_eq, hmean_apply A D p k n hn, transposeW_apply]

/-- For real features, weights and bias and natural in-degrees the linear layer is real. -/
theorem lin_real (A : Cert.Gcn.Mat) (D : Cert.Gcn.Col) (W : Cert.Gcn.Wt) (b : Cert.Gcn.Row)
    (hA : ∀ i, ∃ r : ℝ, A i = (r : EReal)) (hD : ∀ i, ∃ n : ℕ, D i = ((n : ℝ) : EReal))
    (hW : ∀ i, ∃ r : ℝ, W i = (r : EReal)) (hb : ∀ i, ∃ r : ℝ, b i = (r : EReal)) (p : Fin 50000) (q : Fin 128) :
    ∃ r : ℝ, Cert.Gcn.lin A D W b p q = (r : EReal) := by
  choose a ha using hA
  choose w hw using hW
  choose β hβ using hb
  obtain ⟨n, hn⟩ := hD (ix1 p)
  refine ⟨(∑ k : Fin 128, (a (ix2 p k) * (if n = 0 then 0 else 1 / (n : ℝ))) * w (ix2 q k)) + β (ix1 q), ?_⟩
  unfold Cert.Gcn.lin
  rw [inv_eq D p n hn, hβ, EReal.coe_add, Cert.BatchNormStats.coe_finset_sum]
  refine congrArg (· + ((β (ix1 q) : ℝ) : EReal)) (Finset.sum_congr rfl fun k _ => ?_)
  rw [ha, hw, EReal.coe_mul, EReal.coe_mul]

end Cert.ReferenceIdeal.RefValue

end
-- ==== Proof.RefValueStats.lean ====
/-
  The reference's column statistics read at an index, on the extended reals.

  The host's column sum of a `[50000, 128]` array at column `q` is the initial zero plus the sum over the 50000 rows.
  So the column mean of the linear layer is the specification's `mu`; the centred layer at `(p, q)` is `lin − mu`;
  and the column mean of its square is the specification's clamped one-pass variance: for REAL entries the two forms of
  the variance of 50000 terms agree,  (Σ f²)/N − ((Σ f)/N)² = (Σ (f − (Σ f)/N)²)/N,  and the second form is a real that
  is not negative, so the clamp at zero is the identity.
-/
import proofs.«118097_j46162308497632_2_alg».proof.Proof.RefValueLin

noncomputable section

open scoped BigOperators

namespace Cert.ReferenceIdeal.RefValue

open Cert.ReferenceIdeal Cert.ReferenceIdeal.Gen Cert.ReferenceIdeal.RefRun Idealize.ShloMosaic Idealize.ShloMosaic.ValueIdx

/-- The host's sum over the rows, from zero, at column `q`. -/
theorem colSum_apply (x : FVec Ideal S50000x128 .f32) (q : Fin 128) :
    Host.reduceAdd (F := Ideal) x (constant (F := Ideal) S_ .f32 0x00000000#32) reducesTo_S50000x128_S128_d0 h_S_ (ix1 q)
      = ∑ p : Fin 50000, x (ix2 p q) := by
  have hred : S50000x128.Reduces [0] S128 := by decide
  show Ideal.hostReduceAdd reducesTo_S50000x128_S128_d0 x (Ideal.ofBits .f32 0x00000000#32) (ix1 q) = _
  rw [Ideal.hostReduceAdd_single _ hred, Ideal.ofBits_zero_f32, zero_add]
  show ∑ k : Fin 50000, x (hred.lift (ix1 q) k) = _
  refine Finset.sum_congr rfl fun k _ => congrArg x ?_
  funext a
  apply Fin.ext
  match a with
  | ⟨0, _⟩ => rfl
  | ⟨1, _⟩ => rfl

/-- The column mean of the linear layer is the specification's. -/
theorem muR_apply (W : FVec Ideal S128x128 .f32) (b : FVec Ideal S128 .f32) (A : FVec Ideal S50000x128 .f32)
    (D : FVec Ideal S50000 .f32) (hD : ∀ i, ∃ n : ℕ, D i = ((n : ℝ) : EReal)) (q : Fin 128) :
    muR (F := Ideal) W b A D (ix1 q) = Cert.Gcn.mu A D W b q := by
  unfold muR Cert.Gcn.mu Cert.Gcn.s1 Cert.Gcn.nC
  rw [hostDivf_apply, colSum_apply, bcast0_apply, constant_apply]
  simp only [linR_apply W b A D hD]

/-- The centred layer at `(p, q)`. -/
theorem cenR_apply (W : FVec Ideal S128x128 .f32) (b : FVec Ideal S128 .f32) (A : FVec Ideal S50000x128 .f32)
    (D : FVec Ideal S50000 .f32) (hD : ∀ i, ∃ n : ℕ, D i = ((n : ℝ) : EReal)) (p : Fin 50000) (q : Fin 128) :
    cenR (F := Ideal) W b A D (ix2 p q) = Cert.Gcn.lin A D W b p q - Cert.Gcn.mu A D W b q := by
  unfold cenR
  rw [subf_apply, row_apply, linR_apply W b A D hD, muR_apply W b A D hD]

/-- The column mean of the squared centred layer is the specification's clamped variance, a real that is not negative. -/
theorem varR_apply (W : FVec Ideal S128x128 .f32) (b : FVec Ideal S128 .f32) (A : FVec Ideal S50000x128 .f32)
    (D : FVec Ideal S50000 .f32) (hA : ∀ i, ∃ r : ℝ, A i = (r : EReal)) (hD : ∀ i, ∃ n : ℕ, D i = ((n : ℝ) : EReal))
    (hW : ∀ i, ∃ r : ℝ, W i = (r : EReal)) (hb : ∀ i, ∃ r : ℝ, b i = (r : EReal)) (q : Fin 128) :
    ∃ v : ℝ, 0 ≤ v ∧ varR (F := Ideal) W b A D (ix1 q) = (v : EReal) ∧ Cert.Gcn.var A D W b q = (v : EReal) := by
  choose f hf using fun p => lin_real A D W b hA hD hW hb p q
  have hN : (50000 : ℝ) = (((Finset.univ : Finset (Fin 50000)).card : ℕ) : ℝ) := by simp
  have hN0 : (50000 : ℝ) ≠ 0 := by norm_num
  -- the mean, as a real
  have hmu : Cert.Gcn.mu A D W b q = Ideal.div (∑ p : Fin 50000, (f p : EReal)) ((50000 : ℝ) : EReal) := by
    unfold Cert.Gcn.mu Cert.Gcn.s1
    rw [nC_eq]
    simp only [hf]
  -- the reference's variance: the mean squared deviation
  have hvR : varR (F := Ideal) W b A D (ix1 q)
      = Ideal.div (∑ p : Fin 50000, ((f p : EReal) - Ideal.div (∑ p : Fin 50000, (f p : EReal)) ((50000 : ℝ) : EReal))
          * ((f p : EReal) - Ideal.div (∑ p : Fin 50000, (f p : EReal)) ((50000 : ℝ) : EReal))) ((50000 : ℝ) : EReal) := by
    unfold varR
    rw [hostDivf_apply, colSum_apply, bcast0_apply, constant_apply]
    simp only [mulf_apply, cenR_apply W b A D hD, hf, hmu]
    rw [← nC_eq]
    rfl
  -- the specification's variance: the one-pass form, clamped
  have hvS : Cert.Gcn.var A D W b q
      = max (Ideal.div (∑ p : Fin 50000, (f p : EReal) * (f p : EReal)) ((50000 : ℝ) : EReal)
          - Ideal.div (∑ p : Fin 50000, (f p : EReal)) ((50000 : ℝ) : EReal)
            * Ideal.div (∑ p : Fin 50000, (f p : EReal)) ((50000 : ℝ) : EReal)) 0 := by
    unfold Cert.Gcn.var Cert.Gcn.s2
    rw [hmu, nC_eq]
    simp only [hf]
  -- the mean squared deviation is a real that is not negative
  set mr : ℝ := (∑ p : Fin 50000, f p) * (1 / (50000 : ℝ)) with hmr
  have hm : Ideal.div (∑ p : Fin 50000, (f p : EReal)) ((50000 : ℝ) : EReal) = (mr : EReal) :=
    Cert.BatchNormStats.div_sum_coe Finset.univ f hN0
  refine ⟨(∑ p : Fin 50000, (f p - mr) * (f p - mr)) * (1 / (50000 : ℝ)),
    Cert.BatchNormStats.real_var_nonneg Finset.univ f mr (by norm_num), ?_, ?_⟩
  · rw [hvR, hm]
    simp only [← EReal.coe_sub, ← EReal.coe_mul]
    exact Cert.BatchNormStats.div_sum_coe Finset.univ (fun p => (f p - mr) * (f p - mr)) hN0
  · rw [hvS, Cert.BatchNormStats.var_forms_coe Finset.univ f hN hN0, hm]
    simp only [← EReal.coe_sub, ← EReal.coe_mul]
    rw [Cert.BatchNormStats.div_sum_coe Finset.univ (fun p => (f p - mr) * (f p - mr)) hN0]
    exact max_eq_left (by exact_mod_cast Cert.BatchNormStats.real_var_nonneg Finset.univ f mr (by norm_num))

end Cert.ReferenceIdeal.RefValue

end
-- ==== Proof.RefValue.lean ====
/-
  The reference's result is the specification's layer, on the extended reals.

  At an index `(p, q)`: the centred linear layer is `lin − mu`; the variance `v` is a real that is not negative and
  `ε` is a positive real, so `v + ε` is a positive real, its square root is the real `√(v + ε) ≠ 0`, the division
  by it is the product with `1/√(v + ε)`, and the reciprocal square root of `v + ε` is that same real. The scale, the
  shift, the clamp at zero and the residual are the same operations on both sides.
-/
import proofs.«118097_j46162308497632_2_alg».proof.Proof.RefValueStats

noncomputable section

open scoped BigOperators

namespace Cert.ReferenceIdeal.RefValue

open Cert.ReferenceIdeal Cert.ReferenceIdeal.Gen Cert.ReferenceIdeal.RefRun Idealize.ShloMosaic Idealize.ShloMosaic.ValueIdx

/-- The variance's `ε` is a positive real. -/
theorem eps_pos : ∃ e : ℝ, 0 < e ∧ Cert.Gcn.eps = (e : EReal) := by
  refine ⟨(10995116 : ℝ) * (2 : ℝ) ^ (-40 : ℤ), by positivity, ?_⟩
  unfold Cert.Gcn.eps
  simp [Ideal.ofBits, Ideal.ieee, -EReal.coe_mul]

/-- The host's square root at an index is the extended reals' square root of the element. -/
theorem hostSqrt_apply {s : Shape} {φ : FTy} (a : FVec Ideal s φ) (i : s.Idx) : Host.sqrt a i = Ideal.sqrt (a i) := rfl

/-- Dividing by the square root of a positive real is multiplying by its reciprocal square root. -/
theorem div_sqrt_eq_mul_rsqrt (y : EReal) {r : ℝ} (hr : 0 < r) :
    Ideal.div y (Ideal.sqrt (r : EReal)) = y * Ideal.rsqrt (r : EReal) := by
  rw [Ideal.sqrt_coe, if_neg (not_lt.mpr hr.le), Ideal.div_coe (Real.sqrt_pos.mpr hr).ne', Cert.BatchNormStats.rsqrt_coe_pos hr,
    one_div]

/-- The reference's result, from the summed neighbour features and the in-degrees, is the specification's layer. -/
theorem refOut_eq_spec (x A : Cert.Gcn.Mat) (W : Cert.Gcn.Wt) (b g be : Cert.Gcn.Row) (D : Cert.Gcn.Col)
    (hx : ∀ i, ∃ r : ℝ, x i = (r : EReal)) (hW : ∀ i, ∃ r : ℝ, W i = (r : EReal)) (hb : ∀ i, ∃ r : ℝ, b i = (r : EReal))
    (hg : ∀ i, ∃ r : ℝ, g i = (r : EReal)) (hbe : ∀ i, ∃ r : ℝ, be i = (r : EReal)) (hA : ∀ i, ∃ r : ℝ, A i = (r : EReal))
    (hD : ∀ i, ∃ n : ℕ, D i = ((n : ℝ) : EReal)) :
    RefRun.refOut (F := Ideal) x W b g be A D = Cert.Gcn.out x W b g be A D := by
  funext i
  obtain ⟨p, q, rfl⟩ : ∃ (p : Fin 50000) (q : Fin 128), i = ix2 p q := ⟨i 0, i 1, eq_ix2 i⟩
  obtain ⟨v, hv0, hvR, hvS⟩ := varR_apply W b A D hA hD hW hb q
  obtain ⟨e, he0, hee⟩ := eps_pos
  have hpos : 0 < v + e := by linarith
  show refOut (F := Ideal) x W b g be A D (ix2 p q)
    = x (ix2 p q) + max (((Cert.Gcn.lin A D W b p q - Cert.Gcn.mu A D W b q)
        * Ideal.rsqrt (Cert.Gcn.var A D W b q + Cert.Gcn.eps)) * g (ix1 q) + be (ix1 q)) 0
  unfold refOut
  simp only [addf_apply, maximumf_apply, mulf_apply, hostDivf_apply]
  rw [row_apply, row_apply, row_apply, bcast0_apply, cenR_apply W b A D hD]
  simp only [hostSqrt_apply, addf_apply, constant_apply, Ideal.ofBits_zero_f32]
  rw [bcast0_apply, constant_apply, hvR]
  show _ = x (ix2 p q) + max (((Cert.Gcn.lin A D W b p q - Cert.Gcn.mu A D W b q)
        * Ideal.rsqrt (Cert.Gcn.var A D W b q + Ideal.ofBits .f32 0x3727C5AC#32)) * g (ix1 q) + be (ix1 q)) 0
  rw [hvS, show Ideal.ofBits .f32 0x3727C5AC#32 = (e : EReal) from hee, ← EReal.coe_add, div_sqrt_eq_mul_rsqrt _ hpos]

end Cert.ReferenceIdeal.RefValue

end
-- ==== Proof.LibScatterAddFinite.lean ====
/-
  The host's accumulating scatter and its gather on the extended reals: what the entries of their results are when the
  entries of their operands are reals.

  At the ideal instance an accumulating scatter's result at an index `i` is the operand's entry at `i` plus the sum of
  the updates whose result index is `i`. A finite sum of reals is a real, so the result's entries are reals when the
  operand's and the updates' are; and when the operand is 0 everywhere and every update is 1, the entry at `i` is the
  NUMBER of updates landing at `i`, a natural number. A gather's result entry is the operand's entry at a computed
  index, so it is a real when the operand's entries are. All of it holds for any shapes, any dimension numbers and any
  index arrays. (A count above 0 is at least 1, and one that is not above 0 is 0: the two facts a guarded mean needs.)
-/
import Idealize.ShloMosaic.PureOps.Ideal
import Idealize.ShloMosaic.PureOps

noncomputable section

open scoped BigOperators

namespace Cert.ScatterAddFinite

open Idealize.ShloMosaic

/-- A finite sum, in the extended reals, of terms that are reals is a real. -/
theorem exists_real_sum {ι : Type} (S : Finset ι) (f : ι → EReal) (hf : ∀ j ∈ S, ∃ r : ℝ, f j = (r : EReal)) :
    ∃ r : ℝ, ∑ j ∈ S, f j = (r : EReal) := by
  classical
  induction S using Finset.induction_on with
  | empty => exact ⟨0, by simp⟩
  | insert a S ha ih =>
    obtain ⟨ra, hra⟩ := hf a (Finset.mem_insert_self a S)
    obtain ⟨rs, hrs⟩ := ih (fun j hj => hf j (Finset.mem_insert_of_mem hj))
    exact ⟨ra + rs, by rw [Finset.sum_insert ha, hra, hrs, EReal.coe_add]⟩

/-- The accumulating scatter at an index, on the extended reals: the operand's entry there plus the sum of the updates
    whose result index is that index. -/
theorem scatterAdd_apply {s si su : Shape} {φ : FTy} {w : Nat} (d : ScatterDims s si su) (x : FVec Ideal s φ)
    (idx : IVec si w) (upd : FVec Ideal su φ) (i : s.Idx) :
    Host.scatterAdd (F := Ideal) d x idx upd i
      = x i + ∑ j ∈ Finset.univ.filter (fun j => d.resultIdx? j idx = some i), upd j := rfl

/-- (a) When every entry of the operand and every update is a real, every entry of the accumulating scatter's result
    is a real, whatever the indices. -/
theorem scatterAdd_real {s si su : Shape} {φ : FTy} {w : Nat} (d : ScatterDims s si su) (x : FVec Ideal s φ)
    (idx : IVec si w) (upd : FVec Ideal su φ) (hx : ∀ i, ∃ r : ℝ, x i = (r : EReal))
    (hu : ∀ j, ∃ r : ℝ, upd j = (r : EReal)) (i : s.Idx) :
    ∃ r : ℝ, Host.scatterAdd (F := Ideal) d x idx upd i = (r : EReal) := by
  obtain ⟨rx, hrx⟩ := hx i
  obtain ⟨rs, hrs⟩ :=
    exists_real_sum (Finset.univ.filter (fun j => d.resultIdx? j idx = some i)) upd (fun j _ => hu j)
  exact ⟨rx + rs, by rw [scatterAdd_apply, hrx, hrs, EReal.coe_add]⟩

/-- (b), with the number named: when the operand is 0 everywhere and every update is 1, the accumulating scatter's
    entry at `i` is the number of updates whose result index is `i`. -/
theorem scatterAdd_zero_one_apply {s si su : Shape} {φ : FTy} {w : Nat} (d : ScatterDims s si su) (x : FVec Ideal s φ)
    (idx : IVec si w) (upd : FVec Ideal su φ) (hx : ∀ i, x i = (0 : EReal)) (hu : ∀ j, upd j = (1 : EReal))
    (i : s.Idx) :
    Host.scatterAdd (F := Ideal) d x idx upd i
      = (((Finset.univ.filter (fun j => d.resultIdx? j idx = some i)).card : ℝ) : EReal) := by
  rw [scatterAdd_apply, hx i, zero_add, Finset.sum_congr rfl (fun j _ => hu j), Finset.sum_const,
    EReal.nsmul_eq_mul, mul_one]
  exact (EReal.coe_coe_eq_natCast _).symm

/-- (b) When the operand is 0 everywhere and every update is 1, every entry of the accumulating scatter's result is a
    natural number, whatever the indices. -/
theorem scatterAdd_zero_one_nat {s si su : Shape} {φ : FTy} {w : Nat} (d : ScatterDims s si su) (x : FVec Ideal s φ)
    (idx : IVec si w) (upd : FVec Ideal su φ) (hx : ∀ i, x i = (0 : EReal)) (hu : ∀ j, upd j = (1 : EReal))
    (i : s.Idx) :
    ∃ n : ℕ, Host.scatterAdd (F := Ideal) d x idx upd i = ((n : ℝ) : EReal) :=
  ⟨_, scatterAdd_zero_one_apply d x idx upd hx hu i⟩

/-- A natural number above 0 is at least 1: its maximum with 1, in the extended reals, is itself. -/
theorem natCast_max_one_of_pos (n : ℕ) (h : (0 : EReal) < ((n : ℝ) : EReal)) :
    max ((n : ℝ) : EReal) 1 = ((n : ℝ) : EReal) := by
  have h1 : 0 < n := Nat.cast_pos.1 (EReal.coe_pos.1 h)
  have h2 : (1 : ℝ) ≤ (n : ℝ) := Nat.one_le_cast.2 h1
  refine max_eq_left ?_
  rw [← EReal.coe_one]
  exact EReal.coe_le_coe_iff.2 h2

/-- A natural number not above 0 is 0, in the extended reals. -/
theorem natCast_eq_zero_of_not_pos (n : ℕ) (h : ¬ (0 : EReal) < ((n : ℝ) : EReal)) : ((n : ℝ) : EReal) = 0 := by
  have h1 : ¬ 0 < n := fun hn => h (EReal.coe_pos.2 (Nat.cast_pos.2 hn))
  have h2 : n = 0 := Nat.eq_zero_of_not_pos h1
  rw [h2, Nat.cast_zero, EReal.coe_zero]

/-- A natural number above 0, as an extended real, is not 0. -/
theorem natCast_ne_zero_of_pos (n : ℕ) (h : (0 : EReal) < ((n : ℝ) : EReal)) : ((n : ℝ) : EReal) ≠ 0 :=
  ne_of_gt h

/-- A gather's result entry is the operand's entry at the operand index the dimension numbers compute. -/
theorem gather_apply {s si t : Shape} {α : Type} {w : Nat} (d : GatherDims s si t) (x : s.Idx → α) (idx : IVec si w)
    (j : t.Idx) : Host.gather d x idx j = x (d.operandIdx j idx) := rfl

/-- (c) Every entry of a gather's result is an entry of its operand. -/
theorem gather_mem {s si t : Shape} {α : Type} {w : Nat} (d : GatherDims s si t) (x : s.Idx → α) (idx : IVec si w)
    (j : t.Idx) : ∃ k : s.Idx, Host.gather d x idx j = x k := ⟨_, rfl⟩

/-- (c) Every entry of a gather's result is a real when every entry of its operand is, whatever the indices. -/
theorem gather_real {s si t : Shape} {w : Nat} (d : GatherDims s si t) (x : s.Idx → EReal) (idx : IVec si w)
    (hx : ∀ i, ∃ r : ℝ, x i = (r : EReal)) (j : t.Idx) : ∃ r : ℝ, Host.gather d x idx j = (r : EReal) :=
  hx _

end Cert.ScatterAddFinite

end
-- ==== Proof.RefFinite.lean ====
/-
  The reference's two aggregates on the extended reals, for ARBITRARY index arrays:

    the summed neighbour features — the accumulating scatter, into the zero matrix, of the gathered rows of the node
    features — have real entries when the node features do (a finite sum of reals is a real, and a gathered entry is an
    entry of the operand);
    the in-degrees — the accumulating scatter of ones into the zero vector — are natural numbers (at each node, the
    number of updates whose result index is that node).
-/
import proofs.«118097_j46162308497632_2_alg».proof.Proof.RefRun
import proofs.«118097_j46162308497632_2_alg».proof.Proof.LibScatterAddFinite
import Idealize.ShloMosaic.Lib.IdealHost

noncomputable section

namespace Cert.ReferenceIdeal.RefValue

open Cert.ReferenceIdeal Cert.ReferenceIdeal.Gen Cert.ReferenceIdeal.RefRun Idealize.ShloMosaic Cert.ScatterAddFinite

/-- The word of `0.0`, broadcast from a scalar to any shape, reads `0` at every index. -/
theorem zeros_apply {T : Shape} (bc : S_.BroadcastsInDim T (![] : Fin 0 → Fin T.rank)) (i : T.Idx) :
    broadcastInDim T ![] bc (constant (F := Ideal) S_ .f32 0x00000000#32) i = (0 : EReal) :=
  Ideal.ofBits_zero_f32

/-- The word of `1.0`, broadcast from a scalar to any shape, reads `1` at every index. -/
theorem ones_apply {T : Shape} (bc : S_.BroadcastsInDim T (![] : Fin 0 → Fin T.rank)) (i : T.Idx) :
    broadcastInDim T ![] bc (constant (F := Ideal) S_ .f32 0x3F800000#32) i = (1 : EReal) :=
  Ideal.ofBits_one_f32

/-- The summed neighbour features: every entry is a real when every entry of the node features is, whatever the
    source and destination indices. -/
theorem agg_real (x : FVec Ideal S50000x128 .f32) (hx : ∀ i, ∃ r : ℝ, x i = (r : EReal)) (src dst : IVec S800000 32) :
    ∀ i, ∃ r : ℝ, RefRun.agg (F := Ideal) x src dst i = (r : EReal) := fun i => by
  unfold agg
  exact scatterAdd_real _ _ _ _ (fun k => ⟨0, (zeros_apply _ k).trans EReal.coe_zero.symm⟩) (gather_real _ x _ hx) i

/-- The in-degrees: every entry is a natural number, whatever the destination indices. -/
theorem deg_nat (dst : IVec S800000 32) :
    ∀ i, ∃ n : ℕ, RefRun.deg (F := Ideal) dst i = ((n : ℝ) : EReal) := fun i => by
  unfold deg
  exact scatterAdd_zero_one_nat _ _ _ _ (fun k => zeros_apply _ k) (fun j => ones_apply _ j) i

end Cert.ReferenceIdeal.RefValue

end
-- ==== Proof.FiniteFn.lean ====
/-
  The finiteness precondition, read back: when the printed predicate that every float argument array is finite
  evaluates to 1 on the extended reals, every entry of each of the five float arrays is a real.

  The predicate is the conjunction of five `all`s, one per float array `x`, of the element test `|x| < +∞`. On the
  extended reals `|x| = max x (−x)` and the word of `+∞` denotes `⊤`, so the element test fails at `⊤` and at `⊥` (whose
  absolute value is `⊤` too) and what passes it is a real. A conjunction by `and` of one-bit words is 1 only when every
  conjunct is 1, and an `all` (a reduction by `and` into one cell) is 1 only when every entry is 1.
-/
import proofs.«118097_j46162308497632_2_alg».proof.Pre_finite_inputs
import Idealize.ShloMosaic.PureOps.Ideal
import Idealize.ShloMosaic.Lib.ValueIdx
import Idealize.ShloMosaic.Lib.ReduceAll

noncomputable section

namespace Cert.FiniteFn

open Idealize.ShloMosaic Cert.Pre_finite_inputs

/-- The float word `0x7F800000` denotes `+∞`. -/
theorem ofBits_inf : Ideal.ofBits .f32 0x7F800000#32 = (⊤ : EReal) := by
  simp [Ideal.ofBits, Ideal.ieee]

/-- An extended real whose absolute value `max x (−x)` is below `+∞` is a real. -/
theorem real_of_abs_lt_top (x : EReal) (h : Ideal.cmp .olt (max x (-x)) (⊤ : EReal) = 1#1) :
    ∃ r : ℝ, x = (r : EReal) := by
  induction x using EReal.rec with
  | bot => simp [Ideal.cmp] at h
  | coe r => exact ⟨r, rfl⟩
  | top => simp [Ideal.cmp] at h

/-- The element test of the predicate, at an index of an array of any shape: an entry that passes `|x| < +∞` against
    the broadcast word of `+∞` is a real. -/
theorem real_of_test {S : Shape} (bc : S_.BroadcastsInDim S (![] : Fin 0 → Fin S.rank)) (x : FVec Ideal S .f32) (i : S.Idx)
    (h : cmpf .olt (Host.absf x) (broadcastInDim S ![] bc (constant (F := Ideal) S_ .f32 0x7F800000#32)) i = 1#1) :
    ∃ r : ℝ, x i = (r : EReal) := by
  refine real_of_abs_lt_top (x i) ?_
  rw [← ofBits_inf]
  exact h

/-- The result shape of an `all` has one index. -/
theorem subsingleton_S_ : Subsingleton S_.Idx := ⟨fun _ _ => funext fun d => d.elim0⟩

variable [Facts]

/-- When the finiteness predicate of the seven argument arrays is 1 on the extended reals, every entry of each of
    the five float arrays is a real. -/
theorem fn_real (a0 : FVec Ideal S50000x128 .f32) (a1 : FVec Ideal S128x128 .f32) (a2 a3 a4 : FVec Ideal S128 .f32)
    (a5 a6 : IVec S800000 32) (h : fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  haveI := subsingleton_S_
  have h0 := congrFun h ValueIdx.ix0
  dsimp only [fn, fn_part1, andi] at h0
  rw [IntOp.andi_eq_one, IntOp.andi_eq_one, IntOp.andi_eq_one, IntOp.andi_eq_one] at h0
  obtain ⟨⟨⟨⟨e0, e1⟩, e2⟩, e3⟩, e4⟩ := h0
  exact ⟨fun i => real_of_test _ a0 i (Host.reduce_andi_all _ _ _ _ _ e0 i),
    fun i => real_of_test _ a1 i (Host.reduce_andi_all _ _ _ _ _ e1 i),
    fun i => real_of_test _ a2 i (Host.reduce_andi_all _ _ _ _ _ e2 i),
    fun i => real_of_test _ a3 i (Host.reduce_andi_all _ _ _ _ _ e3 i),
    fun i => real_of_test _ a4 i (Host.reduce_andi_all _ _ _ _ _ e4 i)⟩

end Cert.FiniteFn

end
-- ==== Proof.Finite.lean ====
/-
  Under the idealized kernel program's precondition every entry of each of its five float argument arrays is a real,
  on every core: the precondition says the printed finiteness predicate of that core's argument arrays is 1, and a
  predicate value of 1 makes every entry a real (the read-back of the predicate, proved for arbitrary arrays).
-/
import proofs.«118097_j46162308497632_2_alg».proof.Defs
import proofs.«118097_j46162308497632_2_alg».proof.Proof.Gen.Pre_finite_inputs
import proofs.«118097_j46162308497632_2_alg».proof.Proof.FiniteFn

noncomputable section

namespace Cert.Finite

open Idealize.ShloMosaic Idealize.SL.Sem

/-- Under the precondition, on core `c`, every entry of each of the five float argument arrays is a real. -/
theorem args_real (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S50000x128.Idx, ∃ r : ℝ,
        m ((c.tc : Thread Cert.KernelIdeal.nD Cert.KernelIdeal.τ).loc Cert.KernelIdeal.main_arg0) i = (r : EReal))
      ∧ (∀ i : Cert.KernelIdeal.S128x128.Idx, ∃ r : ℝ,
        m ((c.tc : Thread Cert.KernelIdeal.nD Cert.KernelIdeal.τ).loc Cert.KernelIdeal.main_arg1) i = (r : EReal))
      ∧ (∀ i : Cert.KernelIdeal.S128.Idx, ∃ r : ℝ,
        m ((c.tc : Thread Cert.KernelIdeal.nD Cert.KernelIdeal.τ).loc Cert.KernelIdeal.main_arg2) i = (r : EReal))
      ∧ (∀ i : Cert.KernelIdeal.S128.Idx, ∃ r : ℝ,
        m ((c.tc : Thread Cert.KernelIdeal.nD Cert.KernelIdeal.τ).loc Cert.KernelIdeal.main_arg3) i = (r : EReal))
      ∧ (∀ i : Cert.KernelIdeal.S128.Idx, ∃ r : ℝ,
        m ((c.tc : Thread Cert.KernelIdeal.nD Cert.KernelIdeal.τ).loc Cert.KernelIdeal.main_arg4) i = (r : EReal)) :=
  Cert.FiniteFn.fn_real _ _ _ _ _ _ _ (h c)

/-- Every entry of the node features `x` is a real. -/
theorem arg0_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ i : Cert.KernelIdeal.S50000x128.Idx, ∃ r : ℝ,
      m ((c.tc : Thread Cert.KernelIdeal.nD Cert.KernelIdeal.τ).loc Cert.KernelIdeal.main_arg0) i = (r : EReal) :=
  (args_real m h c).1

/-- Every entry of the weights `W` is a real. -/
theorem arg1_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ i : Cert.KernelIdeal.S128x128.Idx, ∃ r : ℝ,
      m ((c.tc : Thread Cert.KernelIdeal.nD Cert.KernelIdeal.τ).loc Cert.KernelIdeal.main_arg1) i = (r : EReal) :=
  (args_real m h c).2.1

/-- Every entry of the bias `b` is a real. -/
theorem arg2_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ i : Cert.KernelIdeal.S128.Idx, ∃ r : ℝ,
      m ((c.tc : Thread Cert.KernelIdeal.nD Cert.KernelIdeal.τ).loc Cert.KernelIdeal.main_arg2) i = (r : EReal) :=
  (args_real m h c).2.2.1

/-- Every entry of the scale `g` is a real. -/
theorem arg3_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ i : Cert.KernelIdeal.S128.Idx, ∃ r : ℝ,
      m ((c.tc : Thread Cert.KernelIdeal.nD Cert.KernelIdeal.τ).loc Cert.KernelIdeal.main_arg3) i = (r : EReal) :=
  (args_real m h c).2.2.2.1

/-- Every entry of the shift `be` is a real. -/
theorem arg4_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ i : Cert.KernelIdeal.S128.Idx, ∃ r : ℝ,
      m ((c.tc : Thread Cert.KernelIdeal.nD Cert.KernelIdeal.τ).loc Cert.KernelIdeal.main_arg4) i = (r : EReal) :=
  (args_real m h c).2.2.2.2

end Cert.Finite

end
-- ==== Proof.LibBroadcast2.lean ====
/-
  Two keep-dims broadcasts of small matrices read at an index: a column `[a, 1]` broadcast along the lanes to
  `[a, b]` reads, at `(p, c)`, the column's element `p`; a single element `[1, 1]` broadcast to `[a, b]` reads that
  element everywhere. (The row form `[1, b] → [a, b]` is the library's.)
-/
import Idealize.ShloMosaic.Lib.Pipeline.Value
import Idealize.ShloMosaic.Lib.ValueIdx

noncomputable section

namespace LibBroadcast2

open Idealize.ShloMosaic Idealize.ShloMosaic.ValueIdx

variable {α : Type}

/-- A `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` array broadcast to `[a, b]` reads its one element everywhere. -/
theorem broadcastTo_11_ab_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end LibBroadcast2

end
-- ==== Proof.KPay.lean ====
/-
  The two kernel functions' payloads, read AT AN INDEX on the extended reals.

  The first kernel function handles one block of 5000 rows: it scales each row of the block by that row's reciprocal
  in-degree, multiplies by the (already transposed) weights, adds the bias row — the block of the linear layer's
  result — and adds the block's column sums and column sums of squares to two running rows, which start at zero. The
  second kernel function normalises a block of 10000 rows with the statistics rows, applies scale, shift and the
  rectifier, and adds the node features. Format changes are the identity on the extended reals and the shape casts
  only re-spell an index, so at an index each payload is the plain arithmetic expression below.
-/
import proofs.«118097_j46162308497632_2_alg».proof.Proof.Gen.KernelIdeal.Skeleton
import proofs.«118097_j46162308497632_2_alg».proof.Proof.LibMatmulNN
import proofs.«118097_j46162308497632_2_alg».proof.Proof.LibBroadcast2
import proofs.«118097_j46162308497632_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KPay

open Idealize.ShloMosaic Idealize.ShloMosaic.ValueIdx Cert.KernelIdeal

/-! ## The first kernel function: the linear layer's block and its running column statistics -/

/-- The identity cast of a statistics row. -/
theorem k0_pay1_apply (v : FVec Ideal S1x128 .f32) (q : Fin 128) :
    Gen.k0_pay1 (F := Ideal) v (ix2 (0 : Fin 1) q) = v (ix2 (0 : Fin 1) q) := by
  unfold Gen.k0_pay1
  rw [shapeCast_self]

/-- A statistics row stored under a leading unit axis. -/
theorem k0_pay2_apply (v : FVec Ideal S1x128 .f32) (q : Fin 128) :
    Gen.k0_pay2 (F := Ideal) v (ix3 (0 : Fin 1) (0 : Fin 1) q) = v (ix2 (0 : Fin 1) q) := by
  unfold Gen.k0_pay2
  exact shapeCast_ab_1ab_apply v _ 0 0 q

/-- The other statistics row stored under a leading unit axis. -/
theorem k0_pay3_apply (v : FVec Ideal S1x128 .f32) (q : Fin 128) :
    Gen.k0_pay3 (F := Ideal) v (ix3 (0 : Fin 1) (0 : Fin 1) q) = v (ix2 (0 : Fin 1) q) := by
  unfold Gen.k0_pay3
  exact shapeCast_ab_1ab_apply v _ 0 0 q

/-- The running row of sums starts at zero. -/
theorem k0_pay4_apply (q : Fin 128) : Gen.k0_pay4 (F := Ideal) (ix2 (0 : Fin 1) q) = (0 : EReal) := by
  unfold Gen.k0_pay4
  rw [shapeCast_self]
  exact Ideal.ofBits_zero_f32

/-- The running row of sums of squares starts at zero. -/
theorem k0_pay5_apply (q : Fin 128) : Gen.k0_pay5 (F := Ideal) (ix2 (0 : Fin 1) q) = (0 : EReal) := by
  unfold Gen.k0_pay5
  rw [shapeCast_self]
  exact Ideal.ofBits_zero_f32

/-- The block of the linear layer's result: row `r` of the block scaled by `v5[r]`, times the weights `v10` (contracted
    over their FIRST axis), plus the bias row. -/
theorem k0_pay6_apply (v3 : FVec Ideal S5000x128 .f32) (v5 : FVec Ideal S5000x1 .f32) (v10 : FVec Ideal S128x128 .bf16)
    (v13 : FVec Ideal S1x128 .f32) (r : Fin 5000) (q : Fin 128) :
    Gen.k0_pay6 (F := Ideal) v3 v5 v10 v13 (ix2 r q)
      = (∑ k : Fin 128, (v3 (ix2 r k) * v5 (ix2 r (0 : Fin 1))) * v10 (ix2 k q)) + v13 (ix2 (0 : Fin 1) q) := by
  unfold Gen.k0_pay6
  simp only [shapeCast_self]
  rw [addf_apply, broadcastTo_1b_ab_apply]
  refine congrArg (· + v13 (ix2 (0 : Fin 1) q)) ?_
  refine (LibMatmulNN.matmul_zero_apply 5000 128 128 none _ _ r q).trans ?_
  refine Finset.sum_congr rfl fun k _ => ?_
  rw [truncf_apply, mulf_apply, LibBroadcast2.broadcastTo_a1_ab_apply]

/-- Over the rows' axis of a 5000-row block, the source index above column `q` with row coordinate `r` is `(r, q)`. -/
theorem lift_rows (h : S5000x128.Reduces [0] S128) (q : Fin 128) (r : Fin 5000) : h.lift (ix1 q) r = ix2 r q := by
  funext c
  apply Fin.ext
  match c with
  | ⟨0, _⟩ => rfl
  | ⟨1, _⟩ => rfl

/-- A sum over the rows' axis of a 5000-row block, read at column `q`, is the sum over the 5000 rows. -/
theorem colsum_apply (src : FVec Ideal S5000x128 .f32) (h : S5000x128.Reduces [0] S128) (hφ : FKind.Formats .f32)
    (hacc : (0x00000000#32 : BitVec 32) = FKind.add.neutral .f32 hφ) (q : Fin 128) :
    multiReduction (F := Ideal) .add [0] S128 src 0x00000000#32 h hφ hacc (ix1 q) = ∑ r : Fin 5000, src (ix2 r q) :=
  (Ideal.multiReduction_add_single src 0x00000000#32 h hφ hacc (ix1 q)).trans
    (Finset.sum_congr rfl fun r _ => congrArg src (lift_rows h q r))

/-- The running row of sums after a block: what it held plus the block's column sums. -/
theorem k0_pay7_apply (v3 : FVec Ideal S5000x128 .f32) (v5 : FVec Ideal S5000x1 .f32) (v10 : FVec Ideal S128x128 .bf16)
    (v13 v18 : FVec Ideal S1x128 .f32) (q : Fin 128) :
    Gen.k0_pay7 (F := Ideal) v3 v5 v10 v13 v18 (ix2 (0 : Fin 1) q)
      = v18 (ix2 (0 : Fin 1) q) + ∑ r : Fin 5000, Gen.k0_pay6 (F := Ideal) v3 v5 v10 v13 (ix2 r q) := by
  unfold Gen.k0_pay7
  rw [shapeCast_self, addf_apply, shapeCast_a_1a_apply]
  exact congrArg (v18 (ix2 (0 : Fin 1) q) + ·) (colsum_apply _ _ _ _ q)

/-- The running row of sums of squares after a block: what it held plus the block's column sums of squares. -/
theorem k0_pay8_apply (v3 : FVec Ideal S5000x128 .f32) (v5 : FVec Ideal S5000x1 .f32) (v10 : FVec Ideal S128x128 .bf16)
    (v13 v25 : FVec Ideal S1x128 .f32) (q : Fin 128) :
    Gen.k0_pay8 (F := Ideal) v3 v5 v10 v13 v25 (ix2 (0 : Fin 1) q)
      = v25 (ix2 (0 : Fin 1) q)
        + ∑ r : Fin 5000, Gen.k0_pay6 (F := Ideal) v3 v5 v10 v13 (ix2 r q) * Gen.k0_pay6 (F := Ideal) v3 v5 v10 v13 (ix2 r q) := by
  unfold Gen.k0_pay8
  rw [addf_apply, shapeCast_a_1a_apply]
  exact congrArg (v25 (ix2 (0 : Fin 1) q) + ·) (colsum_apply _ _ _ _ q)

/-! ## The second kernel function: normalise, scale and shift, rectify, add the node features -/

/-- The result block at `(p, q)`: the features block `v23` plus the rectified normalised value, with mean row `v2`,
    variance row `v4`, scale row `v6` and shift row `v8`. -/
theorem k1_pay1_apply (v0 : FVec Ideal S10000x128 .f32) (v2 v4 v6 v8 : FVec Ideal S1x128 .f32)
    (v23 : FVec Ideal S10000x128 .f32) (p : Fin 10000) (q : Fin 128) :
    Gen.k1_pay1 (F := Ideal) v0 v2 v4 v6 v8 v23 (ix2 p q)
      = v23 (ix2 p q) + max (((v0 (ix2 p q) - v2 (ix2 (0 : Fin 1) q)) * Ideal.rsqrt (v4 (ix2 (0 : Fin 1) q) + Cert.Gcn.eps))
          * v6 (ix2 (0 : Fin 1) q) + v8 (ix2 (0 : Fin 1) q)) 0 := by
  unfold Gen.k1_pay1
  simp only [shapeCast_self, addf_apply, maximumf_apply, mulf_apply, subf_apply, broadcastTo_1b_ab_apply, broadcast_apply]
  show v23 (ix2 p q) + max (((v0 (ix2 p q) - v2 (ix2 (0 : Fin 1) q)) * Ideal.rsqrt (v4 (ix2 (0 : Fin 1) q) + Cert.Gcn.eps))
          * v6 (ix2 (0 : Fin 1) q) + v8 (ix2 (0 : Fin 1) q)) (Ideal.ofBits .f32 0x00000000#32) = _
  rw [Ideal.ofBits_zero_f32]

end Cert.KPay

end
-- ==== Proof.Val0Blk.lean ====
/-
  The first call's result array of the linear layer, as one function of the arrays the call finds.

  Every grid point t of the first call scales rows 5000·t … 5000·t + 4999 of the summed neighbour features by the
  rows' reciprocal in-degrees, multiplies them by the weights and adds the bias row, and writes that block back — in
  each of the three cases of its two branches the same store. The ten blocks tile the 50000 rows, so after the call
  the array holds, at every index (p, q),

    (Σ k, (A[p,k] · inv[p,0]) · W[k,q]) + b[0,q]

  of the arrays as the call found them.
-/
import proofs.«118097_j46162308497632_2_alg».proof.Proof.R0I
import proofs.«118097_j46162308497632_2_alg».proof.Proof.KPay
import proofs.«118097_j46162308497632_2_alg».proof.Proof.Spec
import Idealize.ShloMosaic.Lib.Pipeline.Value
import Idealize.ShloMosaic.Lib.Tactic
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

section Body
variable {F : FTy → Type} [FloatOps F]

/-- The zero offsets of a whole-block load or store. -/
theorem hz0 : (![0, 0] : Fin 2 → Nat) = fun _ => 0 := funext fun a => by fin_cases a <;> rfl

set_option maxHeartbeats 4000000 in
/-- At the first step of a core's row range the body leaves the linear layer's block in the output's staging buffer. -/
theorem out0_A_4_eq (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 : Vec F S5000x128 .f32) (x1 : Vec F S5000x1 .f32) (x2 : Vec F S128x128 .bf16) (x3 : Vec F S1x128 .f32) :
    out0_A_4 c i arg2 harg2 arg3 harg3 arg4 harg4 arg5 harg5 arg6 harg6 arg7 harg7 arg8 harg8 arg9 harg9 arg10 harg10 hc0 hc1 x0 x1 x2 x3 = k0_pay6 x0 x1 x2 x3 := by
  unfold out0_A_4
  rw [View.read_writes_eq_canon _ _ _ (cover0_A_4 c i arg2 harg2 arg3 harg3 arg4 harg4 arg5 harg5 arg6 harg6 arg7 harg7 arg8 harg8 arg9 harg9 arg10 harg10 hc0 hc1 x0 x1 x2 x3)]
  unfold kernelRun0_A
  dsimp only
  try sl_unfold_words
  rw [View.canon_unit_zero hz0]
  simp only [View.readAt_eq_ld, harg2.read_unread, harg3.read_unread, harg4.read_unread, harg5.read_unread,
    View.ld_unit_zero (S := S5000x128) hz0, View.ld_unit_zero (S := S5000x1) hz0, View.ld_unit_zero (S := S128x128) hz0, View.ld_unit_zero (S := S1x128) hz0]

set_option maxHeartbeats 4000000 in
/-- At a middle step the body leaves the linear layer's block in the output's staging buffer. -/
theorem out0_B_4_eq (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 : Vec F S5000x128 .f32) (x1 : Vec F S5000x1 .f32) (x2 : Vec F S128x128 .bf16) (x3 : Vec F S1x128 .f32) (xs0 xs1 : Vec F S1x128 .f32) :
    out0_B_4 c i arg2 harg2 arg3 harg3 arg4 harg4 arg5 harg5 arg6 harg6 arg7 harg7 arg8 harg8 arg9 harg9 arg10 harg10 hc0 hc1 x0 x1 x2 x3 xs0 xs1 = k0_pay6 x0 x1 x2 x3 := by
  unfold out0_B_4
  rw [View.read_writes_eq_canon _ _ _ (cover0_B_4 c i arg2 harg2 arg3 harg3 arg4 harg4 arg5 harg5 arg6 harg6 arg7 harg7 arg8 harg8 arg9 harg9 arg10 harg10 hc0 hc1 x0 x1 x2 x3 xs0 xs1)]
  unfold kernelRun0_B
  dsimp only
  try sl_unfold_words
  rw [View.canon_unit_zero hz0]
  simp only [View.readAt_eq_ld, harg2.read_unread, harg3.read_unread, harg4.read_unread, harg5.read_unread,
    View.ld_unit_zero (S := S5000x128) hz0, View.ld_unit_zero (S := S5000x1) hz0, View.ld_unit_zero (S := S128x128) hz0, View.ld_unit_zero (S := S1x128) hz0]

set_option maxHeartbeats 4000000 in
/-- At the last step the body leaves the linear layer's block in the output's staging buffer. -/
theorem out0_C_4_eq (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S5000x1 .f32) (x2 : Vec F S128x128 .bf16) (x3 : Vec F S1x128 .f32) (xs0 xs1 : Vec F S1x128 .f32) :
    out0_C_4 c i arg2 harg2 arg3 harg3 arg4 harg4 arg5 harg5 arg6 harg6 arg7 harg7 arg8 harg8 arg9 harg9 arg10 harg10 hc0 hc1 x0 x1 x2 x3 xs0 xs1 = k0_pay6 x0 x1 x2 x3 := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 x3 xs0 xs1)]
  unfold kernelRun0_C
  dsimp only
  try sl_unfold_words
  rw [View.canon_unit_zero hz0]
  simp only [View.readAt_eq_ld, harg2.read_unread, harg3.read_unread, harg4.read_unread, harg5.read_unread,
    View.ld_unit_zero (S := S5000x128) hz0, View.ld_unit_zero (S := S5000x1) hz0, View.ld_unit_zero (S := S128x128) hz0, View.ld_unit_zero (S := S1x128) hz0]

end Body

section Point
variable {F : FTy → Type} [FloatOps F]
variable (V : (c : Dev nD) → (b : Ref sig .tc) → Buf (Elt F) ((c : Thread nD τ).loc b))

/-- What every point leaves in the output's staging buffer: the linear layer's block of the point's four input blocks. -/
theorem after0_4_eq (c : Dev nD) (t : Fin cfg0.N) :
    (dat0 V c).after 4 t = k0_pay6 (iblk0 V c 0 t) (iblk0 V c 1 t) (iblk0 V c 2 t) (iblk0 V c 3 t) := by
  rw [after0_4, outsAt0_eq]
  by_cases h0 : t.val % 5 = 0
  · rw [step0_A V c t _ h0]
    dsimp only
    rw [out0_A_4_eq]
  · by_cases h1 : t.val % 5 = 4
    · rw [step0_C V c t _ h0 h1]
      dsimp only
      rw [out0_C_4_eq]
    · rw [step0_B V c t _ h0 h1]
      dsimp only
      rw [out0_B_4_eq]

end Point

section Value
variable (V : (c : Dev nD) → (b : Ref sig .tc) → Buf (Elt Ideal) ((c : Thread nD τ).loc b))

/-- From the summed neighbour features `A`, the reciprocal in-degree column `d`, the weights `W` (contracted over
    their first axis) and the bias row `b`: the linear layer on the rows of `A` scaled by `d`. -/
def linRows (A : S50000x128.Idx → EReal) (d : S50000x1.Idx → EReal) (W : S128x128.Idx → EReal) (b : S1x128.Idx → EReal) :
    S50000x128.Idx → EReal := fun i =>
  (∑ k : Fin 128, (A (ix2 (i 0 : Fin 50000) k) * d (ix2 (i 0 : Fin 50000) (0 : Fin 1))) * W (ix2 k (i 1 : Fin 128)))
    + b (ix2 (0 : Fin 1) (i 1 : Fin 128))

theorem linRows_apply (A : S50000x128.Idx → EReal) (d : S50000x1.Idx → EReal) (W : S128x128.Idx → EReal) (b : S1x128.Idx → EReal)
    (p : Fin 50000) (q : Fin 128) :
    linRows A d W b (ix2 p q)
      = (∑ k : Fin 128, (A (ix2 p k) * d (ix2 p (0 : Fin 1))) * W (ix2 k q)) + b (ix2 (0 : Fin 1) q) := rfl

/-- The function of the arrays, as the first call finds them, that the linear layer's result array ends holding. -/
abbrev H4 (c : Dev nD) : S50000x128.Idx → EReal :=
  linRows (V c main_v9) (V c main_v19) (V c main_v21) (V c main_v22)

/-- Row `r` of the block of grid point `t` is row `5000·t + r` of the array. -/
def rowAt0 (t : Fin cfg0.N) (r : Fin 5000) : Fin 50000 :=
  ⟨5000 * t.val + r.val, by have h : t.val < 10 := lt_of_lt_of_eq t.isLt N_0; omega⟩

/-- The printed index maps over the grid: the three windows of 5000-row blocks sit at block row `t`, block column 0,
    at point `t`; the weights' and the bias row's windows stay at block (0, 0). -/
theorem idx_facts0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0) :=
  (by decide +kernel : ∀ t : Fin grid0.N, _)

/-- The features' block at point `t`, at `(r, k)`: the array at row `5000·t + r`. -/
theorem iblk0_0_apply (c : Dev nD) (t : Fin cfg0.N) (r : Fin 5000) (k : Fin 128) :
    (iblk0 V c 0 t : Vec Ideal S5000x128 .f32) (ix2 r k) = (V c main_v9 : S50000x128.Idx → EReal) (ix2 (rowAt0 t r) k) := by
  obtain ⟨⟨e0, e1⟩, -⟩ := idx_facts0 t
  unfold iblk0
  rw [View.read_apply]
  show (V c main_v9 : S50000x128.Idx → EReal) _ = _
  congr 1
  funext a
  apply Fin.ext
  match a with
  | ⟨0, _⟩ => show win0_0.index t 0 * 5000 + 1 * r.val = 5000 * t.val + r.val; rw [e0]; omega
  | ⟨1, _⟩ => show win0_0.index t 1 * 128 + 1 * k.val = k.val; rw [e1]; omega

/-- The reciprocal in-degrees' block at point `t`, at `(r, 0)`: the column at row `5000·t + r`. -/
theorem iblk0_1_apply (c : Dev nD) (t : Fin cfg0.N) (r : Fin 5000) :
    (iblk0 V c 1 t : Vec Ideal S5000x1 .f32) (ix2 r (0 : Fin 1)) = (V c main_v19 : S50000x1.Idx → EReal) (ix2 (rowAt0 t r) (0 : Fin 1)) := by
  obtain ⟨-, ⟨e0, e1⟩, -⟩ := idx_facts0 t
  unfold iblk0
  rw [View.read_apply]
  show (V c main_v19 : S50000x1.Idx → EReal) _ = _
  congr 1
  funext a
  apply Fin.ext
  match a with
  | ⟨0, _⟩ => show win0_1.index t 0 * 5000 + 1 * r.val = 5000 * t.val + r.val; rw [e0]; omega
  | ⟨1, _⟩ => show win0_1.index t 1 * 1 + 1 * 0 = 0; rw [e1]

/-- The weights' block at any point is the array. -/
theorem iblk0_2_apply (c : Dev nD) (t : Fin cfg0.N) (k q : Fin 128) :
    (iblk0 V c 2 t : Vec Ideal S128x128 .bf16) (ix2 k q) = (V c main_v21 : S128x128.Idx → EReal) (ix2 k q) := by
  obtain ⟨-, -, ⟨e0, e1⟩, -⟩ := idx_facts0 t
  unfold iblk0
  rw [View.read_apply]
  show (V c main_v21 : S128x128.Idx → EReal) _ = _
  congr 1
  funext a
  apply Fin.ext
  match a with
  | ⟨0, _⟩ => show win0_2.index t 0 * 128 + 1 * k.val = k.val; rw [e0]; omega
  | ⟨1, _⟩ => show win0_2.index t 1 * 128 + 1 * q.val = q.val; rw [e1]; omega

/-- The bias row's block at any point is the row. -/
theorem iblk0_3_apply (c : Dev nD) (t : Fin cfg0.N) (q : Fin 128) :
    (iblk0 V c 3 t : Vec Ideal S1x128 .f32) (ix2 (0 : Fin 1) q) = (V c main_v22 : S1x128.Idx → EReal) (ix2 (0 : Fin 1) q) := by
  obtain ⟨-, -, -, ⟨e0, e1⟩, -⟩ := idx_facts0 t
  unfold iblk0
  rw [View.read_apply]
  show (V c main_v22 : S1x128.Idx → EReal) _ = _
  congr 1
  funext a
  apply Fin.ext
  match a with
  | ⟨0, _⟩ => show win0_3.index t 0 * 1 + 1 * 0 = 0; rw [e0]
  | ⟨1, _⟩ => show win0_3.index t 1 * 128 + 1 * q.val = q.val; rw [e1]; omega

/-- The result window's block at point `t` of any array, at `(r, q)`: the array at row `5000·t + r`. -/
theorem read_blk0_4 (t : Fin cfg0.N) (A : S50000x128.Idx → EReal) (r : Fin 5000) (q : Fin 128) :
    (((cfg0.win 4).blk t).view.read (Elt Ideal) A : Vec Ideal S5000x128 .f32) (ix2 r q) = A (ix2 (rowAt0 t r) q) := by
  obtain ⟨-, -, -, -, e0, e1⟩ := idx_facts0 t
  rw [View.read_apply]
  show A _ = _
  congr 1
  funext a
  apply Fin.ext
  match a with
  | ⟨0, _⟩ => show win0_4.index t 0 * 5000 + 1 * r.val = 5000 * t.val + r.val; rw [e0]; omega
  | ⟨1, _⟩ => show win0_4.index t 1 * 128 + 1 * q.val = q.val; rw [e1]; omega

/-- The linear layer's block of point `t`'s input blocks, at `(r, q)`: `H4` at row `5000·t + r`. -/
theorem blk0_4_apply (c : Dev nD) (t : Fin cfg0.N) (r : Fin 5000) (q : Fin 128) :
    k0_pay6 (F := Ideal) (iblk0 V c 0 t) (iblk0 V c 1 t) (iblk0 V c 2 t) (iblk0 V c 3 t) (ix2 r q) = H4 V c (ix2 (rowAt0 t r) q) := by
  refine (Cert.KPay.k0_pay6_apply _ _ _ _ r q).trans ?_
  unfold H4
  rw [linRows_apply, iblk0_3_apply V c t q]
  congr 1
  refine Finset.sum_congr rfl fun k _ => ?_
  rw [iblk0_0_apply V c t r k, iblk0_1_apply V c t r, iblk0_2_apply V c t k q]

/-- What point `t` writes back is block `t` of `H4`. -/
theorem flushed0_4_eq (c : Dev nD) (t : Fin cfg0.N) :
    (dat0 (F := Ideal) V c).flushed 4 t = ((cfg0.win 4).blk t).view.read (Elt Ideal) (H4 V c) := by
  show (cfg0.win 4).cut (grid0.coords t) ((dat0 (F := Ideal) V c).after 4 t) = _
  rw [after0_4_eq]
  funext j
  obtain ⟨r, q, rfl⟩ : ∃ (r : Fin 5000) (q : Fin 128), j = ix2 r q := ⟨j 0, j 1, eq_ix2 j⟩
  rw [read_blk0_4 t (H4 V c) r q]
  exact blk0_4_apply V c t r q

/-- The linear layer's result array after the first call: `H4` of the arrays as the call finds them. Every row of the
    array lies in the block of the point its row number over 5000 names, and every point writes its block back. -/
theorem arrAt0_4 (c : Dev nD) : (dat0 (F := Ideal) V c).arrAt 4 cfg0.N = H4 V c :=
  (dat0 (F := Ideal) V c).arrAt_eq_of_cover 4 (H4 V c) (fun t _ => flushed0_4_eq V c t) fun i => by
    have h0 : (i 0 : Nat) < 50000 := (i 0).isLt
    have h1 : (i 1 : Nat) < 128 := (i 1).isLt
    have hN : cfg0.N = 10 := N_0
    have ht : (i 0 : Nat) / 5000 < cfg0.N := by rw [hN]; omega
    obtain ⟨-, -, -, -, e0, e1⟩ := idx_facts0 ⟨(i 0 : Nat) / 5000, ht⟩
    refine ⟨⟨(i 0 : Nat) / 5000, ht⟩, flush0_4 _, ?_⟩
    show i ∈ ((View.whole main_v23_0).slice (win0_4.rect ⟨(i 0 : Nat) / 5000, ht⟩)).set
    rw [View.set_slice_whole, Rect.mem_set_unit]
    intro a
    match a with
    | ⟨0, _⟩ =>
      show win0_4.index ⟨(i 0 : Nat) / 5000, ht⟩ 0 * 5000 ≤ (i 0 : Nat) ∧ (i 0 : Nat) < win0_4.index ⟨(i 0 : Nat) / 5000, ht⟩ 0 * 5000 + 5000
      rw [e0]
      show (i 0 : Nat) / 5000 * 5000 ≤ (i 0 : Nat) ∧ (i 0 : Nat) < (i 0 : Nat) / 5000 * 5000 + 5000
      omega
    | ⟨1, _⟩ =>
      show win0_4.index ⟨(i 0 : Nat) / 5000, ht⟩ 1 * 128 ≤ (i 1 : Nat) ∧ (i 1 : Nat) < win0_4.index ⟨(i 0 : Nat) / 5000, ht⟩ 1 * 128 + 128
      rw [e1]; omega

end Value

end Cert.KernelIdeal.Hand

end
-- ==== Proof.KernelScatter.lean ====
/-
  The kernel program's two accumulating scatters, on the extended reals, for ARBITRARY index arrays:

    the summed neighbour features — the scatter, into the zero matrix, of the gathered rows of the node features —
    have real entries when the node features do;
    the in-degrees — the scatter of ones into the zero vector — are natural numbers (at each node, the number of
    updates whose result index is that node).

  Both are the general facts about an accumulating scatter at this program's dimension numbers, once the broadcast
  words of `0.0` and `1.0` are read as `0` and `1`.
-/
import proofs.«118097_j46162308497632_2_alg».proof.KernelIdeal
import proofs.«118097_j46162308497632_2_alg».proof.Proof.LibScatterAddFinite
import Idealize.ShloMosaic.Lib.IdealHost

noncomputable section

namespace Cert.KernelScatter

open Idealize.ShloMosaic Cert.KernelIdeal Cert.ScatterAddFinite

/-- The word of `0.0`, broadcast from a scalar to any shape, reads `0` at every index. -/
theorem zeros_apply {T : Shape} (bc : S_.BroadcastsInDim T (![] : Fin 0 → Fin T.rank)) (i : T.Idx) :
    broadcastInDim T ![] bc (constant (F := Ideal) S_ .f32 0x00000000#32) i = (0 : EReal) :=
  Ideal.ofBits_zero_f32

/-- The word of `1.0`, broadcast from a scalar to any shape, reads `1` at every index. -/
theorem ones_apply {T : Shape} (bc : S_.BroadcastsInDim T (![] : Fin 0 → Fin T.rank)) (i : T.Idx) :
    broadcastInDim T ![] bc (constant (F := Ideal) S_ .f32 0x3F800000#32) i = (1 : EReal) :=
  Ideal.ofBits_one_f32

variable [Facts₀]

open Facts₀

/-- The summed neighbour features: every entry is a real when every entry of the node features `x` is, whatever the
    source indices `src` and the destination indices `dst`. -/
theorem agg_real (x : FVec Ideal S50000x128 .f32) (hx : ∀ i, ∃ r : ℝ, x i = (r : EReal)) (src dst : IVec S800000x1 32)
    (i : S50000x128.Idx) :
    ∃ r : ℝ, Host.scatterAdd (F := Ideal) scatter_S50000x128_S800000x1_S800000x128_1_0_0_1
        (broadcastInDim S50000x128 ![] bcast_S_S50000x128 (constant (F := Ideal) S_ .f32 0x00000000#32)) dst
        (Host.gather gather_S50000x128_S800000x1_S800000x128_1_0_n_n_0_1_1128 x src) i = (r : EReal) :=
  scatterAdd_real _ _ _ _ (fun k => ⟨0, (zeros_apply _ k).trans EReal.coe_zero.symm⟩) (gather_real _ x src hx) i

/-- The in-degrees, with the number named: the entry at node `i` is the number of updates whose result index is `i`,
    whatever the destination indices `dst`. -/
theorem deg_apply (dst : IVec S800000x1 32) (i : S50000.Idx) :
    Host.scatterAdd (F := Ideal) scatter_S50000_S800000x1_S800000_n_0_0_1
        (broadcastInDim S50000 ![] bcast_S_S50000 (constant (F := Ideal) S_ .f32 0x00000000#32)) dst
        (broadcastInDim S800000 ![] bcast_S_S800000 (constant (F := Ideal) S_ .f32 0x3F800000#32)) i
      = (((Finset.univ.filter
            (fun j => scatter_S50000_S800000x1_S800000_n_0_0_1.resultIdx? j dst = some i)).card : ℝ) : EReal) :=
  scatterAdd_zero_one_apply _ _ _ _ (fun k => zeros_apply _ k) (fun j => ones_apply _ j) i

/-- The in-degrees: every entry is a natural number, whatever the destination indices `dst`. -/
theorem deg_nat (dst : IVec S800000x1 32) (i : S50000.Idx) :
    ∃ n : ℕ, Host.scatterAdd (F := Ideal) scatter_S50000_S800000x1_S800000_n_0_0_1
        (broadcastInDim S50000 ![] bcast_S_S50000 (constant (F := Ideal) S_ .f32 0x00000000#32)) dst
        (broadcastInDim S800000 ![] bcast_S_S800000 (constant (F := Ideal) S_ .f32 0x3F800000#32)) i
      = ((n : ℝ) : EReal) :=
  ⟨_, deg_apply dst i⟩

end Cert.KernelScatter

end
-- ==== Proof.KHostA.lean ====
/-
  The kernel program's host operations BEFORE its first kernel call, part one: the two accumulating scatters.

  Whatever the buffers hold when the host operations start (an arbitrary valuation `W`), after the three stretches of
  host operations that precede the first kernel call the buffer of the summed neighbour features holds the
  accumulating scatter, into the zero matrix at the destination indices, of the rows of the node features gathered at
  the (normalised) source indices; and the buffer of the in-degrees holds the accumulating scatter of ones into the
  zero vector at the destination indices. Both are named here as functions of the three argument arrays they read,
  with what is known of their entries: reals, and natural numbers.
-/
import proofs.«118097_j46162308497632_2_alg».proof.Proof.Gen.KernelIdeal.Launch
import proofs.«118097_j46162308497632_2_alg».proof.Proof.KernelScatter
import Idealize.ShloMosaic.Lib.StableHlo.Run

noncomputable section

namespace Cert.KHost

open Idealize.ShloMosaic Idealize.ShloMosaic.StableHlo Idealize.ShloMosaic.TcCoe
open Cert.KernelIdeal Cert.KernelIdeal.Gen

/-- The source indices as the program normalises them (a negative index counts from the end), as a column. -/
def srcIdx (a5 : IVec S800000 32) : IVec S800000x1 32 :=
  broadcastInDim S800000x1 ![0] bcast_S800000_S800000x1_0
    (select (cmpi .slt a5 (broadcastInDim S800000 ![] bcast_S_S800000 (constantI S_ 32 0#32)))
      (addi a5 (broadcastInDim S800000 ![] bcast_S_S800000 (constantI S_ 32 50000#32))) a5)

/-- The destination indices, as a column. -/
def dstIdx (a6 : IVec S800000 32) : IVec S800000x1 32 :=
  broadcastInDim S800000x1 ![0] bcast_S800000_S800000x1_0 a6

/-- The summed neighbour features: the rows of `x` gathered at the source indices, scattered with addition into the
    zero matrix at the destination indices. -/
def agg (x : FVec Ideal S50000x128 .f32) (a5 a6 : IVec S800000 32) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32)) (dstIdx a6)
    (Host.gather gather_S50000x128_S800000x1_S800000x128_1_0_n_n_0_1_1128 x (srcIdx a5))

/-- The in-degrees: ones scattered with addition into the zero vector at the destination indices. -/
def deg (a6 : IVec S800000 32) : FVec Ideal S50000 .f32 :=
  Host.scatterAdd (F := Ideal) scatter_S50000_S800000x1_S800000_n_0_0_1
    (broadcastInDim S50000 ![] bcast_S_S50000 (constant (F := Ideal) S_ .f32 0x00000000#32)) (dstIdx a6)
    (broadcastInDim S800000 ![] bcast_S_S800000 (constant (F := Ideal) S_ .f32 0x3F800000#32))

/-- Every entry of the summed neighbour features is a real when every entry of the node features is. -/
theorem agg_real (x : FVec Ideal S50000x128 .f32) (hx : ∀ i, ∃ r : ℝ, x i = (r : EReal)) (a5 a6 : IVec S800000 32)
    (i : S50000x128.Idx) : ∃ r : ℝ, agg x a5 a6 i = (r : EReal) :=
  Cert.KernelScatter.agg_real x hx _ _ i

/-- Every in-degree is a natural number. -/
theorem deg_nat (a6 : IVec S800000 32) (i : S50000.Idx) : ∃ n : ℕ, deg a6 i = ((n : ℝ) : EReal) :=
  Cert.KernelScatter.deg_nat _ i

/-- After the host operations before the first kernel call, the buffer of the summed neighbour features holds
    them, as a function of the launch contents of the three argument arrays it reads. -/
theorem main_v9_eq (W : Valuation τ sig (Elt Ideal)) :
    (after (hostOps0_2 (F := Ideal)) (after (hostOps0_1 (F := Ideal)) (after (hostOps0 (F := Ideal)) W))
        (Proc.devRef .tc main_v9) : FVec Ideal S50000x128 .f32)
      = agg (W (Proc.devRef .tc main_arg0)) (W (Proc.devRef .tc main_arg5)) (W (Proc.devRef .tc main_arg6)) := by
  after_results
  rfl

/-- After the host operations before the first kernel call, the buffer of the in-degrees holds them. -/
theorem main_v13_eq (W : Valuation τ sig (Elt Ideal)) :
    (after (hostOps0_2 (F := Ideal)) (after (hostOps0_1 (F := Ideal)) (after (hostOps0 (F := Ideal)) W))
        (Proc.devRef .tc main_v13) : FVec Ideal S50000 .f32)
      = deg (W (Proc.devRef .tc main_arg6)) := by
  after_results
  rfl

end Cert.KHost

end
-- ==== Proof.KHostB.lean ====
/-
  The kernel program's host operations BEFORE its first kernel call, part two: the guarded reciprocal in-degrees, the
  transposed weights and the bias row.

  The program compares each in-degree with 0, divides 1 by it, and keeps the quotient where the in-degree is above 0
  and 0 elsewhere — the specification's guarded reciprocal — and stores the result as a column. The weights are
  transposed (the change of float format after it is the identity on the extended reals) and the bias is stored as a row.
-/
import proofs.«118097_j46162308497632_2_alg».proof.Proof.KHostA
import proofs.«118097_j46162308497632_2_alg».proof.Proof.Spec
import Idealize.ShloMosaic.Lib.IdealHost
import Idealize.ShloMosaic.Lib.ValueLayout

noncomputable section

namespace Cert.KHost

open Idealize.ShloMosaic Idealize.ShloMosaic.ValueIdx Idealize.ShloMosaic.StableHlo Idealize.ShloMosaic.TcCoe
open Cert.KernelIdeal Cert.KernelIdeal.Gen

/-- A vector stored as a column reads, at `(p, 0)`, the vector at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The guarded reciprocal of the in-degrees `D`, as the program computes it: a column. -/
def invDeg (D : FVec Ideal S50000 .f32) : FVec Ideal S50000x1 .f32 :=
  shapeCast S50000x1
    (select (cmpf .ogt D (broadcastInDim S50000 ![] bcast_S_S50000 (constant (F := Ideal) S_ .f32 0x00000000#32)))
      (Host.divf (F := Ideal) (broadcastInDim S50000 ![] bcast_S_S50000 (constant (F := Ideal) S_ .f32 0x3F800000#32)) D)
      (broadcastInDim S50000 ![] bcast_S_S50000 (constant (F := Ideal) S_ .f32 0x00000000#32)))
    shapeCasts_S50000_S50000x1

/-- The program's guarded reciprocal at row `p` is the specification's. -/
theorem invDeg_apply (D : FVec Ideal S50000 .f32) (p : Fin 50000) :
    invDeg D (ix2 p (0 : Fin 1)) = Cert.Gcn.inv D p := by
  unfold invDeg Cert.Gcn.inv
  rw [shapeCast_a_a1_apply, select_apply, cmpf_apply, hostDivf_apply, Cert.KernelScatter.zeros_apply,
    Cert.KernelScatter.ones_apply, Ideal.cmpf_def]
  by_cases h : 0 < D (ix1 p)
  · have e : Ideal.cmp .ogt (D (ix1 p)) 0 = 1#1 := by unfold Ideal.cmp; simp [h]
    rw [if_pos h, e, select_one]
  · have e : Ideal.cmp .ogt (D (ix1 p)) 0 = 0#1 := by unfold Ideal.cmp; simp [h]
    rw [if_neg h, e, select_zero]

/-! ### The three stretches, one at a time, over an arbitrary valuation -/

/-- The last stretch stores the guarded reciprocal as a column. -/
theorem s2_v19 (V : Valuation τ sig (Elt Ideal)) :
    (after (hostOps0_2 (F := Ideal)) V (Proc.devRef .tc main_v19) : FVec Ideal S50000x1 .f32)
      = shapeCast S50000x1 (V (Proc.devRef .tc main_v18) : FVec Ideal S50000 .f32) shapeCasts_S50000_S50000x1 := by
  after_results
  rfl

/-- The middle stretch (the selection) keeps the quotient where the condition holds and the constant elsewhere. -/
theorem s1_v18 (V : Valuation τ sig (Elt Ideal)) :
    (after (hostOps0_1 (F := Ideal)) V (Proc.devRef .tc main_v18) : FVec Ideal S50000 .f32)
      = select (V (Proc.devRef .tc main_v15) : IVec S50000 1) (V (Proc.devRef .tc main_v17) : FVec Ideal S50000 .f32)
          (broadcastInDim S50000 ![] bcast_S_S50000 (V (Proc.devRef .tc main_cst_5) : FVec Ideal S_ .f32)) := by
  after_results
  rfl

/-- The first stretch's condition: the in-degrees above 0. -/
theorem s0_v15 (W : Valuation τ sig (Elt Ideal)) :
    (after (hostOps0 (F := Ideal)) W (Proc.devRef .tc main_v15) : IVec S50000 1)
      = cmpf .ogt (deg (W (Proc.devRef .tc main_arg6)))
          (broadcastInDim S50000 ![] bcast_S_S50000 (constant (F := Ideal) S_ .f32 0x00000000#32)) := by
  after_results
  rfl

/-- The first stretch's quotient: 1 over the in-degrees. -/
theorem s0_v17 (W : Valuation τ sig (Elt Ideal)) :
    (after (hostOps0 (F := Ideal)) W (Proc.devRef .tc main_v17) : FVec Ideal S50000 .f32)
      = Host.divf (F := Ideal) (broadcastInDim S50000 ![] bcast_S_S50000 (constant (F := Ideal) S_ .f32 0x3F800000#32))
          (deg (W (Proc.devRef .tc main_arg6))) := by
  after_results
  rfl

/-- The first stretch's constant 0. -/
theorem s0_cst5 (W : Valuation τ sig (Elt Ideal)) :
    (after (hostOps0 (F := Ideal)) W (Proc.devRef .tc main_cst_5) : FVec Ideal S_ .f32)
      = constant (F := Ideal) S_ .f32 0x00000000#32 := by
  after_results

/-- After the host operations before the first kernel call, the buffer of the reciprocal in-degrees holds the
    program's guarded reciprocal of the in-degrees. -/
theorem main_v19_eq (W : Valuation τ sig (Elt Ideal)) :
    (after (hostOps0_2 (F := Ideal)) (after (hostOps0_1 (F := Ideal)) (after (hostOps0 (F := Ideal)) W))
        (Proc.devRef .tc main_v19) : FVec Ideal S50000x1 .f32)
      = invDeg (deg (W (Proc.devRef .tc main_arg6))) := by
  rw [s2_v19, s1_v18, s0_v15, s0_v17, s0_cst5]
  rfl

/-- … which at row `p` is the specification's guarded reciprocal of the in-degree. -/
theorem main_v19_apply (W : Valuation τ sig (Elt Ideal)) (p : Fin 50000) :
    (after (hostOps0_2 (F := Ideal)) (after (hostOps0_1 (F := Ideal)) (after (hostOps0 (F := Ideal)) W))
        (Proc.devRef .tc main_v19) : FVec Ideal S50000x1 .f32) (ix2 p (0 : Fin 1))
      = Cert.Gcn.inv (deg (W (Proc.devRef .tc main_arg6))) p := by
  rw [main_v19_eq, invDeg_apply]

/-- After the host operations before the first kernel call, the buffer of the weights handed to the kernel holds
    the transposed weights: entry `(k, q)` is `W[q, k]`. -/
theorem main_v21_apply (W : Valuation τ sig (Elt Ideal)) (k q : Fin 128) :
    (after (hostOps0_2 (F := Ideal)) (after (hostOps0_1 (F := Ideal)) (after (hostOps0 (F := Ideal)) W))
        (Proc.devRef .tc main_v21) : FVec Ideal S128x128 .bf16) (ix2 k q)
      = (W (Proc.devRef .tc main_arg1) : FVec Ideal S128x128 .f32) (ix2 q k) := by
  have e : (after (hostOps0_2 (F := Ideal)) (after (hostOps0_1 (F := Ideal)) (after (hostOps0 (F := Ideal)) W))
        (Proc.devRef .tc main_v21) : FVec Ideal S128x128 .bf16)
      = truncf (F := Ideal) .bf16 (transpose S128x128 [1, 0] (W (Proc.devRef .tc main_arg1) : FVec Ideal S128x128 .f32)
          transposes_S128x128_S128x128_1_0) bitsLt_bf16_f32 := by
    after_results
  rw [e, truncf_apply, transpose_ix2_apply]

/-- After the host operations before the first kernel call, the buffer of the bias row holds the bias. -/
theorem main_v22_apply (W : Valuation τ sig (Elt Ideal)) (q : Fin 128) :
    (after (hostOps0_2 (F := Ideal)) (after (hostOps0_1 (F := Ideal)) (after (hostOps0 (F := Ideal)) W))
        (Proc.devRef .tc main_v22) : FVec Ideal S1x128 .f32) (ix2 (0 : Fin 1) q)
      = (W (Proc.devRef .tc main_arg2) : FVec Ideal S128 .f32) (ix1 q) := by
  have e : (after (hostOps0_2 (F := Ideal)) (after (hostOps0_1 (F := Ideal)) (after (hostOps0 (F := Ideal)) W))
        (Proc.devRef .tc main_v22) : FVec Ideal S1x128 .f32)
      = shapeCast S1x128 (W (Proc.devRef .tc main_arg2) : FVec Ideal S128 .f32) shapeCasts_S128_S1x128 := by
    after_results
    rfl
  rw [e, shapeCast_a_1a_apply]

end Cert.KHost

end
-- ==== Proof.KHostC.lean ====
/-
  The kernel program's host operations BETWEEN its two kernel calls: from the two pairs of partial statistics rows the
  first kernel call leaves, the mean row and the clamped one-pass variance row; and the scale and shift as rows.

  Each partial array holds two rows (one per half of the blocks). The program adds the two rows (starting from the
  constant 0, which adds nothing), divides by the word of 50000, and for the variance subtracts the square of the mean
  from the mean of squares and clamps at 0. All of it is read here at a column `q`, whatever the buffers hold when
  these host operations start (an arbitrary valuation `W`); the first kernel call's result and the node features are
  left as they were.
-/
import proofs.«118097_j46162308497632_2_alg».proof.Proof.Gen.KernelIdeal.Launch
import proofs.«118097_j46162308497632_2_alg».proof.Proof.KernelScatter
import proofs.«118097_j46162308497632_2_alg».proof.Proof.Spec
import Idealize.ShloMosaic.Lib.StableHlo.Run
import Idealize.ShloMosaic.Lib.IdealHost
import Idealize.ShloMosaic.Lib.ValueLayout

noncomputable section

open scoped BigOperators

namespace Cert.KHost

open Idealize.ShloMosaic Idealize.ShloMosaic.ValueIdx Idealize.ShloMosaic.StableHlo Idealize.ShloMosaic.TcCoe
open Cert.KernelIdeal Cert.KernelIdeal.Gen

/-- An `[a, 1, b]` array cast to `[a, b]` reads, at `(c, q)`, the operand at `(c, 0, q)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (c : Fin a) (q : Fin b) :
    shapeCast ⟨2, ![a, b]⟩ x h (ix2 c q) = x (ix3 c (0 : Fin 1) q) :=
  shapeCast_apply x h _ _ (by
    rw [Shape.rowMajor_val_three, Shape.rowMajor_val_two]
    show (c.val * 1 + 0) * b + q.val = c.val * b + q.val
    rw [Nat.mul_one, Nat.add_zero])

/-- Over the rows' axis of a two-row array, the source index above column `q` with row coordinate `c` is `(c, q)`. -/
theorem lift_two (h : S2x128.Reduces [0] S128) (q : Fin 128) (c : Fin 2) : h.lift (ix1 q) c = ix2 c q := by
  funext d
  apply Fin.ext
  match d with
  | ⟨0, _⟩ => rfl
  | ⟨1, _⟩ => rfl

/-- The host's sum over the rows' axis of a two-row array, read at column `q`: the initial value plus the two rows' entries. -/
theorem rowsum_two (x : S2x128.Idx → EReal) (h' : S2x128.ReducesTo [0] S128) (init : EReal) (q : Fin 128) :
    Ideal.hostReduceAdd h' x init (ix1 q) = init + ∑ c : Fin 2, x (ix2 c q) :=
  (Ideal.hostReduceAdd_single h' (by decide : S2x128.Reduces [0] S128) x init (ix1 q)).trans
    (congrArg (init + ·) (Finset.sum_congr rfl fun c _ => congrArg x (lift_two _ q c)))

/-- The sum of the two partial rows, divided by the word of 50000: a row of column means. -/
def colMean (s : FVec Ideal S2x1x128 .f32) : FVec Ideal S128 .f32 :=
  Host.divf (F := Ideal)
    (Host.reduceAdd (F := Ideal) (shapeCast S2x128 s shapeCasts_S2x1x128_S2x128)
      (constant (F := Ideal) S_ .f32 0x00000000#32) reducesTo_S2x128_S128_d0 h_S_)
    (broadcastInDim S128 ![] bcast_S_S128 (constant (F := Ideal) S_ .f32 0x47435000#32))

/-- The column mean at column `q`: the two partial entries added, over the specification's count. -/
theorem colMean_apply (s : FVec Ideal S2x1x128 .f32) (q : Fin 128) :
    colMean s (ix1 q) = Ideal.div (∑ c : Fin 2, s (ix3 c (0 : Fin 1) q)) Cert.Gcn.nC := by
  unfold colMean Cert.Gcn.nC
  rw [hostDivf_apply]
  refine congrArg₂ Ideal.div ?_ rfl
  refine (hostReduceAdd_apply _ _ _ _ _).trans ((rowsum_two _ _ _ q).trans ?_)
  show Ideal.ofBits .f32 0x00000000#32 + _ = _
  rw [Ideal.ofBits_zero_f32, zero_add]
  exact Finset.sum_congr rfl fun c _ => shapeCast_a1b_ab_apply s _ c q

/-- The mean row the second kernel call reads: the column means of the partial sums. -/
theorem main_v36_eq (W : Valuation τ sig (Elt Ideal)) :
    (after (hostOps1 (F := Ideal)) W (Proc.devRef .tc main_v36) : FVec Ideal S1x128 .f32)
      = shapeCast S1x128 (colMean (W (Proc.devRef .tc main_v23_1))) shapeCasts_S128_S1x128 := by
  after_results
  rfl

/-- The mean row at column `q`. -/
theorem main_v36_apply (W : Valuation τ sig (Elt Ideal)) (q : Fin 128) :
    (after (hostOps1 (F := Ideal)) W (Proc.devRef .tc main_v36) : FVec Ideal S1x128 .f32) (ix2 (0 : Fin 1) q)
      = Ideal.div (∑ c : Fin 2, (W (Proc.devRef .tc main_v23_1) : FVec Ideal S2x1x128 .f32) (ix3 c (0 : Fin 1) q))
          Cert.Gcn.nC := by
  rw [main_v36_eq, shapeCast_a_1a_apply, colMean_apply]

/-- The variance row the second kernel call reads: the mean of squares minus the squared mean, clamped at 0. -/
theorem main_v37_eq (W : Valuation τ sig (Elt Ideal)) :
    (after (hostOps1 (F := Ideal)) W (Proc.devRef .tc main_v37) : FVec Ideal S1x128 .f32)
      = shapeCast S1x128
          (maximumf
            (subf (colMean (W (Proc.devRef .tc main_v23_2)))
              (mulf (colMean (W (Proc.devRef .tc main_v23_1))) (colMean (W (Proc.devRef .tc main_v23_1)))))
            (broadcastInDim S128 ![] bcast_S_S128 (constant (F := Ideal) S_ .f32 0x00000000#32)))
          shapeCasts_S128_S1x128 := by
  after_results
  rfl

/-- The variance row at column `q`. -/
theorem main_v37_apply (W : Valuation τ sig (Elt Ideal)) (q : Fin 128) :
    (after (hostOps1 (F := Ideal)) W (Proc.devRef .tc main_v37) : FVec Ideal S1x128 .f32) (ix2 (0 : Fin 1) q)
      = max (Ideal.div (∑ c : Fin 2, (W (Proc.devRef .tc main_v23_2) : FVec Ideal S2x1x128 .f32) (ix3 c (0 : Fin 1) q))
              Cert.Gcn.nC
            - Ideal.div (∑ c : Fin 2, (W (Proc.devRef .tc main_v23_1) : FVec Ideal S2x1x128 .f32) (ix3 c (0 : Fin 1) q))
                Cert.Gcn.nC
              * Ideal.div (∑ c : Fin 2, (W (Proc.devRef .tc main_v23_1) : FVec Ideal S2x1x128 .f32) (ix3 c (0 : Fin 1) q))
                  Cert.Gcn.nC) 0 := by
  rw [main_v37_eq, shapeCast_a_1a_apply, maximumf_apply, subf_apply, mulf_apply, colMean_apply, colMean_apply,
    Cert.KernelScatter.zeros_apply]

/-- The scale row at column `q`. -/
theorem main_v38_apply (W : Valuation τ sig (Elt Ideal)) (q : Fin 128) :
    (after (hostOps1 (F := Ideal)) W (Proc.devRef .tc main_v38) : FVec Ideal S1x128 .f32) (ix2 (0 : Fin 1) q)
      = (W (Proc.devRef .tc main_arg3) : FVec Ideal S128 .f32) (ix1 q) := by
  have e : (after (hostOps1 (F := Ideal)) W (Proc.devRef .tc main_v38) : FVec Ideal S1x128 .f32)
      = shapeCast S1x128 (W (Proc.devRef .tc main_arg3) : FVec Ideal S128 .f32) shapeCasts_S128_S1x128 := by
    after_results
    rfl
  rw [e, shapeCast_a_1a_apply]

/-- The shift row at column `q`. -/
theorem main_v39_apply (W : Valuation τ sig (Elt Ideal)) (q : Fin 128) :
    (after (hostOps1 (F := Ideal)) W (Proc.devRef .tc main_v39) : FVec Ideal S1x128 .f32) (ix2 (0 : Fin 1) q)
      = (W (Proc.devRef .tc main_arg4) : FVec Ideal S128 .f32) (ix1 q) := by
  have e : (after (hostOps1 (F := Ideal)) W (Proc.devRef .tc main_v39) : FVec Ideal S1x128 .f32)
      = shapeCast S1x128 (W (Proc.devRef .tc main_arg4) : FVec Ideal S128 .f32) shapeCasts_S128_S1x128 := by
    after_results
    rfl
  rw [e, shapeCast_a_1a_apply]

/-- These host operations leave the first kernel call's result as it was. -/
theorem main_v23_0_eq (W : Valuation τ sig (Elt Ideal)) :
    after (hostOps1 (F := Ideal)) W (Proc.devRef .tc main_v23_0) = W (Proc.devRef .tc main_v23_0) := by
  after_results

/-- These host operations leave the node features as they were. -/
theorem main_arg0_eq (W : Valuation τ sig (Elt Ideal)) :
    after (hostOps1 (F := Ideal)) W (Proc.devRef .tc main_arg0) = W (Proc.devRef .tc main_arg0) := by
  after_results

end Cert.KHost

end
-- ==== Proof.KValueLin.lean ====
/-
  The first call's linear layer at its entry contents: with the summed neighbour features A, the in-degrees D, the
  transposed weights and the bias row that the host operations before the call leave in its operands, the row
  function the call writes is the specification's linear layer on the mean-aggregated features.
-/
import proofs.«118097_j46162308497632_2_alg».proof.Proof.MainI
import proofs.«118097_j46162308497632_2_alg».proof.Proof.Val0Blk
import proofs.«118097_j46162308497632_2_alg».proof.Proof.KHostB
import proofs.«118097_j46162308497632_2_alg».proof.Proof.KHostC

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The summed neighbour features and the in-degrees, as functions of the launch contents on core `c`. -/
abbrev aggAt (c : Dev nD) : Cert.Gcn.Mat :=
  Cert.KHost.agg (m ((c.tc : Thread nD τ).loc main_arg0)) (m ((c.tc : Thread nD τ).loc main_arg5)) (m ((c.tc : Thread nD τ).loc main_arg6))
abbrev degAt (c : Dev nD) : Cert.Gcn.Col := Cert.KHost.deg (m ((c.tc : Thread nD τ).loc main_arg6))

/-- The contents the first call is entered from: the launch contents after the three stretches of host operations. -/
theorem V3_eq (c : Dev nD) (b : Ref sig .tc) :
    V3 m c b = StableHlo.after (hostOps0_2 (F := Ideal)) (StableHlo.after (hostOps0_1 (F := Ideal)) (StableHlo.after (hostOps0 (F := Ideal)) (W0 m c))) (Proc.devRef .tc b) := rfl
/-- The contents the second call is entered from: what the first call left, after the host operations between them. -/
theorem V5_eq (c : Dev nD) (b : Ref sig .tc) :
    V5 m c b = StableHlo.after (hostOps1 (F := Ideal)) (W4 m c) (Proc.devRef .tc b) := rfl

theorem V3_v9 (c : Dev nD) : (V3 m c main_v9 : FVec Ideal S50000x128 .f32) = aggAt m c := by
  rw [V3_eq]; exact Cert.KHost.main_v9_eq (W0 m c)
theorem V3_v19 (c : Dev nD) (p : Fin 50000) : (V3 m c main_v19 : FVec Ideal S50000x1 .f32) (ix2 p (0 : Fin 1)) = Cert.Gcn.inv (degAt m c) p := by
  rw [V3_eq]; exact Cert.KHost.main_v19_apply (W0 m c) p
theorem V3_v21 (c : Dev nD) (k q : Fin 128) : (V3 m c main_v21 : FVec Ideal S128x128 .bf16) (ix2 k q) = (m ((c.tc : Thread nD τ).loc main_arg1) : FVec Ideal S128x128 .f32) (ix2 q k) := by
  rw [V3_eq]; exact Cert.KHost.main_v21_apply (W0 m c) k q
theorem V3_v22 (c : Dev nD) (q : Fin 128) : (V3 m c main_v22 : FVec Ideal S1x128 .f32) (ix2 (0 : Fin 1) q) = (m ((c.tc : Thread nD τ).loc main_arg2) : FVec Ideal S128 .f32) (ix1 q) := by
  rw [V3_eq]; exact Cert.KHost.main_v22_apply (W0 m c) q

/-- A row function built from a column that is the guarded reciprocal, weights that are the transposed weights and a
    bias row that is the bias is the specification's linear layer. -/
theorem linRows_lin (A : S50000x128.Idx → EReal) (d : S50000x1.Idx → EReal) (Wt : S128x128.Idx → EReal) (bb : S1x128.Idx → EReal)
    (D : Cert.Gcn.Col) (W : Cert.Gcn.Wt) (b : Cert.Gcn.Row)
    (hd : ∀ p : Fin 50000, d (ix2 p (0 : Fin 1)) = Cert.Gcn.inv D p)
    (hW : ∀ k q : Fin 128, Wt (ix2 k q) = W (ix2 q k)) (hb : ∀ q : Fin 128, bb (ix2 (0 : Fin 1) q) = b (ix1 q))
    (p : Fin 50000) (q : Fin 128) : linRows A d Wt bb (ix2 p q) = Cert.Gcn.lin A D W b p q := by
  rw [linRows_apply]
  unfold Cert.Gcn.lin
  rw [hd, hb]
  congr 1
  exact Finset.sum_congr rfl fun k _ => by rw [hW]

/-- The rows the first call writes are the specification's linear layer. -/
theorem H4_lin (c : Dev nD) (p : Fin 50000) (q : Fin 128) :
    H4 (V3 m) c (ix2 p q) = Cert.Gcn.lin (aggAt m c) (degAt m c) (m ((c.tc : Thread nD τ).loc main_arg1)) (m ((c.tc : Thread nD τ).loc main_arg2)) p q :=
  (linRows_lin (V3 m c main_v9) (V3 m c main_v19) (V3 m c main_v21) (V3 m c main_v22) (degAt m c)
      (m ((c.tc : Thread nD τ).loc main_arg1)) (m ((c.tc : Thread nD τ).loc main_arg2)) (V3_v19 m c) (V3_v21 m c) (V3_v22 m c) p q).trans
    (congrArg (fun A => Cert.Gcn.lin A (degAt m c) (m ((c.tc : Thread nD τ).loc main_arg1)) (m ((c.tc : Thread nD τ).loc main_arg2)) p q) (V3_v9 m c))

/-! ## What the second call reads -/

/-- No host operation and no call writes the node features. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps0_2 _ hostOps0_2_writes (by decide)
    _ = W1 m c (Proc.devRef .tc main_arg0) := StableHlo.after_of_writes_sub hostOps0_1 _ hostOps0_1_writes (by decide)
    _ = W0 m c (Proc.devRef .tc main_arg0) := StableHlo.after_of_writes_sub hostOps0 _ hostOps0_writes (by decide)
    _ = m ((c : Thread nD τ).loc main_arg0) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps0_2 _ hostOps0_2_writes (by decide)
    _ = W1 m c (Proc.devRef .tc main_arg3) := StableHlo.after_of_writes_sub hostOps0_1 _ hostOps0_1_writes (by decide)
    _ = W0 m c (Proc.devRef .tc main_arg3) := StableHlo.after_of_writes_sub hostOps0 _ hostOps0_writes (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps0_2 _ hostOps0_2_writes (by decide)
    _ = W1 m c (Proc.devRef .tc main_arg4) := StableHlo.after_of_writes_sub hostOps0_1 _ hostOps0_1_writes (by decide)
    _ = W0 m c (Proc.devRef .tc main_arg4) := StableHlo.after_of_writes_sub hostOps0 _ hostOps0_writes (by decide)
    _ = m ((c : Thread nD τ).loc main_arg4) := rfl

end Cert.KernelIdeal.Hand

end
-- ==== Proof.Val1.lean ====
/-
  The second call's result array, as one function of the arrays the call finds.

  Every grid point t of the second call normalises rows 10000·t … 10000·t + 9999 of the linear layer's result with the
  statistics rows, scales and shifts, clamps at zero and adds the same rows of the node features, and writes the block
  back. The five blocks tile the 50000 rows, so after the call the result array holds, at every index (p, q),

    x[p,q] + max (((y[p,q] − mean[q]) · rsqrt (var[q] + ε)) · scale[q] + shift[q]) 0

  of the arrays as the call found them.
-/
import proofs.«118097_j46162308497632_2_alg».proof.Proof.R1I
import proofs.«118097_j46162308497632_2_alg».proof.Proof.KPay
import proofs.«118097_j46162308497632_2_alg».proof.Proof.Spec
import Idealize.ShloMosaic.Lib.Pipeline.Value
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

section Body
variable {F : FTy → Type} [FloatOps F]

/-- The zero offsets of a whole-block load or store. -/
theorem hz1 : (![0, 0] : Fin 2 → Nat) = fun _ => 0 := funext fun a => by fin_cases a <;> rfl

set_option maxHeartbeats 4000000 in
/-- What the body leaves in the output's staging buffer: its one payload of the six input buffers' contents. -/
theorem out1_6_eq (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S10000x128 .f32) (harg7 : arg7.IsWhole)
    (x0 x1 : Vec F S10000x128 .f32) (x2 x3 x4 x5 : Vec F S1x128 .f32) :
    out1_6 c i arg1 harg1 arg2 harg2 arg3 harg3 arg4 harg4 arg5 harg5 arg6 harg6 arg7 harg7 x0 x1 x2 x3 x4 x5
      = k1_pay1 x0 x2 x3 x4 x5 x1 := by
  unfold out1_6
  rw [View.read_writes_eq_canon _ _ _ (cover1_6 c i arg1 harg1 arg2 harg2 arg3 harg3 arg4 harg4 arg5 harg5 arg6 harg6 arg7 harg7 x0 x1 x2 x3 x4 x5)]
  unfold kernelRun1
  dsimp only
  try sl_unfold_words
  rw [View.canon_unit_zero hz1]
  simp only [View.readAt_eq_ld, harg1.read_unread, harg2.read_unread, harg3.read_unread, harg4.read_unread, harg5.read_unread, harg6.read_unread,
    View.ld_unit_zero (S := S10000x128) hz1, View.ld_unit_zero (S := S1x128) hz1]

end Body

section Value
variable (V : (c : Dev nD) → (b : Ref sig .tc) → Buf (Elt Ideal) ((c : Thread nD τ).loc b))

/-- From the node features `x`, the linear layer's result `y` and the four statistics rows: the node features plus the
    rectified, scaled and shifted normalisation of `y`. -/
def normRelu (x y : S50000x128.Idx → EReal) (mean var scale shift : S1x128.Idx → EReal) : S50000x128.Idx → EReal := fun i =>
  x i + max (((y i - mean (ix2 (0 : Fin 1) (i 1 : Fin 128))) * Ideal.rsqrt (var (ix2 (0 : Fin 1) (i 1 : Fin 128)) + Cert.Gcn.eps))
      * scale (ix2 (0 : Fin 1) (i 1 : Fin 128)) + shift (ix2 (0 : Fin 1) (i 1 : Fin 128))) 0

theorem normRelu_apply (x y : S50000x128.Idx → EReal) (mean var scale shift : S1x128.Idx → EReal) (r : Fin 50000) (q : Fin 128) :
    normRelu x y mean var scale shift (ix2 r q)
      = x (ix2 r q) + max (((y (ix2 r q) - mean (ix2 (0 : Fin 1) q)) * Ideal.rsqrt (var (ix2 (0 : Fin 1) q) + Cert.Gcn.eps))
          * scale (ix2 (0 : Fin 1) q) + shift (ix2 (0 : Fin 1) q)) 0 := rfl

/-- The function of the arrays, as the second call finds them, that its result array ends holding. -/
abbrev G6 (c : Dev nD) : S50000x128.Idx → EReal :=
  normRelu (V c main_arg0) (V c main_v23_0) (V c main_v36) (V c main_v37) (V c main_v38) (V c main_v39)

/-- Row `p` of the block of grid point `t` is row `10000·t + p` of the array. -/
def rowAt (t : Fin cfg1.N) (p : Fin 10000) : Fin 50000 :=
  ⟨10000 * t.val + p.val, by have h : t.val < 5 := lt_of_lt_of_eq t.isLt N_1; omega⟩

/-- The printed index maps over the grid: the three windows of 10000-row blocks sit at block row `t`, block column 0,
    at point `t`; the four statistics windows stay at block (0, 0). -/
theorem idx_facts1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0) :=
  (by decide +kernel : ∀ t : Fin grid1.N, _)

/-- The linear layer's result block at point `t`, at `(p, q)`: the array at row `10000·t + p`. -/
theorem iblk1_0_apply (c : Dev nD) (t : Fin cfg1.N) (p : Fin 10000) (q : Fin 128) :
    (iblk1 V c 0 t : Vec Ideal S10000x128 .f32) (ix2 p q) = (V c main_v23_0 : S50000x128.Idx → EReal) (ix2 (rowAt t p) q) := by
  obtain ⟨⟨e0, e1⟩, -⟩ := idx_facts1 t
  unfold iblk1
  rw [View.read_apply]
  show (V c main_v23_0 : S50000x128.Idx → EReal) _ = _
  congr 1
  funext a
  apply Fin.ext
  match a with
  | ⟨0, _⟩ => show win1_0.index t 0 * 10000 + 1 * p.val = 10000 * t.val + p.val; rw [e0]; omega
  | ⟨1, _⟩ => show win1_0.index t 1 * 128 + 1 * q.val = q.val; rw [e1]; omega

end Value

section Value2
variable (V : (c : Dev nD) → (b : Ref sig .tc) → Buf (Elt Ideal) ((c : Thread nD τ).loc b))

/-- The node features' block at point `t`, at `(p, q)`: the array at row `10000·t + p`. -/
theorem iblk1_1_apply (c : Dev nD) (t : Fin cfg1.N) (p : Fin 10000) (q : Fin 128) :
    (iblk1 V c 1 t : Vec Ideal S10000x128 .f32) (ix2 p q) = (V c main_arg0 : S50000x128.Idx → EReal) (ix2 (rowAt t p) q) := by
  obtain ⟨-, ⟨e0, e1⟩, -⟩ := idx_facts1 t
  unfold iblk1
  rw [View.read_apply]
  show (V c main_arg0 : S50000x128.Idx → EReal) _ = _
  congr 1
  funext a
  apply Fin.ext
  match a with
  | ⟨0, _⟩ => show win1_1.index t 0 * 10000 + 1 * p.val = 10000 * t.val + p.val; rw [e0]; omega
  | ⟨1, _⟩ => show win1_1.index t 1 * 128 + 1 * q.val = q.val; rw [e1]; omega

/-- The mean row's block at any point is the row. -/
theorem iblk1_2_apply (c : Dev nD) (t : Fin cfg1.N) (q : Fin 128) :
    (iblk1 V c 2 t : Vec Ideal S1x128 .f32) (ix2 (0 : Fin 1) q) = (V c main_v36 : S1x128.Idx → EReal) (ix2 (0 : Fin 1) q) := by
  obtain ⟨-, -, ⟨e0, e1⟩, -⟩ := idx_facts1 t
  unfold iblk1
  rw [View.read_apply]
  show (V c main_v36 : S1x128.Idx → EReal) _ = _
  congr 1
  funext a
  apply Fin.ext
  match a with
  | ⟨0, _⟩ => show win1_2.index t 0 * 1 + 1 * 0 = 0; rw [e0]
  | ⟨1, _⟩ => show win1_2.index t 1 * 128 + 1 * q.val = q.val; rw [e1]; omega

/-- The variance row's block at any point is the row. -/
theorem iblk1_3_apply (c : Dev nD) (t : Fin cfg1.N) (q : Fin 128) :
    (iblk1 V c 3 t : Vec Ideal S1x128 .f32) (ix2 (0 : Fin 1) q) = (V c main_v37 : S1x128.Idx → EReal) (ix2 (0 : Fin 1) q) := by
  obtain ⟨-, -, -, ⟨e0, e1⟩, -⟩ := idx_facts1 t
  unfold iblk1
  rw [View.read_apply]
  show (V c main_v37 : S1x128.Idx → EReal) _ = _
  congr 1
  funext a
  apply Fin.ext
  match a with
  | ⟨0, _⟩ => show win1_3.index t 0 * 1 + 1 * 0 = 0; rw [e0]
  | ⟨1, _⟩ => show win1_3.index t 1 * 128 + 1 * q.val = q.val; rw [e1]; omega

/-- The scale row's block at any point is the row. -/
theorem iblk1_4_apply (c : Dev nD) (t : Fin cfg1.N) (q : Fin 128) :
    (iblk1 V c 4 t : Vec Ideal S1x128 .f32) (ix2 (0 : Fin 1) q) = (V c main_v38 : S1x128.Idx → EReal) (ix2 (0 : Fin 1) q) := by
  obtain ⟨-, -, -, -, ⟨e0, e1⟩, -⟩ := idx_facts1 t
  unfold iblk1
  rw [View.read_apply]
  show (V c main_v38 : S1x128.Idx → EReal) _ = _
  congr 1
  funext a
  apply Fin.ext
  match a with
  | ⟨0, _⟩ => show win1_4.index t 0 * 1 + 1 * 0 = 0; rw [e0]
  | ⟨1, _⟩ => show win1_4.index t 1 * 128 + 1 * q.val = q.val; rw [e1]; omega

/-- The shift row's block at any point is the row. -/
theorem iblk1_5_apply (c : Dev nD) (t : Fin cfg1.N) (q : Fin 128) :
    (iblk1 V c 5 t : Vec Ideal S1x128 .f32) (ix2 (0 : Fin 1) q) = (V c main_v39 : S1x128.Idx → EReal) (ix2 (0 : Fin 1) q) := by
  obtain ⟨-, -, -, -, -, ⟨e0, e1⟩, -⟩ := idx_facts1 t
  unfold iblk1
  rw [View.read_apply]
  show (V c main_v39 : S1x128.Idx → EReal) _ = _
  congr 1
  funext a
  apply Fin.ext
  match a with
  | ⟨0, _⟩ => show win1_5.index t 0 * 1 + 1 * 0 = 0; rw [e0]
  | ⟨1, _⟩ => show win1_5.index t 1 * 128 + 1 * q.val = q.val; rw [e1]; omega

/-- The result window's block at point `t` of any array, at `(p, q)`: the array at row `10000·t + p`. -/
theorem read_blk1_6 (t : Fin cfg1.N) (A : S50000x128.Idx → EReal) (p : Fin 10000) (q : Fin 128) :
    (((cfg1.win 6).blk t).view.read (Elt Ideal) A : Vec Ideal S10000x128 .f32) (ix2 p q) = A (ix2 (rowAt t p) q) := by
  obtain ⟨-, -, -, -, -, -, e0, e1⟩ := idx_facts1 t
  rw [View.read_apply]
  show A _ = _
  congr 1
  funext a
  apply Fin.ext
  match a with
  | ⟨0, _⟩ => show win1_6.index t 0 * 10000 + 1 * p.val = 10000 * t.val + p.val; rw [e0]; omega
  | ⟨1, _⟩ => show win1_6.index t 1 * 128 + 1 * q.val = q.val; rw [e1]; omega

end Value2

section Array
variable (V : (c : Dev nD) → (b : Ref sig .tc) → Buf (Elt Ideal) ((c : Thread nD τ).loc b))

/-- What point `t` writes back is block `t` of `G6`. -/
theorem flushed1_6_eq (c : Dev nD) (t : Fin cfg1.N) :
    (dat1 (F := Ideal) V c).flushed 6 t = ((cfg1.win 6).blk t).view.read (Elt Ideal) (G6 V c) := by
  show (cfg1.win 6).cut (grid1.coords t) ((dat1 (F := Ideal) V c).after 6 t) = _
  rw [after1_6, out1_6_eq]
  funext j
  obtain ⟨p, q, rfl⟩ : ∃ (p : Fin 10000) (q : Fin 128), j = ix2 p q := ⟨j 0, j 1, eq_ix2 j⟩
  refine (Cert.KPay.k1_pay1_apply _ _ _ _ _ _ p q).trans ?_
  rw [read_blk1_6 t (G6 V c) p q]
  unfold G6
  rw [normRelu_apply, iblk1_0_apply V c t p q, iblk1_1_apply V c t p q,
    iblk1_2_apply V c t q, iblk1_3_apply V c t q, iblk1_4_apply V c t q, iblk1_5_apply V c t q]

/-- The result array after the second call: `G6` of the arrays as the call finds them. Every row of the array lies in
    the block of the point its row number over 10000 names, and every point writes its block back. -/
theorem arrAt1_6 (c : Dev nD) : (dat1 (F := Ideal) V c).arrAt 6 cfg1.N = G6 V c :=
  (dat1 (F := Ideal) V c).arrAt_eq_of_cover 6 (G6 V c) (fun t _ => flushed1_6_eq V c t) fun i => by
    have h0 : (i 0 : Nat) < 50000 := (i 0).isLt
    have h1 : (i 1 : Nat) < 128 := (i 1).isLt
    have hN : cfg1.N = 5 := N_1
    have ht : (i 0 : Nat) / 10000 < cfg1.N := by rw [hN]; omega
    obtain ⟨-, -, -, -, -, -, e0, e1⟩ := idx_facts1 ⟨(i 0 : Nat) / 10000, ht⟩
    refine ⟨⟨(i 0 : Nat) / 10000, ht⟩, flush1_6 _, ?_⟩
    show i ∈ ((View.whole main_v40).slice (win1_6.rect ⟨(i 0 : Nat) / 10000, ht⟩)).set
    rw [View.set_slice_whole, Rect.mem_set_unit]
    intro a
    match a with
    | ⟨0, _⟩ =>
      show win1_6.index ⟨(i 0 : Nat) / 10000, ht⟩ 0 * 10000 ≤ (i 0 : Nat) ∧ (i 0 : Nat) < win1_6.index ⟨(i 0 : Nat) / 10000, ht⟩ 0 * 10000 + 10000
      rw [e0]
      show (i 0 : Nat) / 10000 * 10000 ≤ (i 0 : Nat) ∧ (i 0 : Nat) < (i 0 : Nat) / 10000 * 10000 + 10000
      omega
    | ⟨1, _⟩ =>
      show win1_6.index ⟨(i 0 : Nat) / 10000, ht⟩ 1 * 128 ≤ (i 1 : Nat) ∧ (i 1 : Nat) < win1_6.index ⟨(i 0 : Nat) / 10000, ht⟩ 1 * 128 + 128
      rw [e1]; omega

end Array

end Cert.KernelIdeal.Hand

end
-- ==== Proof.LibWholeStore.lean ====
/-
  Two facts about a buffer that is stored WHOLE (through the rectangle of its full shape at zero offsets):
  the zero offsets of a rank-2 shape, however spelt, are the zero function; and a load of the whole buffer after
  a list of stores whose LAST one was whole reads that store's payload, whatever the earlier stores were.
-/
import Idealize.ShloMosaic.Lib.Pipeline.Value

noncomputable section

namespace Idealize.ShloMosaic.View

variable {Val : EltTy → Type} {S : Shape} {e : EltTy}

/-- The printed zero offsets of a rank-2 rectangle are the zero function. -/
theorem zero_offsets_two : (![0, 0] : Fin 2 → ℕ) = fun _ => 0 := by funext a; fin_cases a <;> rfl

/-- A load through the whole-shape rectangle after stores the last of which went through it reads that
    store's payload. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, by
    show y ∈ (Rect.whole S).set; rw [Rect.set_whole]; exact Finset.mem_univ y⟩), canon_cons_unit_zero rfl, ld_unit_zero rfl]

end Idealize.ShloMosaic.View

end
-- ==== Proof.Val0Acc.lean ====
/-
  What the first kernel's body leaves in its two scratch accumulators and in the two statistics windows, read back as
  payloads of what it found.

  At the first step of a core's row range the accumulators are set to zero and the block's column sums (of the linear
  layer's block, and of its square) are added to that; at the other steps the column sums are added to what the
  accumulators held; at the last step the accumulators' new contents are also stored, under a leading unit axis, into the
  two statistics windows.
-/
import proofs.«118097_j46162308497632_2_alg».proof.Proof.R0I
import proofs.«118097_j46162308497632_2_alg».proof.Proof.LibWholeStore
import Idealize.ShloMosaic.Lib.Pipeline.Value
import Idealize.ShloMosaic.Lib.Tactic
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

section Body
variable {F : FTy → Type} [FloatOps F]

/-- The zero offsets of a whole two-axis load or store. -/
theorem hz2 : (![0, 0] : Fin 2 → Nat) = fun _ => 0 := funext fun a => by fin_cases a <;> rfl
/-- The zero offsets of a whole three-axis load or store. -/
theorem hz3 : (![0, 0, 0] : Fin 3 → Nat) = fun _ => 0 := funext fun a => by fin_cases a <;> rfl

set_option maxHeartbeats 4000000 in
theorem sout0_A_0_eq (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i) (x0 : Vec F S5000x128 .f32) (x1 : Vec F S5000x1 .f32) (x2 : Vec F S128x128 .bf16) (x3 : Vec F S1x128 .f32) :
    sout0_A_0 c i arg2 harg2 arg3 harg3 arg4 harg4 arg5 harg5 arg6 harg6 arg7 harg7 arg8 harg8 arg9 harg9 arg10 harg10 hc0 hc1 x0 x1 x2 x3 = k0_pay7 x0 x1 x2 x3 (k0_pay4 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3)]
  unfold kernelRun0_A
  dsimp only
  try sl_unfold_words
  (try dsimp only)
  rw [View.canon_cons_unit_zero hz2, View.readCov_unit_zero (S := S1x128) _ hz2]
  simp only [View.readAt_eq_ld, harg2.read_unread, harg3.read_unread, harg4.read_unread, harg5.read_unread, harg9.read_unread, harg10.read_unread,
    View.ld_unit_zero (S := S5000x128) hz2, View.ld_unit_zero (S := S5000x1) hz2, View.ld_unit_zero (S := S128x128) hz2, View.ld_unit_zero (S := S1x128) hz2]

set_option maxHeartbeats 4000000 in
theorem sout0_A_1_eq (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i) (x0 : Vec F S5000x128 .f32) (x1 : Vec F S5000x1 .f32) (x2 : Vec F S128x128 .bf16) (x3 : Vec F S1x128 .f32) :
    sout0_A_1 c i arg2 harg2 arg3 harg3 arg4 harg4 arg5 harg5 arg6 harg6 arg7 harg7 arg8 harg8 arg9 harg9 arg10 harg10 hc0 hc1 x0 x1 x2 x3 = k0_pay1 (k0_pay8 x0 x1 x2 x3 (k0_pay5 (F := F))) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3)]
  unfold kernelRun0_A
  dsimp only
  try sl_unfold_words
  (try dsimp only)
  rw [View.canon_cons_unit_zero hz2, View.readCov_unit_zero (S := S1x128) _ hz2]
  simp only [View.readAt_eq_ld, harg2.read_unread, harg3.read_unread, harg4.read_unread, harg5.read_unread, harg9.read_unread, harg10.read_unread,
    View.ld_unit_zero (S := S5000x128) hz2, View.ld_unit_zero (S := S5000x1) hz2, View.ld_unit_zero (S := S128x128) hz2, View.ld_unit_zero (S := S1x128) hz2]

set_option maxHeartbeats 4000000 in
theorem sout0_B_0_eq (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i) (x0 : Vec F S5000x128 .f32) (x1 : Vec F S5000x1 .f32) (x2 : Vec F S128x128 .bf16) (x3 : Vec F S1x128 .f32) (xs0 xs1 : Vec F S1x128 .f32) :
    sout0_B_0 c i arg2 harg2 arg3 harg3 arg4 harg4 arg5 harg5 arg6 harg6 arg7 harg7 arg8 harg8 arg9 harg9 arg10 harg10 hc0 hc1 x0 x1 x2 x3 xs0 xs1 = k0_pay7 x0 x1 x2 x3 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 xs0 xs1)]
  unfold kernelRun0_B
  dsimp only
  try sl_unfold_words
  (try dsimp only)
  rw [View.canon_unit_zero hz2]
  simp only [View.readAt_eq_ld, harg2.read_unread, harg3.read_unread, harg4.read_unread, harg5.read_unread, harg9.read_unread, harg10.read_unread,
    View.ld_unit_zero (S := S5000x128) hz2, View.ld_unit_zero (S := S5000x1) hz2, View.ld_unit_zero (S := S128x128) hz2, View.ld_unit_zero (S := S1x128) hz2]

set_option maxHeartbeats 4000000 in
theorem sout0_B_1_eq (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i) (x0 : Vec F S5000x128 .f32) (x1 : Vec F S5000x1 .f32) (x2 : Vec F S128x128 .bf16) (x3 : Vec F S1x128 .f32) (xs0 xs1 : Vec F S1x128 .f32) :
    sout0_B_1 c i arg2 harg2 arg3 harg3 arg4 harg4 arg5 harg5 arg6 harg6 arg7 harg7 arg8 harg8 arg9 harg9 arg10 harg10 hc0 hc1 x0 x1 x2 x3 xs0 xs1 = k0_pay1 (k0_pay8 x0 x1 x2 x3 xs1) := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 xs0 xs1)]
  unfold kernelRun0_B
  dsimp only
  try sl_unfold_words
  (try dsimp only)
  rw [View.canon_unit_zero hz2]
  simp only [View.readAt_eq_ld, harg2.read_unread, harg3.read_unread, harg4.read_unread, harg5.read_unread, harg9.read_unread, harg10.read_unread,
    View.ld_unit_zero (S := S5000x128) hz2, View.ld_unit_zero (S := S5000x1) hz2, View.ld_unit_zero (S := S128x128) hz2, View.ld_unit_zero (S := S1x128) hz2]

set_option maxHeartbeats 4000000 in
theorem sout0_C_0_eq (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i) (x0 : Vec F S5000x128 .f32) (x1 : Vec F S5000x1 .f32) (x2 : Vec F S128x128 .bf16) (x3 : Vec F S1x128 .f32) (xs0 xs1 : Vec F S1x128 .f32) :
    sout0_C_0 c i arg2 harg2 arg3 harg3 arg4 harg4 arg5 harg5 arg6 harg6 arg7 harg7 arg8 harg8 arg9 harg9 arg10 harg10 hc0 hc1 x0 x1 x2 x3 xs0 xs1 = k0_pay7 x0 x1 x2 x3 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 xs0 xs1)]
  unfold kernelRun0_C
  dsimp only
  try sl_unfold_words
  (try dsimp only)
  rw [View.canon_unit_zero hz2]
  simp only [View.readAt_eq_ld, harg2.read_unread, harg3.read_unread, harg4.read_unread, harg5.read_unread, harg9.read_unread, harg10.read_unread,
    View.ld_unit_zero (S := S5000x128) hz2, View.ld_unit_zero (S := S5000x1) hz2, View.ld_unit_zero (S := S128x128) hz2, View.ld_unit_zero (S := S1x128) hz2]

set_option maxHeartbeats 4000000 in
theorem sout0_C_1_eq (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i) (x0 : Vec F S5000x128 .f32) (x1 : Vec F S5000x1 .f32) (x2 : Vec F S128x128 .bf16) (x3 : Vec F S1x128 .f32) (xs0 xs1 : Vec F S1x128 .f32) :
    sout0_C_1 c i arg2 harg2 arg3 harg3 arg4 harg4 arg5 harg5 arg6 harg6 arg7 harg7 arg8 harg8 arg9 harg9 arg10 harg10 hc0 hc1 x0 x1 x2 x3 xs0 xs1 = k0_pay1 (k0_pay8 x0 x1 x2 x3 xs1) := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 xs0 xs1)]
  unfold kernelRun0_C
  dsimp only
  try sl_unfold_words
  (try dsimp only)
  rw [View.canon_unit_zero hz2]
  simp only [View.readAt_eq_ld, harg2.read_unread, harg3.read_unread, harg4.read_unread, harg5.read_unread, harg9.read_unread, harg10.read_unread,
    View.ld_unit_zero (S := S5000x128) hz2, View.ld_unit_zero (S := S5000x1) hz2, View.ld_unit_zero (S := S128x128) hz2, View.ld_unit_zero (S := S1x128) hz2]

set_option maxHeartbeats 4000000 in
theorem out0_C_5_eq (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i) (x0 : Vec F S5000x128 .f32) (x1 : Vec F S5000x1 .f32) (x2 : Vec F S128x128 .bf16) (x3 : Vec F S1x128 .f32) (xs0 xs1 : Vec F S1x128 .f32) :
    out0_C_5 c i arg2 harg2 arg3 harg3 arg4 harg4 arg5 harg5 arg6 harg6 arg7 harg7 arg8 harg8 arg9 harg9 arg10 harg10 hc0 hc1 x0 x1 x2 x3 xs0 xs1 = k0_pay2 (k0_pay7 x0 x1 x2 x3 xs0) := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 x3 xs0 xs1)]
  unfold kernelRun0_C
  dsimp only
  try sl_unfold_words
  (try dsimp only)
  rw [View.canon_unit_zero hz3, View.readCov_unit_zero (S := S1x128) _ hz2]
  simp only [View.readAt_eq_ld, harg2.read_unread, harg3.read_unread, harg4.read_unread, harg5.read_unread, harg9.read_unread, harg10.read_unread,
    View.ld_unit_zero (S := S5000x128) hz2, View.ld_unit_zero (S := S5000x1) hz2, View.ld_unit_zero (S := S128x128) hz2, View.ld_unit_zero (S := S1x128) hz2]

set_option maxHeartbeats 4000000 in
theorem out0_C_6_eq (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i) (x0 : Vec F S5000x128 .f32) (x1 : Vec F S5000x1 .f32) (x2 : Vec F S128x128 .bf16) (x3 : Vec F S1x128 .f32) (xs0 xs1 : Vec F S1x128 .f32) :
    out0_C_6 c i arg2 harg2 arg3 harg3 arg4 harg4 arg5 harg5 arg6 harg6 arg7 harg7 arg8 harg8 arg9 harg9 arg10 harg10 hc0 hc1 x0 x1 x2 x3 xs0 xs1 = k0_pay3 (k0_pay1 (k0_pay8 x0 x1 x2 x3 xs1)) := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 xs0 xs1)]
  unfold kernelRun0_C
  dsimp only
  try sl_unfold_words
  (try dsimp only)
  rw [View.canon_unit_zero hz3, View.readCov_unit_zero (S := S1x128) _ hz2]
  simp only [View.readAt_eq_ld, harg2.read_unread, harg3.read_unread, harg4.read_unread, harg5.read_unread, harg9.read_unread, harg10.read_unread,
    View.ld_unit_zero (S := S5000x128) hz2, View.ld_unit_zero (S := S5000x1) hz2, View.ld_unit_zero (S := S128x128) hz2, View.ld_unit_zero (S := S1x128) hz2]

end Body

end Cert.KernelIdeal.Hand

end
-- ==== Proof.Val0Rec.lean ====
/-
  The first kernel's two scratch accumulators after each grid point, on the extended reals.

  Write P t for the linear layer's block at point t (a function of the four input blocks there), colSum t q for the sum
  of column q of P t over its 5000 rows, and colSq t q for the sum of the squares. After point t the first accumulator
  holds, at column q,   (0 if t is the first step of its core's row range, else what it held after point t − 1) + colSum t q,
  and the second the same with colSq. So after step j of core cc's range (point 5·cc + j) they hold the sums of
  colSum, resp. colSq, over the steps 0 … j of that range. At the last step the two statistics windows' buffers hold the
  same rows under a leading unit axis.
-/
import proofs.«118097_j46162308497632_2_alg».proof.Proof.Val0Acc
import proofs.«118097_j46162308497632_2_alg».proof.Proof.KPay
import Idealize.ShloMosaic.Lib.Pipeline.Value
import Idealize.ShloMosaic.Lib.Tactic
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

section Rec
variable (V : (c : Dev nD) → (b : Ref sig .tc) → Buf (Elt Ideal) ((c : Thread nD τ).loc b))

/-- The linear layer's block at point `t`. -/
def blkLin (c : Dev nD) (t : Fin cfg0.N) : Vec Ideal S5000x128 .f32 :=
  k0_pay6 (F := Ideal) (iblk0 V c 0 t) (iblk0 V c 1 t) (iblk0 V c 2 t) (iblk0 V c 3 t)

/-- The sum of column `q` of the block at the natural point `n` (zero past the grid). -/
def colSumN (c : Dev nD) (q : Fin 128) (n : ℕ) : EReal :=
  if h : n < cfg0.N then ∑ r : Fin 5000, blkLin V c ⟨n, h⟩ (ix2 r q) else 0

/-- The sum of the squares of column `q` of the block at the natural point `n` (zero past the grid). -/
def colSqN (c : Dev nD) (q : Fin 128) (n : ℕ) : EReal :=
  if h : n < cfg0.N then ∑ r : Fin 5000, blkLin V c ⟨n, h⟩ (ix2 r q) * blkLin V c ⟨n, h⟩ (ix2 r q) else 0

/-- The first accumulator after the natural point `n`, at column `q` (zero past the grid). -/
def accN0 (c : Dev nD) (q : Fin 128) (n : ℕ) : EReal :=
  if h : n < cfg0.N then (outsAt0 (F := Ideal) V c n h).2.2.2.1 (ix2 (0 : Fin 1) q) else 0

/-- The second accumulator after the natural point `n`, at column `q` (zero past the grid). -/
def accN1 (c : Dev nD) (q : Fin 128) (n : ℕ) : EReal :=
  if h : n < cfg0.N then (outsAt0 (F := Ideal) V c n h).2.2.2.2 (ix2 (0 : Fin 1) q) else 0

/-- One step of the first accumulator. -/
theorem accN0_rec (c : Dev nD) (q : Fin 128) (n : ℕ) (hn : n < cfg0.N) :
    accN0 V c q n = (if n % 5 = 0 then 0 else accN0 V c q (n - 1)) + colSumN V c q n := by
  have e : outsAt0 (F := Ideal) V c n hn = step0 V c ⟨n, hn⟩ (prev0 V c n hn) := outsAt0_eq V c ⟨n, hn⟩
  unfold accN0 colSumN
  rw [dif_pos hn, dif_pos hn, e]
  by_cases h0 : n % 5 = 0
  · rw [if_pos h0, step0_A V c ⟨n, hn⟩ _ h0]
    dsimp only
    rw [sout0_A_0_eq, Cert.KPay.k0_pay7_apply, Cert.KPay.k0_pay4_apply]
    rfl
  · have hz : n ≠ 0 := fun e0 => h0 (by rw [e0])
    have hp : prev0 (F := Ideal) V c n hn = (outsAt0 V c (n - 1) (Nat.lt_of_le_of_lt (Nat.sub_le _ _) hn)).2.2.2 :=
      prev0_pos V c ⟨n, hn⟩ hz
    rw [if_neg h0, dif_pos (Nat.lt_of_le_of_lt (Nat.sub_le _ _) hn), hp]
    by_cases h1 : n % 5 = 4
    · rw [step0_C V c ⟨n, hn⟩ _ h0 h1]
      dsimp only
      rw [sout0_C_0_eq, Cert.KPay.k0_pay7_apply]
      rfl
    · rw [step0_B V c ⟨n, hn⟩ _ h0 h1]
      dsimp only
      rw [sout0_B_0_eq, Cert.KPay.k0_pay7_apply]
      rfl

/-- One step of the second accumulator. -/
theorem accN1_rec (c : Dev nD) (q : Fin 128) (n : ℕ) (hn : n < cfg0.N) :
    accN1 V c q n = (if n % 5 = 0 then 0 else accN1 V c q (n - 1)) + colSqN V c q n := by
  have e : outsAt0 (F := Ideal) V c n hn = step0 V c ⟨n, hn⟩ (prev0 V c n hn) := outsAt0_eq V c ⟨n, hn⟩
  unfold accN1 colSqN
  rw [dif_pos hn, dif_pos hn, e]
  by_cases h0 : n % 5 = 0
  · rw [if_pos h0, step0_A V c ⟨n, hn⟩ _ h0]
    dsimp only
    rw [sout0_A_1_eq, Cert.KPay.k0_pay1_apply, Cert.KPay.k0_pay8_apply, Cert.KPay.k0_pay5_apply]
    rfl
  · have hz : n ≠ 0 := fun e0 => h0 (by rw [e0])
    have hp : prev0 (F := Ideal) V c n hn = (outsAt0 V c (n - 1) (Nat.lt_of_le_of_lt (Nat.sub_le _ _) hn)).2.2.2 :=
      prev0_pos V c ⟨n, hn⟩ hz
    rw [if_neg h0, dif_pos (Nat.lt_of_le_of_lt (Nat.sub_le _ _) hn), hp]
    by_cases h1 : n % 5 = 4
    · rw [step0_C V c ⟨n, hn⟩ _ h0 h1]
      dsimp only
      rw [sout0_C_1_eq, Cert.KPay.k0_pay1_apply, Cert.KPay.k0_pay8_apply]
      rfl
    · rw [step0_B V c ⟨n, hn⟩ _ h0 h1]
      dsimp only
      rw [sout0_B_1_eq, Cert.KPay.k0_pay1_apply, Cert.KPay.k0_pay8_apply]
      rfl

/-- A quantity that restarts from zero at the first step of each range of five points and adds that point's term at
    every step is, at step `j` of range `cc`, the sum of the terms of the steps `0 … j` of that range. -/
theorem closed_of_rec (acc term : ℕ → EReal) (N : ℕ)
    (hrec : ∀ n, n < N → acc n = (if n % 5 = 0 then 0 else acc (n - 1)) + term n) (cc : ℕ) :
    ∀ j, j < 5 → 5 * cc + j < N → acc (5 * cc + j) = ∑ j' ∈ Finset.range (j + 1), term (5 * cc + j')
  | 0, _, h => by
    rw [hrec _ h, if_pos (by omega), zero_add]
    simp
  | j + 1, hj, h => by
    rw [hrec _ h, if_neg (by omega), show 5 * cc + (j + 1) - 1 = 5 * cc + j from by omega,
      closed_of_rec acc term N hrec cc j (by omega) (by omega), Finset.sum_range_succ _ (j + 1)]

/-- The first accumulator after step `j` of core `cc`'s range. -/
theorem accN0_closed (c : Dev nD) (q : Fin 128) (cc j : ℕ) (hj : j < 5) (h : 5 * cc + j < cfg0.N) :
    accN0 V c q (5 * cc + j) = ∑ j' ∈ Finset.range (j + 1), colSumN V c q (5 * cc + j') :=
  closed_of_rec (accN0 V c q) (colSumN V c q) cfg0.N (accN0_rec V c q) cc j hj h

/-- The second accumulator after step `j` of core `cc`'s range. -/
theorem accN1_closed (c : Dev nD) (q : Fin 128) (cc j : ℕ) (hj : j < 5) (h : 5 * cc + j < cfg0.N) :
    accN1 V c q (5 * cc + j) = ∑ j' ∈ Finset.range (j + 1), colSqN V c q (5 * cc + j') :=
  closed_of_rec (accN1 V c q) (colSqN V c q) cfg0.N (accN1_rec V c q) cc j hj h

/-- At a last step the first statistics window's buffer holds the first accumulator's row. -/
theorem win5_at_last (c : Dev nD) (q : Fin 128) (t : Fin cfg0.N) (h1 : t.val % 5 = 4) :
    (outsAt0 (F := Ideal) V c t.val t.isLt).2.1 (ix3 (0 : Fin 1) (0 : Fin 1) q) = accN0 V c q t.val := by
  have h0 : ¬t.val % 5 = 0 := by omega
  have hz : t.val ≠ 0 := fun e0 => h0 (by rw [e0])
  unfold accN0
  rw [dif_pos t.isLt, outsAt0_eq V c t, prev0_pos V c t hz, step0_C V c t _ h0 h1]
  dsimp only
  rw [out0_C_5_eq, sout0_C_0_eq, Cert.KPay.k0_pay2_apply]

/-- At a last step the second statistics window's buffer holds the second accumulator's row. -/
theorem win6_at_last (c : Dev nD) (q : Fin 128) (t : Fin cfg0.N) (h1 : t.val % 5 = 4) :
    (outsAt0 (F := Ideal) V c t.val t.isLt).2.2.1 (ix3 (0 : Fin 1) (0 : Fin 1) q) = accN1 V c q t.val := by
  have h0 : ¬t.val % 5 = 0 := by omega
  have hz : t.val ≠ 0 := fun e0 => h0 (by rw [e0])
  unfold accN1
  rw [dif_pos t.isLt, outsAt0_eq V c t, prev0_pos V c t hz, step0_C V c t _ h0 h1]
  dsimp only
  rw [out0_C_6_eq, sout0_C_1_eq, Cert.KPay.k0_pay3_apply]

end Rec

end Cert.KernelIdeal.Hand

end
-- ==== Proof.LibBlockSum.lean ====
/-
  Two general facts for reading a blocked array back as one function:
  * a sum over a·b consecutive naturals is the sum, over a blocks, of the sums over the b entries of each block; so a
    running sum over blocks of b rows, after all a blocks, is the sum over all a·b rows;
  * two functions on a two-axis index set that agree at every pair of coordinates are equal.
-/
import Mathlib.Algebra.BigOperators.Fin
import Idealize.ShloMosaic.Lib.ValueIdx

namespace LibBlockSum

open Idealize.ShloMosaic Idealize.ShloMosaic.ValueIdx

/-- A sum over the first a·b naturals, block by block. -/
theorem sum_range_mul {M : Type*} [AddCommMonoid M] (f : ℕ → M) (b : ℕ) :
    ∀ a : ℕ, ∑ r ∈ Finset.range (a * b), f r = ∑ s ∈ Finset.range a, ∑ p ∈ Finset.range b, f (s * b + p)
  | 0 => by simp
  | a + 1 => by
    rw [Nat.succ_mul, Finset.sum_range_add, sum_range_mul f b a, Finset.sum_range_succ]

/-- The sum over a blocks of the sums over each block's b entries is the sum over all N = a·b entries. -/
theorem sum_blocks {M : Type*} [AddCommMonoid M] (f : ℕ → M) (a b N : ℕ) (h : a * b = N) :
    ∑ s ∈ Finset.range a, ∑ p : Fin b, f (s * b + p.val) = ∑ n : Fin N, f n.val := by
  subst h
  rw [← Finset.sum_range (fun r => f r), sum_range_mul f b a]
  refine Finset.sum_congr rfl fun s _ => ?_
  exact (Finset.sum_range (fun p => f (s * b + p))).symm

/-- Functions on a two-axis index set that agree at every pair of coordinates are equal. -/
theorem ext_ix2 {A B : ℕ} {α : Type} (z g : (⟨2, ![A, B]⟩ : Shape).Idx → α)
    (h : ∀ (p : Fin A) (q : Fin B), z (ix2 p q) = g (ix2 p q)) : z = g :=
  funext fun y => by rw [eq_ix2 y]; exact h _ _

end LibBlockSum
-- ==== Proof.Val0Stats.lean ====
/-
  The two statistics arrays after the first call, on the extended reals, summed over the two cores.

  Each core's last step writes its accumulators' rows back: row cc of the first statistics array is the sum, over the five
  steps of core cc's row range, of the blocks' column sums, and row cc of the second the same with the column sums of
  squares. Block t of the linear layer is rows 5000·t … 5000·t + 4999 of one function H4 of the arrays the call finds, so
  a block's column sum is a sum over 5000 consecutive rows of H4; five consecutive blocks make 25000 consecutive rows, and
  the two cores' ranges make all 50000. Hence the two rows of the first array add up to the column sums of H4 over all
  50000 rows, and those of the second to the column sums of its square.
-/
import proofs.«118097_j46162308497632_2_alg».proof.Proof.Val0Rec
import proofs.«118097_j46162308497632_2_alg».proof.Proof.Val0Blk
import proofs.«118097_j46162308497632_2_alg».proof.Proof.LibBlockSum
import Idealize.ShloMosaic.Lib.Pipeline.Value
import Idealize.ShloMosaic.Lib.Tactic
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

section Stats
variable (V : (c : Dev nD) → (b : Ref sig .tc) → Buf (Elt Ideal) ((c : Thread nD τ).loc b))

/-- The printed index maps of the two statistics windows over the grid: block `(t / 5, 0, 0)` at point `t`. -/
theorem idx_facts0_56 : ∀ t : Fin cfg0.N,
    (win0_5.index t (0 : Fin 3) = t.val / 5 ∧ win0_5.index t (1 : Fin 3) = 0 ∧ win0_5.index t (2 : Fin 3) = 0)
    ∧ (win0_6.index t (0 : Fin 3) = t.val / 5 ∧ win0_6.index t (1 : Fin 3) = 0 ∧ win0_6.index t (2 : Fin 3) = 0) :=
  (by decide +kernel : ∀ t : Fin grid0.N, _)

/-- What the statistics array of window 5 ends holding: at core `cc` and column `q`, the sum over the five steps of
    that core's row range of the blocks' column sums. -/
def Gsum (c : Dev nD) : S2x1x128.Idx → EReal := fun i =>
  ∑ j ∈ Finset.range 5, colSumN V c (i 2 : Fin 128) (5 * (i 0 : Fin 2).val + j)

/-- Window 5's block at point `t` of any array, at column `q`: the array at core `t / 5`. -/
theorem read_blk0_5 (t : Fin cfg0.N) (A : S2x1x128.Idx → EReal) (q : Fin 128) (cc : Fin 2) (hcc : cc.val = t.val / 5) :
    (((cfg0.win 5).blk t).view.read (Elt Ideal) A : Vec Ideal S1x1x128 .f32) (ix3 (0 : Fin 1) (0 : Fin 1) q)
      = A (ix3 cc (0 : Fin 1) q) := by
  obtain ⟨e0, e1, e2⟩ := (idx_facts0_56 t).1
  rw [View.read_apply]
  show A _ = _
  congr 1
  funext a
  apply Fin.ext
  match a with
  | ⟨0, _⟩ => show win0_5.index t 0 * 1 + 1 * 0 = cc.val; rw [e0, hcc]; omega
  | ⟨1, _⟩ => show win0_5.index t 1 * 1 + 1 * 0 = 0; rw [e1]
  | ⟨2, _⟩ => show win0_5.index t 2 * 128 + 1 * q.val = q.val; rw [e2]; omega

/-- What a last step writes back to window 5's array is its block of `Gsum`. -/
theorem flushed0_5_eq (c : Dev nD) (t : Fin cfg0.N) (hf : (cfg0.win 5).flush t = true) :
    (dat0 (F := Ideal) V c).flushed 5 t = ((cfg0.win 5).blk t).view.read (Elt Ideal) (Gsum V c) := by
  have h1 : t.val % 5 = 4 := (flush0_5 t).mp hf
  have hN : t.val < 10 := lt_of_lt_of_eq t.isLt (show cfg0.N = 10 from N_0)
  show (cfg0.win 5).cut (grid0.coords t) ((dat0 (F := Ideal) V c).after 5 t) = _
  rw [after0_5]
  funext y
  obtain ⟨a, b, q, rfl⟩ : ∃ (a b : Fin 1) (q : Fin 128), y = ix3 a b q := ⟨y 0, y 1, y 2, eq_ix3 y⟩
  obtain rfl : a = 0 := Subsingleton.elim _ _
  obtain rfl : b = 0 := Subsingleton.elim _ _
  refine (win5_at_last V c q t h1).trans ?_
  rw [read_blk0_5 t (Gsum V c) q ⟨t.val / 5, by omega⟩ rfl]
  have ht : t.val = 5 * (t.val / 5) + 4 := by omega
  have hc := accN0_closed V c q (t.val / 5) 4 (by omega) (by rw [← ht]; exact t.isLt)
  rw [← ht] at hc
  exact hc

/-- The statistics array of window 5 after the call. The two last steps' blocks are the array's two rows. -/
theorem arrAt0_5 (c : Dev nD) : (dat0 (F := Ideal) V c).arrAt 5 cfg0.N = Gsum V c :=
  (dat0 (F := Ideal) V c).arrAt_eq_of_cover 5 (Gsum V c) (fun t hf => flushed0_5_eq V c t hf) fun i => by
    have h0 : (i 0 : Nat) < 2 := (i 0).isLt
    have h1 : (i 1 : Nat) < 1 := (i 1).isLt
    have h2 : (i 2 : Nat) < 128 := (i 2).isLt
    have hN : cfg0.N = 10 := N_0
    have ht : 5 * (i 0 : Nat) + 4 < cfg0.N := by rw [hN]; omega
    obtain ⟨e0, e1, e2⟩ := (idx_facts0_56 ⟨5 * (i 0 : Nat) + 4, ht⟩).1
    refine ⟨⟨5 * (i 0 : Nat) + 4, ht⟩, (flush0_5 _).mpr (by show (5 * (i 0 : Nat) + 4) % 5 = 4; omega), ?_⟩
    show i ∈ ((View.whole main_v23_1).slice (win0_5.rect ⟨5 * (i 0 : Nat) + 4, ht⟩)).set
    rw [View.set_slice_whole, Rect.mem_set_unit]
    intro a
    match a with
    | ⟨0, _⟩ =>
      show win0_5.index ⟨5 * (i 0 : Nat) + 4, ht⟩ 0 * 1 ≤ (i 0 : Nat) ∧ (i 0 : Nat) < win0_5.index ⟨5 * (i 0 : Nat) + 4, ht⟩ 0 * 1 + 1
      rw [e0]
      show (5 * (i 0 : Nat) + 4) / 5 * 1 ≤ (i 0 : Nat) ∧ (i 0 : Nat) < (5 * (i 0 : Nat) + 4) / 5 * 1 + 1
      omega
    | ⟨1, _⟩ =>
      show win0_5.index ⟨5 * (i 0 : Nat) + 4, ht⟩ 1 * 1 ≤ (i 1 : Nat) ∧ (i 1 : Nat) < win0_5.index ⟨5 * (i 0 : Nat) + 4, ht⟩ 1 * 1 + 1
      rw [e1]; omega
    | ⟨2, _⟩ =>
      show win0_5.index ⟨5 * (i 0 : Nat) + 4, ht⟩ 2 * 128 ≤ (i 2 : Nat) ∧ (i 2 : Nat) < win0_5.index ⟨5 * (i 0 : Nat) + 4, ht⟩ 2 * 128 + 128
      rw [e2]; omega

/-- What the statistics array of window 6 ends holding: at core `cc` and column `q`, the sum over the five steps of
    that core's row range of the blocks' column sums of squares. -/
def Gsq (c : Dev nD) : S2x1x128.Idx → EReal := fun i =>
  ∑ j ∈ Finset.range 5, colSqN V c (i 2 : Fin 128) (5 * (i 0 : Fin 2).val + j)

/-- Window 6's block at point `t` of any array, at column `q`: the array at core `t / 5`. -/
theorem read_blk0_6 (t : Fin cfg0.N) (A : S2x1x128.Idx → EReal) (q : Fin 128) (cc : Fin 2) (hcc : cc.val = t.val / 5) :
    (((cfg0.win 6).blk t).view.read (Elt Ideal) A : Vec Ideal S1x1x128 .f32) (ix3 (0 : Fin 1) (0 : Fin 1) q)
      = A (ix3 cc (0 : Fin 1) q) := by
  obtain ⟨e0, e1, e2⟩ := (idx_facts0_56 t).2
  rw [View.read_apply]
  show A _ = _
  congr 1
  funext a
  apply Fin.ext
  match a with
  | ⟨0, _⟩ => show win0_6.index t 0 * 1 + 1 * 0 = cc.val; rw [e0, hcc]; omega
  | ⟨1, _⟩ => show win0_6.index t 1 * 1 + 1 * 0 = 0; rw [e1]
  | ⟨2, _⟩ => show win0_6.index t 2 * 128 + 1 * q.val = q.val; rw [e2]; omega

/-- What a last step writes back to window 6's array is its block of `Gsq`. -/
theorem flushed0_6_eq (c : Dev nD) (t : Fin cfg0.N) (hf : (cfg0.win 6).flush t = true) :
    (dat0 (F := Ideal) V c).flushed 6 t = ((cfg0.win 6).blk t).view.read (Elt Ideal) (Gsq V c) := by
  have h1 : t.val % 5 = 4 := (flush0_6 t).mp hf
  have hN : t.val < 10 := lt_of_lt_of_eq t.isLt (show cfg0.N = 10 from N_0)
  show (cfg0.win 6).cut (grid0.coords t) ((dat0 (F := Ideal) V c).after 6 t) = _
  rw [after0_6]
  funext y
  obtain ⟨a, b, q, rfl⟩ : ∃ (a b : Fin 1) (q : Fin 128), y = ix3 a b q := ⟨y 0, y 1, y 2, eq_ix3 y⟩
  obtain rfl : a = 0 := Subsingleton.elim _ _
  obtain rfl : b = 0 := Subsingleton.elim _ _
  refine (win6_at_last V c q t h1).trans ?_
  rw [read_blk0_6 t (Gsq V c) q ⟨t.val / 5, by omega⟩ rfl]
  have ht : t.val = 5 * (t.val / 5) + 4 := by omega
  have hc := accN1_closed V c q (t.val / 5) 4 (by omega) (by rw [← ht]; exact t.isLt)
  rw [← ht] at hc
  exact hc

/-- The statistics array of window 6 after the call. The two last steps' blocks are the array's two rows. -/
theorem arrAt0_6 (c : Dev nD) : (dat0 (F := Ideal) V c).arrAt 6 cfg0.N = Gsq V c :=
  (dat0 (F := Ideal) V c).arrAt_eq_of_cover 6 (Gsq V c) (fun t hf => flushed0_6_eq V c t hf) fun i => by
    have h0 : (i 0 : Nat) < 2 := (i 0).isLt
    have h1 : (i 1 : Nat) < 1 := (i 1).isLt
    have h2 : (i 2 : Nat) < 128 := (i 2).isLt
    have hN : cfg0.N = 10 := N_0
    have ht : 5 * (i 0 : Nat) + 4 < cfg0.N := by rw [hN]; omega
    obtain ⟨e0, e1, e2⟩ := (idx_facts0_56 ⟨5 * (i 0 : Nat) + 4, ht⟩).2
    refine ⟨⟨5 * (i 0 : Nat) + 4, ht⟩, (flush0_6 _).mpr (by show (5 * (i 0 : Nat) + 4) % 5 = 4; omega), ?_⟩
    show i ∈ ((View.whole main_v23_2).slice (win0_6.rect ⟨5 * (i 0 : Nat) + 4, ht⟩)).set
    rw [View.set_slice_whole, Rect.mem_set_unit]
    intro a
    match a with
    | ⟨0, _⟩ =>
      show win0_6.index ⟨5 * (i 0 : Nat) + 4, ht⟩ 0 * 1 ≤ (i 0 : Nat) ∧ (i 0 : Nat) < win0_6.index ⟨5 * (i 0 : Nat) + 4, ht⟩ 0 * 1 + 1
      rw [e0]
      show (5 * (i 0 : Nat) + 4) / 5 * 1 ≤ (i 0 : Nat) ∧ (i 0 : Nat) < (5 * (i 0 : Nat) + 4) / 5 * 1 + 1
      omega
    | ⟨1, _⟩ =>
      show win0_6.index ⟨5 * (i 0 : Nat) + 4, ht⟩ 1 * 1 ≤ (i 1 : Nat) ∧ (i 1 : Nat) < win0_6.index ⟨5 * (i 0 : Nat) + 4, ht⟩ 1 * 1 + 1
      rw [e1]; omega
    | ⟨2, _⟩ =>
      show win0_6.index ⟨5 * (i 0 : Nat) + 4, ht⟩ 2 * 128 ≤ (i 2 : Nat) ∧ (i 2 : Nat) < win0_6.index ⟨5 * (i 0 : Nat) + 4, ht⟩ 2 * 128 + 128
      rw [e2]; omega

/-! ## The blocks' column sums as sums over consecutive rows of `H4` -/

/-- Column `q` of `H4` at the natural row `m` (zero past the array). -/
def rowFn (c : Dev nD) (q : Fin 128) (m : ℕ) : EReal := if h : m < 50000 then H4 V c (ix2 ⟨m, h⟩ q) else 0

/-- The linear layer's block at point `n`, at `(r, q)`, is `H4` at row `5000·n + r`. -/
theorem blkLin_apply (c : Dev nD) (q : Fin 128) (n : ℕ) (hn : n < cfg0.N) (r : Fin 5000) :
    blkLin V c ⟨n, hn⟩ (ix2 r q) = rowFn V c q (n * 5000 + r.val) := by
  have hlt : n * 5000 + r.val < 50000 := by
    have := r.isLt; have : n < 10 := lt_of_lt_of_eq hn (show cfg0.N = 10 from N_0); omega
  unfold blkLin rowFn
  rw [dif_pos hlt, blk0_4_apply V c ⟨n, hn⟩ r q]
  exact congrArg (fun p => H4 V c (ix2 p q)) (Fin.ext (by unfold rowAt0; show 5000 * n + r.val = n * 5000 + r.val; omega))

theorem colSumN_eq (c : Dev nD) (q : Fin 128) (n : ℕ) (hn : n < cfg0.N) :
    colSumN V c q n = ∑ r : Fin 5000, rowFn V c q (n * 5000 + r.val) := by
  unfold colSumN
  rw [dif_pos hn]
  exact Finset.sum_congr rfl fun r _ => blkLin_apply V c q n hn r

theorem colSqN_eq (c : Dev nD) (q : Fin 128) (n : ℕ) (hn : n < cfg0.N) :
    colSqN V c q n = ∑ r : Fin 5000, rowFn V c q (n * 5000 + r.val) * rowFn V c q (n * 5000 + r.val) := by
  unfold colSqN
  rw [dif_pos hn]
  exact Finset.sum_congr rfl fun r _ => by rw [blkLin_apply V c q n hn r]

/-- Two ranges of five blocks of 5000 consecutive naturals are the first 50000 naturals. -/
theorem sum_rows (f : ℕ → EReal) :
    ∑ cc ∈ Finset.range 2, ∑ j ∈ Finset.range 5, ∑ r : Fin 5000, f ((5 * cc + j) * 5000 + r.val) = ∑ p : Fin 50000, f p.val := by
  have inner : ∀ cc : ℕ, ∑ j ∈ Finset.range 5, ∑ r : Fin 5000, f ((5 * cc + j) * 5000 + r.val)
      = ∑ n : Fin 25000, f (cc * 25000 + n.val) := fun cc => by
    rw [← LibBlockSum.sum_blocks (fun m => f (cc * 25000 + m)) 5 5000 25000 rfl]
    refine Finset.sum_congr rfl fun j _ => Finset.sum_congr rfl fun r _ => congrArg f ?_
    omega
  rw [Finset.sum_congr rfl fun cc _ => inner cc]
  exact LibBlockSum.sum_blocks f 2 25000 50000 rfl

/-- The two rows of `Gsum` add up to the column sums of `H4` over all rows. -/
theorem sum_Gsum (c : Dev nD) (q : Fin 128) :
    ∑ cc : Fin 2, Gsum V c (ix3 cc (0 : Fin 1) q) = ∑ p : Fin 50000, H4 V c (ix2 p q) := by
  have hG : ∀ cc : Fin 2, Gsum V c (ix3 cc (0 : Fin 1) q)
      = ∑ j ∈ Finset.range 5, ∑ r : Fin 5000, rowFn V c q ((5 * cc.val + j) * 5000 + r.val) := fun cc => by
    show ∑ j ∈ Finset.range 5, colSumN V c q (5 * cc.val + j) = _
    refine Finset.sum_congr rfl fun j hj => colSumN_eq V c q _ ?_
    have := Finset.mem_range.mp hj; have := cc.isLt; rw [show cfg0.N = 10 from N_0]; omega
  rw [Finset.sum_congr rfl fun cc _ => hG cc,
    ← Finset.sum_range (fun cc => ∑ j ∈ Finset.range 5, ∑ r : Fin 5000, rowFn V c q ((5 * cc + j) * 5000 + r.val)),
    sum_rows (rowFn V c q)]
  refine Finset.sum_congr rfl fun p _ => ?_
  unfold rowFn
  rw [dif_pos p.isLt]

/-- The two rows of `Gsq` add up to the column sums of the square of `H4` over all rows. -/
theorem sum_Gsq (c : Dev nD) (q : Fin 128) :
    ∑ cc : Fin 2, Gsq V c (ix3 cc (0 : Fin 1) q) = ∑ p : Fin 50000, H4 V c (ix2 p q) * H4 V c (ix2 p q) := by
  have hG : ∀ cc : Fin 2, Gsq V c (ix3 cc (0 : Fin 1) q)
      = ∑ j ∈ Finset.range 5, ∑ r : Fin 5000, rowFn V c q ((5 * cc.val + j) * 5000 + r.val) * rowFn V c q ((5 * cc.val + j) * 5000 + r.val) := fun cc => by
    show ∑ j ∈ Finset.range 5, colSqN V c q (5 * cc.val + j) = _
    refine Finset.sum_congr rfl fun j hj => colSqN_eq V c q _ ?_
    have := Finset.mem_range.mp hj; have := cc.isLt; rw [show cfg0.N = 10 from N_0]; omega
  rw [Finset.sum_congr rfl fun cc _ => hG cc,
    ← Finset.sum_range (fun cc => ∑ j ∈ Finset.range 5, ∑ r : Fin 5000, rowFn V c q ((5 * cc + j) * 5000 + r.val) * rowFn V c q ((5 * cc + j) * 5000 + r.val)),
    sum_rows (fun m => rowFn V c q m * rowFn V c q m)]
  refine Finset.sum_congr rfl fun p _ => ?_
  unfold rowFn
  rw [dif_pos p.isLt]

/-- The two rows of the first statistics array after the call add up to the column sums of `H4` over all rows. -/
theorem sum_arrAt0_5 (c : Dev nD) (q : Fin 128) (A : S2x1x128.Idx → EReal)
    (hA : A = (dat0 (F := Ideal) V c).arrAt 5 cfg0.N) :
    ∑ cc : Fin 2, A (ix3 cc (0 : Fin 1) q) = ∑ p : Fin 50000, H4 V c (ix2 p q) := by
  rw [hA, arrAt0_5 V c]
  exact sum_Gsum V c q

/-- The two rows of the second statistics array after the call add up to the column sums of the square of `H4`. -/
theorem sum_arrAt0_6 (c : Dev nD) (q : Fin 128) (A : S2x1x128.Idx → EReal)
    (hA : A = (dat0 (F := Ideal) V c).arrAt 6 cfg0.N) :
    ∑ cc : Fin 2, A (ix3 cc (0 : Fin 1) q) = ∑ p : Fin 50000, H4 V c (ix2 p q) * H4 V c (ix2 p q) := by
  rw [hA, arrAt0_6 V c]
  exact sum_Gsq V c q

end Stats

end Cert.KernelIdeal.Hand

end
-- ==== Proof.KValue.lean ====
/-
  The kernel program's result array is the specification's layer: the second call normalises the rows the first call
  wrote (the linear layer), with the mean and variance rows the host formed from the first call's two statistics
  arrays — whose entries, added over the two cores, are the column sums over all 50000 rows — and with the scale and
  shift rows, and adds the node features.
-/
import proofs.«118097_j46162308497632_2_alg».proof.Proof.KValueLin
import proofs.«118097_j46162308497632_2_alg».proof.Proof.Val1
import proofs.«118097_j46162308497632_2_alg».proof.Proof.Val0Stats

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- Normalising rows `y` that are the linear layer with mean, variance, scale and shift rows that are the
    specification's, and adding `x`, is the specification's layer. -/
theorem normRelu_out (x y : S50000x128.Idx → EReal) (mean var scale shift : S1x128.Idx → EReal)
    (W : Cert.Gcn.Wt) (b g be : Cert.Gcn.Row) (A : Cert.Gcn.Mat) (D : Cert.Gcn.Col)
    (hy : ∀ (p : Fin 50000) (q : Fin 128), y (ix2 p q) = Cert.Gcn.lin A D W b p q)
    (hm : ∀ q : Fin 128, mean (ix2 (0 : Fin 1) q) = Cert.Gcn.mu A D W b q)
    (hv : ∀ q : Fin 128, var (ix2 (0 : Fin 1) q) = Cert.Gcn.var A D W b q)
    (hs : ∀ q : Fin 128, scale (ix2 (0 : Fin 1) q) = g (ix1 q))
    (hsh : ∀ q : Fin 128, shift (ix2 (0 : Fin 1) q) = be (ix1 q))
    (p : Fin 50000) (q : Fin 128) :
    normRelu x y mean var scale shift (ix2 p q) = Cert.Gcn.out x W b g be A D (ix2 p q) := by
  rw [normRelu_apply, hy, hm, hv, hs, hsh]
  rfl

theorem V5_arg0 (c : Dev nD) : V5 m c main_arg0 = m ((c : Thread nD τ).loc main_arg0) := by
  rw [V5_eq]; exact (Cert.KHost.main_arg0_eq (W4 m c)).trans (W4_main_arg0 m c)

theorem V5_v23_0 (c : Dev nD) (p : Fin 50000) (q : Fin 128) :
    (V5 m c main_v23_0 : FVec Ideal S50000x128 .f32) (ix2 p q)
      = Cert.Gcn.lin (aggAt m c) (degAt m c) (m ((c.tc : Thread nD τ).loc main_arg1)) (m ((c.tc : Thread nD τ).loc main_arg2)) p q := by
  rw [V5_eq]
  have h : StableHlo.after (hostOps1 (F := Ideal)) (W4 m c) (Proc.devRef .tc main_v23_0) = H4 (V3 m) c :=
    (Cert.KHost.main_v23_0_eq (W4 m c)).trans ((W4_arr m c 4).trans (arrAt0_4 (V3 m) c))
  exact (congrFun h (ix2 p q)).trans (H4_lin m c p q)

theorem V5_v36 (c : Dev nD) (q : Fin 128) :
    (V5 m c main_v36 : FVec Ideal S1x128 .f32) (ix2 (0 : Fin 1) q)
      = Cert.Gcn.mu (aggAt m c) (degAt m c) (m ((c.tc : Thread nD τ).loc main_arg1)) (m ((c.tc : Thread nD τ).loc main_arg2)) q := by
  rw [V5_eq]
  refine (Cert.KHost.main_v36_apply (W4 m c) q).trans ?_
  have e5 := (sum_arrAt0_5 (V3 m) c q (W4 m c (Proc.devRef .tc main_v23_1)) (W4_arr m c 5)).trans
    (Finset.sum_congr rfl fun p _ => H4_lin m c p q)
  unfold Cert.Gcn.mu Cert.Gcn.s1
  rw [e5]

theorem V5_v37 (c : Dev nD) (q : Fin 128) :
    (V5 m c main_v37 : FVec Ideal S1x128 .f32) (ix2 (0 : Fin 1) q)
      = Cert.Gcn.var (aggAt m c) (degAt m c) (m ((c.tc : Thread nD τ).loc main_arg1)) (m ((c.tc : Thread nD τ).loc main_arg2)) q := by
  rw [V5_eq]
  refine (Cert.KHost.main_v37_apply (W4 m c) q).trans ?_
  have e5 := (sum_arrAt0_5 (V3 m) c q (W4 m c (Proc.devRef .tc main_v23_1)) (W4_arr m c 5)).trans
    (Finset.sum_congr rfl fun p _ => H4_lin m c p q)
  have e6 := (sum_arrAt0_6 (V3 m) c q (W4 m c (Proc.devRef .tc main_v23_2)) (W4_arr m c 6)).trans
    (Finset.sum_congr rfl fun p _ => by rw [H4_lin m c p q])
  unfold Cert.Gcn.var Cert.Gcn.mu Cert.Gcn.s1 Cert.Gcn.s2
  rw [e5, e6]

theorem V5_v38 (c : Dev nD) (q : Fin 128) :
    (V5 m c main_v38 : FVec Ideal S1x128 .f32) (ix2 (0 : Fin 1) q) = (m ((c.tc : Thread nD τ).loc main_arg3) : FVec Ideal S128 .f32) (ix1 q) := by
  rw [V5_eq, Cert.KHost.main_v38_apply, W4_main_arg3]

theorem V5_v39 (c : Dev nD) (q : Fin 128) :
    (V5 m c main_v39 : FVec Ideal S1x128 .f32) (ix2 (0 : Fin 1) q) = (m ((c.tc : Thread nD τ).loc main_arg4) : FVec Ideal S128 .f32) (ix1 q) := by
  rw [V5_eq, Cert.KHost.main_v39_apply, W4_main_arg4]

/-- The result array the second call leaves is the specification's layer of the launch contents. -/
theorem result_eq (c : Dev nD) :
    (dat1 (F := Ideal) (V5 m) c).arrAt 6 cfg1.N
      = Cert.Gcn.out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (aggAt m c) (degAt m c) := by
  rw [arrAt1_6]
  funext i
  obtain ⟨p, q, rfl⟩ : ∃ (p : Fin 50000) (q : Fin 128), i = ix2 p q := ⟨i 0, i 1, eq_ix2 i⟩
  refine (normRelu_out (V5 m c main_arg0) (V5 m c main_v23_0) (V5 m c main_v36) (V5 m c main_v37) (V5 m c main_v38) (V5 m c main_v39)
    (m ((c.tc : Thread nD τ).loc main_arg1)) (m ((c.tc : Thread nD τ).loc main_arg2)) (m ((c.tc : Thread nD τ).loc main_arg3)) (m ((c.tc : Thread nD τ).loc main_arg4))
    (aggAt m c) (degAt m c) (V5_v23_0 m c) (V5_v36 m c) (V5_v37 m c) (V5_v38 m c) (V5_v39 m c) p q).trans ?_
  exact congrArg (fun x => Cert.Gcn.out x (m ((c.tc : Thread nD τ).loc main_arg1)) (m ((c.tc : Thread nD τ).loc main_arg2))
    (m ((c.tc : Thread nD τ).loc main_arg3)) (m ((c.tc : Thread nD τ).loc main_arg4)) (aggAt m c) (degAt m c) (ix2 p q)) (V5_arg0 m c)

end Cert.KernelIdeal.Hand

end
-- ==== Proof.lean ====
/-
  One graph-convolution layer with batch normalisation: mean aggregation of neighbour features (a gather and two
  scatter-adds on the host, the same operations in both programs), a linear layer, batch statistics over all 50000
  rows, normalisation, a clamp at zero and a residual sum.

  The kernel computes the linear layer and the column sums of its result and of its square block by block in a first
  call (two cores' row ranges, five blocks each, the sums carried in two accumulators and written out after the last
  block), forms mean and variance on the host as s1/N and max(s2/N − mean², 0), and normalises with the reciprocal
  square root in a second call. The reference divides by max(deg, 1) under a guard, takes the variance as the mean
  squared deviation, and divides by the square root. On finite inputs every intermediate value is a real number:
  the aggregated features are finite sums of entries of the features, the degrees are natural numbers, so the guarded
  reciprocal times the sum is the guarded quotient; the two forms of the variance agree and are not negative, so the
  clamp is the identity; the variance plus ε is a positive real, so the product with the reciprocal square root is the
  quotient by the square root. Regrouping the column sums by blocks uses only that addition of extended reals is
  commutative and associative. Both programs' results are therefore the one function `Cert.Gcn.out` of the arguments.

  Each program runs to its end without a fault and leaves its arguments as launched: for the two kernel programs by
  running @main as six segments, each call's pipeline with its proof data (the accumulators' contents carried in the
  first call's invariant); for the reference by running its host operations in order.
-/
import proofs.«118097_j46162308497632_2_alg».proof.Defs
import proofs.«118097_j46162308497632_2_alg».proof.Proof.Gen.Kernel
import proofs.«118097_j46162308497632_2_alg».proof.Proof.Gen.KernelIdeal
import proofs.«118097_j46162308497632_2_alg».proof.Proof.Gen.ReferenceIdeal
import proofs.«118097_j46162308497632_2_alg».proof.Proof.Gen.Pre_finite_inputs
import proofs.«118097_j46162308497632_2_alg».proof.Proof.MainK
import proofs.«118097_j46162308497632_2_alg».proof.Proof.MainI
import proofs.«118097_j46162308497632_2_alg».proof.Proof.RefValue
import proofs.«118097_j46162308497632_2_alg».proof.Proof.RefFinite
import proofs.«118097_j46162308497632_2_alg».proof.Proof.Finite
import proofs.«118097_j46162308497632_2_alg».proof.Proof.KValue

noncomputable section

namespace Cert.Proof

open Idealize.ShloMosaic Idealize.ShloMosaic.TcCoe Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote nothing: the idealized kernel is the kernel's own text read on the extended reals. -/
theorem preserves : Cert.preserves_Kernel_KernelIdeal := trivial

/-- Both programs end with the layer's result `Cert.Gcn.out` of the arguments, the kernel by reading what its two
    calls leave, the reference by its operations read at an index and the laws above on real entries. -/
theorem algebraic : Cert.algebraic_KernelIdeal_ReferenceIdeal := by
  intro m g m' g' hpre hagree
  refine ⟨fun c => Cert.Gcn.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (Cert.ReferenceIdeal.RefRun.agg (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6)))
      (Cert.ReferenceIdeal.RefRun.deg (F := Ideal) (m ((c.tc : Thread Cert.KernelIdeal.nD Cert.KernelIdeal.τ).loc Cert.KernelIdeal.main_arg6))), ?_, ?_⟩
  · exact (θ_run Cert.KernelIdeal.defs _ _).mono (fun r h c => ⟨(h c).1.trans (Cert.KernelIdeal.Hand.result_eq m c), (h c).2⟩)
      (Cert.KernelIdeal.Hand.run_value (F := Ideal) m g)
  · refine (θ_run Cert.ReferenceIdeal.defs _ _).mono (fun r h c => ⟨(h c).1.trans ?_, (h c).2⟩)
      (Cert.ReferenceIdeal.RefRun.run (F := Ideal) m' g')
    unfold Cert.ReferenceIdeal.RefRun.res
    rw [(hagree c).1, (hagree c).2.1, (hagree c).2.2.1, (hagree c).2.2.2.1, (hagree c).2.2.2.2.1, (hagree c).2.2.2.2.2.1, (hagree c).2.2.2.2.2.2]
    exact Cert.ReferenceIdeal.RefValue.refOut_eq_spec _ _ _ _ _ _ _
      (Cert.Finite.arg0_real m hpre c) (Cert.Finite.arg1_real m hpre c) (Cert.Finite.arg2_real m hpre c)
      (Cert.Finite.arg3_real m hpre c) (Cert.Finite.arg4_real m hpre c)
      (Cert.ReferenceIdeal.RefValue.agg_real _ (Cert.Finite.arg0_real m hpre c) _ _)
      (Cert.ReferenceIdeal.RefValue.deg_nat _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
